-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S4 : Shape := ⟨1, ![4]⟩
abbrev S4x128x128 : Shape := ⟨3, ![4, 128, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4 : S_.BroadcastsInDim S4 (![] : Fin 0 → Fin S4.rank)
  reducesTo_S4_S_d0 : S4.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg8 : FVec F S4x128 .f32) (main_arg9 : FVec F S4x128 .f32) (main_arg10 : FVec F S4x128 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg10
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  main_v48

def fn_part1 {F : FTy → Type} [FloatOps F] (main_arg5 : FVec F S4x128x128 .f32) (main_arg6 : FVec F S4x128 .f32) (main_arg7 : FVec F S4x128 .f32) (main_arg8 : FVec F S4x128 .f32) (main_arg9 : FVec F S4x128 .f32) (main_arg10 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg5
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x625000 32) (main_arg2 : FVec F S4 .f32) (main_arg3 : FVec F S4x128x128 .f32) (main_arg4 : FVec F S4x128 .f32) (main_arg5 : FVec F S4x128x128 .f32) (main_arg6 : FVec F S4x128 .f32) (main_arg7 : FVec F S4x128 .f32) (main_arg8 : FVec F S4x128 .f32) (main_arg9 : FVec F S4x128 .f32) (main_arg10 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg4
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x625000 : Shape := ⟨2, ![2, 625000]⟩
abbrev S4 : Shape := ⟨1, ![4]⟩
abbrev S4x128x128 : Shape := ⟨3, ![4, 128, 128]⟩
abbrev S4x128 : Shape := ⟨2, ![4, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1 : Shape := ⟨1, ![1]⟩
abbrev S1x1 : Shape := ⟨2, ![1, 1]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2000x128 : Shape := ⟨2, ![2000, 128]⟩

abbrev nBuf : Space → Nat
  | .hbm => 199
  | .vmem => 60
  | .smem => 0
  | _ => 0

abbrev hbmTy0_0 (i : Nat) : BufTy := match i % 128 with
  | 0 => ⟨S100000x128, .f32⟩
  | 1 => ⟨S2x625000, .i32⟩
  | 2 => ⟨S4, .f32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S4x128, .f32⟩
  | 10 => ⟨S4x128, .f32⟩
  | 11 => ⟨S1x625000, .i32⟩
  | 12 => ⟨S625000, .i32⟩
  | 13 => ⟨S1x625000, .i32⟩
  | 14 => ⟨S625000, .i32⟩
  | 15 => ⟨S_, .i32⟩
  | 16 => ⟨S625000, .i32⟩
  | 17 => ⟨S625000, .i1⟩
  | 18 => ⟨S_, .i32⟩
  | 19 => ⟨S625000, .i32⟩
  | 20 => ⟨S625000, .i32⟩
  | 21 => ⟨S625000, .i32⟩
  | 22 => ⟨S625000x1, .i32⟩
  | 23 => ⟨S625000x128, .f32⟩
  | 24 => ⟨S_, .f32⟩
  | 25 => ⟨S100000x128, .f32⟩
  | 26 => ⟨S625000x1, .i32⟩
  | 27 => ⟨S100000x128, .f32⟩
  | 28 => ⟨S1, .f32⟩
  | 29 => ⟨S_, .f32⟩
  | 30 => ⟨S_, .f32⟩
  | 31 => ⟨S_, .f32⟩
  | 32 => ⟨S1x1, .f32⟩
  | 33 => ⟨S1x128, .f32⟩
  | 34 => ⟨S1x128, .f32⟩
  | 35 => ⟨S128, .f32⟩
  | 36 => ⟨S_, .f32⟩
  | 37 => ⟨S128, .f32⟩
  | 38 => ⟨S128, .f32⟩
  | 39 => ⟨S128, .f32⟩
  | 40 => ⟨S1x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S1x128, .f32⟩
  | 52 => ⟨S128, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S100000x128, .f32⟩
  | 61 => ⟨S_, .i32⟩
  | 62 => ⟨S625000, .i32⟩
  | 63 => ⟨S625000, .i1⟩
  | 64 => ⟨S_, .i32⟩
  | 65 => ⟨S625000, .i32⟩
  | 66 => ⟨S625000, .i32⟩
  | 67 => ⟨S625000, .i32⟩
  | 68 => ⟨S625000x1, .i32⟩
  | 69 => ⟨S625000x128, .f32⟩
  | 70 => ⟨S_, .f32⟩
  | 71 => ⟨S100000x128, .f32⟩
  | 72 => ⟨S625000x1, .i32⟩
  | 73 => ⟨S100000x128, .f32⟩
  | 74 => ⟨S1, .f32⟩
  | 75 => ⟨S_, .f32⟩
  | 76 => ⟨S_, .f32⟩
  | 77 => ⟨S_, .f32⟩
  | 78 => ⟨S1x1, .f32⟩
  | 79 => ⟨S1x128, .f32⟩
  | 80 => ⟨S1x128, .f32⟩
  | 81 => ⟨S128, .f32⟩
  | 82 => ⟨S_, .f32⟩
  | 83 => ⟨S128, .f32⟩
  | 84 => ⟨S128, .f32⟩
  | 85 => ⟨S128, .f32⟩
  | 86 => ⟨S1x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S1x128, .f32⟩
  | 101 => ⟨S128, .f32⟩
  | 102 => ⟨S1x128, .f32⟩
  | 103 => ⟨S1x128, .f32⟩
  | 104 => ⟨S128, .f32⟩
  | 105 => ⟨S1x128, .f32⟩
  | 106 => ⟨S100000x128, .f32⟩
  | 107 => ⟨S_, .i32⟩
  | 108 => ⟨S625000, .i32⟩
  | 109 => ⟨S625000, .i1⟩
  | 110 => ⟨S_, .i32⟩
  | 111 => ⟨S625000, .i32⟩
  | 112 => ⟨S625000, .i32⟩
  | 113 => ⟨S625000, .i32⟩
  | 114 => ⟨S625000x1, .i32⟩
  | 115 => ⟨S625000x128, .f32⟩
  | 116 => ⟨S_, .f32⟩
  | 117 => ⟨S100000x128, .f32⟩
  | 118 => ⟨S625000x1, .i32⟩
  | 119 => ⟨S100000x128, .f32⟩
  | 120 => ⟨S1, .f32⟩
  | 121 => ⟨S_, .f32⟩
  | 122 => ⟨S_, .f32⟩
  | 123 => ⟨S_, .f32⟩
  | 124 => ⟨S1x1, .f32⟩
  | 125 => ⟨S1x128, .f32⟩
  | 126 => ⟨S1x128, .f32⟩
  | 127 => ⟨S128, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S1x128x128, .f32⟩
  | 11 => ⟨S128x128, .f32⟩
  | 12 => ⟨S1x128, .f32⟩
  | 13 => ⟨S128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S100000x128, .f32⟩
  | 25 => ⟨S_, .i32⟩
  | 26 => ⟨S625000, .i32⟩
  | 27 => ⟨S625000, .i1⟩
  | 28 => ⟨S_, .i32⟩
  | 29 => ⟨S625000, .i32⟩
  | 30 => ⟨S625000, .i32⟩
  | 31 => ⟨S625000, .i32⟩
  | 32 => ⟨S625000x1, .i32⟩
  | 33 => ⟨S625000x128, .f32⟩
  | 34 => ⟨S_, .f32⟩
  | 35 => ⟨S100000x128, .f32⟩
  | 36 => ⟨S625000x1, .i32⟩
  | 37 => ⟨S100000x128, .f32⟩
  | 38 => ⟨S1, .f32⟩
  | 39 => ⟨S_, .f32⟩
  | 40 => ⟨S_, .f32⟩
  | 41 => ⟨S_, .f32⟩
  | 42 => ⟨S1x1, .f32⟩
  | 43 => ⟨S1x128, .f32⟩
  | 44 => ⟨S1x128, .f32⟩
  | 45 => ⟨S128, .f32⟩
  | 46 => ⟨S_, .f32⟩
  | 47 => ⟨S128, .f32⟩
  | 48 => ⟨S128, .f32⟩
  | 49 => ⟨S128, .f32⟩
  | 50 => ⟨S1x128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S1x128, .f32⟩
  | 62 => ⟨S128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_3 : Ref sig .tc := ⟨.hbm, 61, rfl⟩
abbrev main_v45 : Ref sig .tc := ⟨.hbm, 62, rfl⟩
abbrev main_v46 : Ref sig .tc := ⟨.hbm, 63, rfl⟩
abbrev main_c_4 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_8 : Ref sig .tc := ⟨.hbm, 107, rfl⟩
abbrev main_v86 : Ref sig .tc := ⟨.hbm, 108, rfl⟩
abbrev main_v87 : Ref sig .tc := ⟨.hbm, 109, rfl⟩
abbrev main_c_9 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_10 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_11 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_12 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_c_13 : Ref sig .tc := ⟨.hbm, 153, rfl⟩
abbrev main_v127 : Ref sig .tc := ⟨.hbm, 154, rfl⟩
abbrev main_v128 : Ref sig .tc := ⟨.hbm, 155, rfl⟩
abbrev main_c_14 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_15 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_16 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_17 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg3_0 : Ref sig .tc := ⟨.vmem, 50, rfl⟩
abbrev cc3_stg4_0 : Ref sig .tc := ⟨.vmem, 51, rfl⟩
abbrev cc3_stg5_0 : Ref sig .tc := ⟨.vmem, 52, rfl⟩
abbrev cc3_stg6_0 : Ref sig .tc := ⟨.vmem, 53, rfl⟩
abbrev cc3_stg7_0 : Ref sig .tc := ⟨.vmem, 54, rfl⟩
abbrev cc3_stg8_0 : Ref sig .tc := ⟨.vmem, 55, rfl⟩
abbrev cc3_stg9_0 : Ref sig .tc := ⟨.vmem, 56, rfl⟩
abbrev cc3_stg10_0 : Ref sig .tc := ⟨.vmem, 57, rfl⟩
abbrev cc3_stg11_0 : Ref sig .tc := ⟨.vmem, 58, rfl⟩
abbrev cc3_stg11_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem3_0 : DmaSem sig := 50
abbrev cc3_sem4_0 : DmaSem sig := 51
abbrev cc3_sem5_0 : DmaSem sig := 52
abbrev cc3_sem6_0 : DmaSem sig := 53
abbrev cc3_sem7_0 : DmaSem sig := 54
abbrev cc3_sem8_0 : DmaSem sig := 55
abbrev cc3_sem9_0 : DmaSem sig := 56
abbrev cc3_sem10_0 : DmaSem sig := 57
abbrev cc3_sem11_0 : DmaSem sig := 58
abbrev cc3_sem11_1 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  slices_S4_S1_0 : S4.Slices ![0] S1
  shapeCasts_S1_S_ : S1.ShapeCasts S_
  shapeCasts_S_S1x1 : S_.ShapeCasts S1x1
  bcast_S1x1_S1x128_0_1 : S1x1.BroadcastsInDim S1x128 (![0, 1] : Fin 2 → Fin S1x128.rank)
  slices_S4x128_S1x128_0_0 : S4x128.Slices ![0, 0] S1x128
  shapeCasts_S1x128_S128 : S1x128.ShapeCasts S128
  bcast_S_S128 : S_.BroadcastsInDim S128 (![] : Fin 0 → Fin S128.rank)
  shapeCasts_S128_S1x128 : S128.ShapeCasts S1x128
  slices_S4x128x128_S1x128x128_0_0_0 : S4x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4_S1_1 : S4.Slices ![1] S1
  slices_S4x128_S1x128_1_0 : S4x128.Slices ![1, 0] S1x128
  slices_S4x128x128_S1x128x128_1_0_0 : S4x128x128.Slices ![1, 0, 0] S1x128x128
  slices_S4_S1_2 : S4.Slices ![2] S1
  slices_S4x128_S1x128_2_0 : S4x128.Slices ![2, 0] S1x128
  slices_S4x128x128_S1x128x128_2_0_0 : S4x128x128.Slices ![2, 0, 0] S1x128x128
  slices_S4_S1_3 : S4.Slices ![3] S1
  slices_S4x128_S1x128_3_0 : S4x128.Slices ![3, 0] S1x128
  slices_S4x128x128_S1x128x128_3_0_0 : S4x128x128.Slices ![3, 0, 0] S1x128x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S2000x128_S128x128_S2000x128_1_1_0_0_n_n_wf : DotDims.WF S2000x128 S128x128 S2000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S100000x128.size a
  hwx0_11 : ∀ i : grid0.Coords, EltTy.bits .f32 = 32 ∨ (Rect.block (s := S100000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S100000x128.size a
  hwx1_11 : ∀ i : grid1.Coords, EltTy.bits .f32 = 32 ∨ (Rect.block (s := S100000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x128.size a ≤ S100000x128.size a
  hwx2_11 : ∀ i : grid2.Coords, EltTy.bits .f32 = 32 ∨ (Rect.block (s := S100000x128) S2000x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x128.size a ≤ S100000x128.size a
  hwx3_11 : ∀ i : grid3.Coords, EltTy.bits .f32 = 32 ∨ (Rect.block (s := S100000x128) S2000x128.size (cc3_transform_11 i) (hinb3_11 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v78) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v81) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v84) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v65) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v85) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v85) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v95) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v100) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v108) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v111) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v113) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v116) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v119) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v122) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v125) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v106) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v126) S2000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v126) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v136) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v141) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v149) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v152) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v154) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v157) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v160) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v163) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v166) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v147) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v167) S2000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S4 : Shape := ⟨1, ![4]⟩
abbrev S4x128x128 : Shape := ⟨3, ![4, 128, 128]⟩
abbrev S4x128 : Shape := ⟨2, ![4, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 335
  | .vmem => 0
  | .smem => 0
  | _ => 0

abbrev hbmTy0_0 (i : Nat) : BufTy := match i % 128 with
  | 0 => ⟨S100000x128, .f32⟩
  | 1 => ⟨S2x625000, .i32⟩
  | 2 => ⟨S4, .f32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S4x128, .f32⟩
  | 10 => ⟨S4x128, .f32⟩
  | 11 => ⟨S1x625000, .i32⟩
  | 12 => ⟨S625000, .i32⟩
  | 13 => ⟨S1x625000, .i32⟩
  | 14 => ⟨S625000, .i32⟩
  | 15 => ⟨S_, .i32⟩
  | 16 => ⟨S625000, .i32⟩
  | 17 => ⟨S625000, .i1⟩
  | 18 => ⟨S_, .i32⟩
  | 19 => ⟨S625000, .i32⟩
  | 20 => ⟨S625000, .i32⟩
  | 21 => ⟨S625000, .i32⟩
  | 22 => ⟨S625000x1, .i32⟩
  | 23 => ⟨S625000x128, .f32⟩
  | 24 => ⟨S_, .f32⟩
  | 25 => ⟨S100000x128, .f32⟩
  | 26 => ⟨S625000x1, .i32⟩
  | 27 => ⟨S100000x128, .f32⟩
  | 28 => ⟨S1, .f32⟩
  | 29 => ⟨S_, .f32⟩
  | 30 => ⟨S_, .f32⟩
  | 31 => ⟨S_, .f32⟩
  | 32 => ⟨S100000x128, .f32⟩
  | 33 => ⟨S100000x128, .f32⟩
  | 34 => ⟨S100000x128, .f32⟩
  | 35 => ⟨S1x128x128, .f32⟩
  | 36 => ⟨S128x128, .f32⟩
  | 37 => ⟨S128x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S1x128x128, .f32⟩
  | 48 => ⟨S128x128, .f32⟩
  | 49 => ⟨S128x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .i1⟩
  | 83 => ⟨S_, .f32⟩
  | 84 => ⟨S100000x128, .f32⟩
  | 85 => ⟨S100000x128, .i1⟩
  | 86 => ⟨S_, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S_, .i32⟩
  | 96 => ⟨S625000, .i32⟩
  | 97 => ⟨S625000, .i1⟩
  | 98 => ⟨S_, .i32⟩
  | 99 => ⟨S625000, .i32⟩
  | 100 => ⟨S625000, .i32⟩
  | 101 => ⟨S625000, .i32⟩
  | 102 => ⟨S625000x1, .i32⟩
  | 103 => ⟨S625000x128, .f32⟩
  | 104 => ⟨S_, .f32⟩
  | 105 => ⟨S100000x128, .f32⟩
  | 106 => ⟨S625000x1, .i32⟩
  | 107 => ⟨S100000x128, .f32⟩
  | 108 => ⟨S1, .f32⟩
  | 109 => ⟨S_, .f32⟩
  | 110 => ⟨S_, .f32⟩
  | 111 => ⟨S_, .f32⟩
  | 112 => ⟨S100000x128, .f32⟩
  | 113 => ⟨S100000x128, .f32⟩
  | 114 => ⟨S100000x128, .f32⟩
  | 115 => ⟨S1x128x128, .f32⟩
  | 116 => ⟨S128x128, .f32⟩
  | 117 => ⟨S128x128, .f32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S1x128x128, .f32⟩
  | _ => ⟨S100000x128, .f32⟩

abbrev hbmTy0_1 (i : Nat) : BufTy := match i % 128 with
  | 0 => ⟨S128x128, .f32⟩
  | 1 => ⟨S128x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S128, .f32⟩
  | 15 => ⟨S_, .f32⟩
  | 16 => ⟨S128, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .i1⟩
  | 35 => ⟨S_, .f32⟩
  | 36 => ⟨S100000x128, .f32⟩
  | 37 => ⟨S100000x128, .i1⟩
  | 38 => ⟨S_, .f32⟩
  | 39 => ⟨S_, .f32⟩
  | 40 => ⟨S100000x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S_, .i32⟩
  | 48 => ⟨S625000, .i32⟩
  | 49 => ⟨S625000, .i1⟩
  | 50 => ⟨S_, .i32⟩
  | 51 => ⟨S625000, .i32⟩
  | 52 => ⟨S625000, .i32⟩
  | 53 => ⟨S625000, .i32⟩
  | 54 => ⟨S625000x1, .i32⟩
  | 55 => ⟨S625000x128, .f32⟩
  | 56 => ⟨S_, .f32⟩
  | 57 => ⟨S100000x128, .f32⟩
  | 58 => ⟨S625000x1, .i32⟩
  | 59 => ⟨S100000x128, .f32⟩
  | 60 => ⟨S1, .f32⟩
  | 61 => ⟨S_, .f32⟩
  | 62 => ⟨S_, .f32⟩
  | 63 => ⟨S_, .f32⟩
  | 64 => ⟨S100000x128, .f32⟩
  | 65 => ⟨S100000x128, .f32⟩
  | 66 => ⟨S100000x128, .f32⟩
  | 67 => ⟨S1x128x128, .f32⟩
  | 68 => ⟨S128x128, .f32⟩
  | 69 => ⟨S128x128, .f32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x128x128, .f32⟩
  | 80 => ⟨S128x128, .f32⟩
  | 81 => ⟨S128x128, .f32⟩
  | 82 => ⟨S100000x128, .f32⟩
  | 83 => ⟨S1x128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .i1⟩
  | 115 => ⟨S_, .f32⟩
  | 116 => ⟨S100000x128, .f32⟩
  | 117 => ⟨S100000x128, .i1⟩
  | 118 => ⟨S_, .f32⟩
  | 119 => ⟨S_, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x128, .f32⟩
  | 127 => ⟨S_, .i32⟩
  | _ => ⟨S100000x128, .f32⟩

abbrev hbmTy0_2 (i : Nat) : BufTy := match i % 128 with
  | 0 => ⟨S625000, .i32⟩
  | 1 => ⟨S625000, .i1⟩
  | 2 => ⟨S_, .i32⟩
  | 3 => ⟨S625000, .i32⟩
  | 4 => ⟨S625000, .i32⟩
  | 5 => ⟨S625000, .i32⟩
  | 6 => ⟨S625000x1, .i32⟩
  | 7 => ⟨S625000x128, .f32⟩
  | 8 => ⟨S_, .f32⟩
  | 9 => ⟨S100000x128, .f32⟩
  | 10 => ⟨S625000x1, .i32⟩
  | 11 => ⟨S100000x128, .f32⟩
  | 12 => ⟨S1, .f32⟩
  | 13 => ⟨S_, .f32⟩
  | 14 => ⟨S_, .f32⟩
  | 15 => ⟨S_, .f32⟩
  | 16 => ⟨S100000x128, .f32⟩
  | 17 => ⟨S100000x128, .f32⟩
  | 18 => ⟨S100000x128, .f32⟩
  | 19 => ⟨S1x128x128, .f32⟩
  | 20 => ⟨S128x128, .f32⟩
  | 21 => ⟨S128x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S1x128x128, .f32⟩
  | 32 => ⟨S128x128, .f32⟩
  | 33 => ⟨S128x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S_, .f32⟩
  | 48 => ⟨S128, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .i1⟩
  | 67 => ⟨S_, .f32⟩
  | 68 => ⟨S100000x128, .f32⟩
  | 69 => ⟨S100000x128, .i1⟩
  | 70 => ⟨S_, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_2 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_cst_1 : Ref sig .tc := ⟨.hbm, 86, rfl⟩
abbrev main_call1_call0_v0 : Ref sig .tc := ⟨.hbm, 87, rfl⟩
abbrev main_call1_call0_v1 : Ref sig .tc := ⟨.hbm, 88, rfl⟩
abbrev main_call1_v4 : Ref sig .tc := ⟨.hbm, 89, rfl⟩
abbrev main_call1_v5 : Ref sig .tc := ⟨.hbm, 90, rfl⟩
abbrev main_call1_cst_2 : Ref sig .tc := ⟨.hbm, 91, rfl⟩
abbrev main_call1_v6 : Ref sig .tc := ⟨.hbm, 92, rfl⟩
abbrev main_call1_v7 : Ref sig .tc := ⟨.hbm, 93, rfl⟩
abbrev main_v62 : Ref sig .tc := ⟨.hbm, 94, rfl⟩
abbrev main_c_3 : Ref sig .tc := ⟨.hbm, 95, rfl⟩
abbrev main_v63 : Ref sig .tc := ⟨.hbm, 96, rfl⟩
abbrev main_v64 : Ref sig .tc := ⟨.hbm, 97, rfl⟩
abbrev main_c_4 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_5 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_6 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call2_cst : Ref sig .tc := ⟨.hbm, 124, rfl⟩
abbrev main_call2_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_7 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call3_cst : Ref sig .tc := ⟨.hbm, 160, rfl⟩
abbrev main_call3_v0 : Ref sig .tc := ⟨.hbm, 161, rfl⟩
abbrev main_call3_v1 : Ref sig .tc := ⟨.hbm, 162, rfl⟩
abbrev main_call3_cst_0 : Ref sig .tc := ⟨.hbm, 163, rfl⟩
abbrev main_call3_v2 : Ref sig .tc := ⟨.hbm, 164, rfl⟩
abbrev main_call3_v3 : Ref sig .tc := ⟨.hbm, 165, rfl⟩
abbrev main_call3_cst_1 : Ref sig .tc := ⟨.hbm, 166, rfl⟩
abbrev main_call3_call0_v0 : Ref sig .tc := ⟨.hbm, 167, rfl⟩
abbrev main_call3_call0_v1 : Ref sig .tc := ⟨.hbm, 168, rfl⟩
abbrev main_call3_v4 : Ref sig .tc := ⟨.hbm, 169, rfl⟩
abbrev main_call3_v5 : Ref sig .tc := ⟨.hbm, 170, rfl⟩
abbrev main_call3_cst_2 : Ref sig .tc := ⟨.hbm, 171, rfl⟩
abbrev main_call3_v6 : Ref sig .tc := ⟨.hbm, 172, rfl⟩
abbrev main_call3_v7 : Ref sig .tc := ⟨.hbm, 173, rfl⟩
abbrev main_v121 : Ref sig .tc := ⟨.hbm, 174, rfl⟩
abbrev main_c_8 : Ref sig .tc := ⟨.hbm, 175, rfl⟩
abbrev main_v122 : Ref sig .tc := ⟨.hbm, 176, rfl⟩
abbrev main_v123 : Ref sig .tc := ⟨.hbm, 177, rfl⟩
abbrev main_c_9 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_10 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_11 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_call4_cst : Ref sig .tc := ⟨.hbm, 204, rfl⟩
abbrev main_call4_v0 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_12 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_call5_cst : Ref sig .tc := ⟨.hbm, 240, rfl⟩
abbrev main_call5_v0 : Ref sig .tc := ⟨.hbm, 241, rfl⟩
abbrev main_call5_v1 : Ref sig .tc := ⟨.hbm, 242, rfl⟩
abbrev main_call5_cst_0 : Ref sig .tc := ⟨.hbm, 243, rfl⟩
abbrev main_call5_v2 : Ref sig .tc := ⟨.hbm, 244, rfl⟩
abbrev main_call5_v3 : Ref sig .tc := ⟨.hbm, 245, rfl⟩
abbrev main_call5_cst_1 : Ref sig .tc := ⟨.hbm, 246, rfl⟩
abbrev main_call5_call0_v0 : Ref sig .tc := ⟨.hbm, 247, rfl⟩
abbrev main_call5_call0_v1 : Ref sig .tc := ⟨.hbm, 248, rfl⟩
abbrev main_call5_v4 : Ref sig .tc := ⟨.hbm, 249, rfl⟩
abbrev main_call5_v5 : Ref sig .tc := ⟨.hbm, 250, rfl⟩
abbrev main_call5_cst_2 : Ref sig .tc := ⟨.hbm, 251, rfl⟩
abbrev main_call5_v6 : Ref sig .tc := ⟨.hbm, 252, rfl⟩
abbrev main_call5_v7 : Ref sig .tc := ⟨.hbm, 253, rfl⟩
abbrev main_v180 : Ref sig .tc := ⟨.hbm, 254, rfl⟩
abbrev main_c_13 : Ref sig .tc := ⟨.hbm, 255, rfl⟩
abbrev main_v181 : Ref sig .tc := ⟨.hbm, 256, rfl⟩
abbrev main_v182 : Ref sig .tc := ⟨.hbm, 257, rfl⟩
abbrev main_c_14 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_cst_15 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_cst_16 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_call6_cst : Ref sig .tc := ⟨.hbm, 284, rfl⟩
abbrev main_call6_v0 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_cst_17 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_call7_cst : Ref sig .tc := ⟨.hbm, 320, rfl⟩
abbrev main_call7_v0 : Ref sig .tc := ⟨.hbm, 321, rfl⟩
abbrev main_call7_v1 : Ref sig .tc := ⟨.hbm, 322, rfl⟩
abbrev main_call7_cst_0 : Ref sig .tc := ⟨.hbm, 323, rfl⟩
abbrev main_call7_v2 : Ref sig .tc := ⟨.hbm, 324, rfl⟩
abbrev main_call7_v3 : Ref sig .tc := ⟨.hbm, 325, rfl⟩
abbrev main_call7_cst_1 : Ref sig .tc := ⟨.hbm, 326, rfl⟩
abbrev main_call7_call0_v0 : Ref sig .tc := ⟨.hbm, 327, rfl⟩
abbrev main_call7_call0_v1 : Ref sig .tc := ⟨.hbm, 328, rfl⟩
abbrev main_call7_v4 : Ref sig .tc := ⟨.hbm, 329, rfl⟩
abbrev main_call7_v5 : Ref sig .tc := ⟨.hbm, 330, rfl⟩
abbrev main_call7_cst_2 : Ref sig .tc := ⟨.hbm, 331, rfl⟩
abbrev main_call7_v6 : Ref sig .tc := ⟨.hbm, 332, rfl⟩
abbrev main_call7_v7 : Ref sig .tc := ⟨.hbm, 333, rfl⟩
abbrev main_v239 : Ref sig .tc := ⟨.hbm, 334, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its result named.

  @main is four launches among stretches of host operations.  Every weakly fair execution ends, nothing faulting, with
  every buffer at the contents the segments leave one after the other; here that is read at the result buffer (the
  last launch's output array) and at the eleven argument buffers, which no segment changes.
-/
import proofs.«163391_j14302241096098_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any memory with zero counters every weakly fair execution of @main terminates, nothing faulting; the result
    buffer ends at what the last launch leaves in its output array and the arguments end as launched. -/
theorem run_value (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_v167) = W8 m ρ c (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v167 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.ValueRun

end
-- ==== Proof.LayerSpec.lean ====
/-
  One layer of the graph network at one entry of its output, as a function on the extended reals.

  A node's row of features `h` (128 entries) and the sum `a` of its neighbours' rows are mixed, `s·h + a`
  entry by entry (`s` is `1 + ε` in every entry).  The mixed row goes through two dense maps with 128 × 128 weight
  matrices used row against row, `y k = ∑ i, x i · W k i + b k`, the first followed by `max · 0`.  The result is
  normalised column by column, `((y − μ) · r) · γ + β` with `r` the reciprocal standard deviation, and passed through
  `elu x = x` for `x > 0`, `eˣ − 1` otherwise.  No law beyond the order of the operations is used, so nothing here
  needs a finite value.
-/
import Idealize.ShloMosaic.PureOps.Ideal
import Idealize.ShloMosaic.PureOps.Ideal.Laws
import Idealize.ShloMosaic.Lib.ValueIdx
import Idealize.ShloMosaic.Lib.IdealHost

noncomputable section

namespace Cert.LayerSpec

open Idealize.ShloMosaic Idealize.ShloMosaic.ValueIdx
open scoped BigOperators

/-- The value of the f32 pattern of `0.0`. -/
abbrev zeroLit : EReal := Ideal.ofBits .f32 0x00000000#32
/-- The value of the f32 pattern of `1.0`. -/
abbrev oneLit : EReal := Ideal.ofBits .f32 0x3F800000#32

/-- `s·h + a`, entry by entry. -/
def mixed (s h a : Fin 128 → EReal) : Fin 128 → EReal := fun k => s k * h k + a k

/-- The first dense map and the cut at zero: `max (∑ i, x i · W₁ k i + b₁ k) 0`. -/
def hidden (x : Fin 128 → EReal) (W1 : Fin 128 → Fin 128 → EReal) (b1 : Fin 128 → EReal) : Fin 128 → EReal :=
  fun k => max ((∑ i : Fin 128, x i * W1 k i) + b1 k) zeroLit

/-- The second dense map: `∑ i, y i · W₂ j i + b₂ j`. -/
def affine (y : Fin 128 → EReal) (W2 : Fin 128 → Fin 128 → EReal) (b2 : Fin 128 → EReal) : Fin 128 → EReal :=
  fun j => (∑ i : Fin 128, y i * W2 j i) + b2 j

/-- The normalisation of column `j`: `((x − μ) · r) · γ + β`. -/
def normed (x mu r g be : Fin 128 → EReal) : Fin 128 → EReal := fun j => (x j - mu j) * r j * g j + be j

/-- `x` where `x > 0`, `eˣ − 1` elsewhere. -/
def elu (x : EReal) : EReal :=
  Scalar.select (FloatOps.cmpf (F := Ideal) (φ := .f32) .ogt x zeroLit) x (Ideal.exp x - oneLit)

/-- One entry of a layer's output from the node's two rows and the layer's parameters. -/
def entry (s h a : Fin 128 → EReal) (W1 : Fin 128 → Fin 128 → EReal) (b1 : Fin 128 → EReal)
    (W2 : Fin 128 → Fin 128 → EReal) (b2 mu r g be : Fin 128 → EReal) (j : Fin 128) : EReal :=
  elu (normed (affine (hidden (mixed s h a) W1 b1) W2 b2) mu r g be j)

/-- The other spelling of `elu`: `1 · (e^y − 1)` with `y` the argument where it is not positive and `0` where it
    is — and there the first branch is taken anyway. -/
theorem elu_expm1 (x : EReal) :
    Scalar.select (FloatOps.cmpf (F := Ideal) (φ := .f32) .ogt x zeroLit) x
      (oneLit * (Ideal.exp (Scalar.select (FloatOps.cmpf (F := Ideal) (φ := .f32) .ogt x zeroLit) zeroLit x) - 1)) = elu x := by
  unfold elu
  by_cases h : FloatOps.cmpf (F := Ideal) (φ := .f32) .ogt x zeroLit = 1#1
  · rw [h, select_one, select_one]
  · rw [eq_zero_of_ne_one h, select_zero, select_zero, select_zero, show oneLit = 1 from Ideal.ofBits_one_f32, one_mul]

/-! ## A layer on whole arrays -/

/-- 100000 nodes, 128 features. -/
abbrev Big : Shape := ⟨2, ![100000, 128]⟩
/-- One row of 128. -/
abbrev Row : Shape := ⟨2, ![1, 128]⟩
/-- A 128 × 128 matrix. -/
abbrev Sq : Shape := ⟨2, ![128, 128]⟩

/-- Entry `(n, j)` of a layer's output from the whole arrays: the features, the neighbour sums, and the layer's
    parameters as one-row arrays and matrices. -/
def layerAt (h agg : Big.Idx → EReal) (sc : Row.Idx → EReal) (W1 : Sq.Idx → EReal) (b1 : Row.Idx → EReal)
    (W2 : Sq.Idx → EReal) (b2 g be mu r : Row.Idx → EReal) (n : Fin 100000) (j : Fin 128) : EReal :=
  entry (fun k => sc (ix2 (0 : Fin 1) k)) (fun k => h (ix2 n k)) (fun k => agg (ix2 n k))
    (fun k i => W1 (ix2 k i)) (fun k => b1 (ix2 (0 : Fin 1) k)) (fun k i => W2 (ix2 k i)) (fun k => b2 (ix2 (0 : Fin 1) k))
    (fun k => mu (ix2 (0 : Fin 1) k)) (fun k => r (ix2 (0 : Fin 1) k)) (fun k => g (ix2 (0 : Fin 1) k))
    (fun k => be (ix2 (0 : Fin 1) k)) j

/-- A layer's output array. -/
def layer (h agg : Big.Idx → EReal) (sc : Row.Idx → EReal) (W1 : Sq.Idx → EReal) (b1 : Row.Idx → EReal)
    (W2 : Sq.Idx → EReal) (b2 g be mu r : Row.Idx → EReal) : Big.Idx → EReal :=
  fun i => layerAt h agg sc W1 b1 W2 b2 g be mu r (i 0) (i 1)

end Cert.LayerSpec

end
-- ==== Proof.KBlock0.lean ====
/-
  What one grid point of launch 0 computes, read at an entry of its block.

  The body loads a block of 2000 node rows of the features and of the neighbour sums, the layer's one-row
  parameters and its two weight matrices, and stores one block: at row `p`, column `q`, the layer's entry
  (`Cert.LayerSpec.entry`) of row `p` of the two loaded blocks.  The two matrix products contract the feature axis
  of the left operand with the SECOND axis of the weight matrix, into a zero accumulator: at the extended reals each is the
  plain sum `∑ i, x (p, i) · W (q, i)`; the narrowing of the operands to bf16 changes nothing there.
-/
import proofs.«163391_j14302241096098_1_alg».proof.Proof.Gen.KernelIdeal.Skeleton
import proofs.«163391_j14302241096098_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block0

open Cert.KernelIdeal Cert.KernelIdeal.Gen Cert.LayerSpec Idealize.ShloMosaic Idealize.ShloMosaic.ValueIdx
open scoped BigOperators

/-- The dimension numbers of both products: axis 1 against axis 1. -/
abbrev dims : DotDims S2000x128 S128x128 S2000x128 := dot_S2000x128_S128x128_S2000x128_1_1_0_0_n_n

theorem contr_rank : dims.contr.rank = 1 := rfl
theorem contr_size : dims.contr.size ⟨0, by rw [contr_rank]; exact Nat.one_pos⟩ = 128 := rfl

/-- At output entry `(p, q)` and contraction position `i` the left operand is read at `(p, i)`. -/
theorem lhs_at (p : Fin 2000) (q : Fin 128) (i : Fin 128) :
    dims.lhsIdx (ix2 p q) ((contrEquiv1 dims 128 contr_rank contr_size).symm i) = ix2 p i := by
  funext a; apply Fin.ext
  match a with
  | ⟨0, _⟩ => rfl
  | ⟨1, _⟩ => exact (DotDims.lhsIdx_val_of_single dims (cl := (1 : Fin 2)) rfl _ _).trans (contrEquiv1_symm_val dims 128 contr_rank contr_size i)

/-- … and the right operand at `(q, i)`: row `q` of the weight matrix. -/
theorem rhs_at (p : Fin 2000) (q : Fin 128) (i : Fin 128) :
    dims.rhsIdx (ix2 p q) ((contrEquiv1 dims 128 contr_rank contr_size).symm i) = ix2 q i := by
  funext a; apply Fin.ext
  match a with
  | ⟨0, _⟩ => rfl
  | ⟨1, _⟩ => exact (DotDims.rhsIdx_val_of_single dims (cr := (1 : Fin 2)) rfl _ _).trans (contrEquiv1_symm_val dims 128 contr_rank contr_size i)

/-- The product into a zero accumulator is the sum over the feature axis of row against row. -/
theorem product_at (l : FVec Ideal S2000x128 .bf16) (r : FVec Ideal S128x128 .bf16) (p : Fin 2000) (q : Fin 128) :
    matmul dims none l r (constant S2000x128 .f32 0x00000000#32) (ix2 p q) = ∑ i : Fin 128, l (ix2 p i) * r (ix2 q i) := by
  refine (Ideal.matmul_constant_zero_apply dims none l r (ix2 p q)).trans ?_
  refine (Equiv.sum_comp (contrEquiv1 dims 128 contr_rank contr_size).symm _).symm.trans ?_
  exact Finset.sum_congr rfl fun i _ => by rw [lhs_at, rhs_at]

/-- A one-row parameter repeated down the block's rows reads, at `(p, q)`, the row's entry `q`. -/
theorem row_at (v : Vec Ideal S1x128 .f32) (p : Fin 2000) (q : Fin 128) :
    broadcastTo S2000x128 (shapeCast S1x128 v shapeCasts_S1x128_S1x128) broadcasts_S1x128_S2000x128 (ix2 p q)
      = v (ix2 (0 : Fin 1) q) := by
  rw [shapeCast_self]; exact broadcastTo_1b_ab_apply v _ p q

/-- The body's value before the last scaling, at `(p, q)`: the second dense map of the cut first one of the mixed
    row, minus the mean, times the reciprocal deviation. -/
theorem scaled_at (x0 x1 : Vec Ideal S2000x128 .f32) (x2 : Vec Ideal S1x128 .f32) (x3 : Vec Ideal S128x128 .f32)
    (x4 : Vec Ideal S1x128 .f32) (x5 : Vec Ideal S128x128 .f32) (x6 x9 x10 : Vec Ideal S1x128 .f32) (p : Fin 2000) (q : Fin 128) :
    k0_pay2 x0 x1 x2 x3 x4 x5 x6 x9 x10 (ix2 p q)
      = (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)) q
          - x9 (ix2 (0 : Fin 1) q)) * x10 (ix2 (0 : Fin 1) q) := by
  unfold k0_pay2
  refine congrArg₂ (· * ·) (congrArg₂ (· - ·) (congrArg₂ (· + ·) ?second (row_at x6 p q)) (row_at x9 p q)) (row_at x10 p q)
  refine (product_at _ _ p q).trans (Finset.sum_congr rfl fun i _ => congrArg₂ (· * ·) ?_ (congrFun (shapeCast_self x5 _) (ix2 q i)))
  refine congrArg₂ max (congrArg₂ (· + ·) ?first (row_at x4 p i)) rfl
  refine (product_at _ _ p i).trans (Finset.sum_congr rfl fun i' _ => congrArg₂ (· * ·) ?_ (congrFun (shapeCast_self x3 _) (ix2 i i')))
  exact congrArg₂ (· + ·) (congrArg₂ (· * ·) (row_at x2 p i') rfl) (congrFun (shapeCast_self x1 _) (ix2 p i'))

/-- THE BLOCK the point stores, at `(p, q)`: the layer's entry of row `p` of the loaded blocks. -/
theorem stored_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    k0_pay1 (k0_pay2 x0 x1 x2 x3 x4 x5 x6 x9 x10) x7 x8 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := by
  have hx : addf (mulf (k0_pay2 x0 x1 x2 x3 x4 x5 x6 x9 x10)
        (broadcastTo S2000x128 (shapeCast S1x128 x7 shapeCasts_S1x128_S1x128) broadcasts_S1x128_S2000x128))
        (broadcastTo S2000x128 (shapeCast S1x128 x8 shapeCasts_S1x128_S1x128) broadcasts_S1x128_S2000x128) (ix2 p q)
      = normed (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)))
          (fun k => x9 (ix2 (0 : Fin 1) k)) (fun k => x10 (ix2 (0 : Fin 1) k)) (fun k => x7 (ix2 (0 : Fin 1) k))
          (fun k => x8 (ix2 (0 : Fin 1) k)) q :=
    congrArg₂ (· + ·) (congrArg₂ (· * ·) (scaled_at x0 x1 x2 x3 x4 x5 x6 x9 x10 p q) (row_at x7 p q)) (row_at x8 p q)
  unfold k0_pay1 entry elu
  exact congrArg (fun y => Scalar.select (FloatOps.cmpf (F := Ideal) (φ := .f32) .ogt y zeroLit) y (Ideal.exp y - oneLit)) hx

/-- The block a point stores, as one function of the eleven loaded blocks. -/
def blockFn (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) : FVec Ideal S2000x128 .f32 :=
  fun j => entry (fun k => x2 (ix2 (0 : Fin 1) k)) (fun k => x0 (ix2 (⟨(j 0).val, idx2_lt0 j⟩ : Fin 2000) k))
    (fun k => x1 (ix2 (⟨(j 0).val, idx2_lt0 j⟩ : Fin 2000) k))
    (fun k i => x3 (ix2 k i)) (fun k => x4 (ix2 (0 : Fin 1) k)) (fun k i => x5 (ix2 k i)) (fun k => x6 (ix2 (0 : Fin 1) k))
    (fun k => x9 (ix2 (0 : Fin 1) k)) (fun k => x10 (ix2 (0 : Fin 1) k)) (fun k => x7 (ix2 (0 : Fin 1) k))
    (fun k => x8 (ix2 (0 : Fin 1) k)) (⟨(j 1).val, idx2_lt1 j⟩ : Fin 128)

theorem blockFn_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    blockFn x0 x1 x2 x3 x4 x5 x6 x7 x8 x9 x10 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := rfl

/-- The body's stored value IS that function. -/
theorem stored_eq (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) :
    k0_pay1 (k0_pay2 x0 x1 x2 x3 x4 x5 x6 x9 x10) x7 x8 = blockFn x0 x1 x2 x3 x4 x5 x6 x7 x8 x9 x10 := by
  funext j
  obtain ⟨p, q, rfl⟩ : ∃ (p : Fin 2000) (q : Fin 128), j = ix2 p q := ⟨j 0, j 1, eq_ix2 j⟩
  exact (stored_at x0 x1 x2 x3 x4 x5 x6 x7 x8 x9 x10 p q).trans (blockFn_at x0 x1 x2 x3 x4 x5 x6 x7 x8 x9 x10 p q).symm

/-- If the eleven loaded blocks are rows `row p` of two arrays and the whole of nine others, the stored block at
    `(p, q)` is the layer of the arrays at `(row p, q)`. -/
theorem blockFn_eq_layer (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32)
    (A0 A1 : Big.Idx → EReal) (A2 : Row.Idx → EReal) (A3 : Sq.Idx → EReal) (A4 : Row.Idx → EReal) (A5 : Sq.Idx → EReal)
    (A6 A7 A8 A9 A10 : Row.Idx → EReal) (row : Fin 2000 → Fin 100000)
    (h0 : ∀ (p : Fin 2000) (k : Fin 128), x0 (ix2 p k) = A0 (ix2 (row p) k))
    (h1 : ∀ (p : Fin 2000) (k : Fin 128), x1 (ix2 p k) = A1 (ix2 (row p) k))
    (h2 : ∀ k : Fin 128, x2 (ix2 (0 : Fin 1) k) = A2 (ix2 (0 : Fin 1) k))
    (h3 : ∀ (a k : Fin 128), x3 (ix2 a k) = A3 (ix2 a k))
    (h4 : ∀ k : Fin 128, x4 (ix2 (0 : Fin 1) k) = A4 (ix2 (0 : Fin 1) k))
    (h5 : ∀ (a k : Fin 128), x5 (ix2 a k) = A5 (ix2 a k))
    (h6 : ∀ k : Fin 128, x6 (ix2 (0 : Fin 1) k) = A6 (ix2 (0 : Fin 1) k))
    (h7 : ∀ k : Fin 128, x7 (ix2 (0 : Fin 1) k) = A7 (ix2 (0 : Fin 1) k))
    (h8 : ∀ k : Fin 128, x8 (ix2 (0 : Fin 1) k) = A8 (ix2 (0 : Fin 1) k))
    (h9 : ∀ k : Fin 128, x9 (ix2 (0 : Fin 1) k) = A9 (ix2 (0 : Fin 1) k))
    (h10 : ∀ k : Fin 128, x10 (ix2 (0 : Fin 1) k) = A10 (ix2 (0 : Fin 1) k))
    (p : Fin 2000) (q : Fin 128) :
    blockFn x0 x1 x2 x3 x4 x5 x6 x7 x8 x9 x10 (ix2 p q) = layer A0 A1 A2 A3 A4 A5 A6 A7 A8 A9 A10 (ix2 (row p) q) := by
  rw [blockFn_at]
  show _ = entry (fun k => A2 (ix2 (0 : Fin 1) k)) (fun k => A0 (ix2 (row p) k)) (fun k => A1 (ix2 (row p) k))
      (fun k i => A3 (ix2 k i)) (fun k => A4 (ix2 (0 : Fin 1) k)) (fun k i => A5 (ix2 k i)) (fun k => A6 (ix2 (0 : Fin 1) k))
      (fun k => A9 (ix2 (0 : Fin 1) k)) (fun k => A10 (ix2 (0 : Fin 1) k)) (fun k => A7 (ix2 (0 : Fin 1) k))
      (fun k => A8 (ix2 (0 : Fin 1) k)) q
  rw [show (fun k => x0 (ix2 p k)) = fun k => A0 (ix2 (row p) k) from funext (h0 p),
    show (fun k => x1 (ix2 p k)) = fun k => A1 (ix2 (row p) k) from funext (h1 p),
    show (fun k => x2 (ix2 (0 : Fin 1) k)) = fun k => A2 (ix2 (0 : Fin 1) k) from funext h2,
    show (fun k i => x3 (ix2 k i)) = fun k i => A3 (ix2 k i) from funext fun a => funext (h3 a),
    show (fun k => x4 (ix2 (0 : Fin 1) k)) = fun k => A4 (ix2 (0 : Fin 1) k) from funext h4,
    show (fun k i => x5 (ix2 k i)) = fun k i => A5 (ix2 k i) from funext fun a => funext (h5 a),
    show (fun k => x6 (ix2 (0 : Fin 1) k)) = fun k => A6 (ix2 (0 : Fin 1) k) from funext h6,
    show (fun k => x7 (ix2 (0 : Fin 1) k)) = fun k => A7 (ix2 (0 : Fin 1) k) from funext h7,
    show (fun k => x8 (ix2 (0 : Fin 1) k)) = fun k => A8 (ix2 (0 : Fin 1) k) from funext h8,
    show (fun k => x9 (ix2 (0 : Fin 1) k)) = fun k => A9 (ix2 (0 : Fin 1) k) from funext h9,
    show (fun k => x10 (ix2 (0 : Fin 1) k)) = fun k => A10 (ix2 (0 : Fin 1) k) from funext h10]

end Cert.KernelIdeal.Block0

end
-- ==== Proof.KFlush0.lean ====
/-
  Launch 0's output array after all 50 grid points, as ONE function of the arrays the launch finds.

  Point `t` reads rows `2000·t … 2000·t + 1999` of the features and of the neighbour sums, and the whole of each
  parameter array, and writes the same rows of the output; every row belongs to exactly the point `row / 2000`.  So
  the output array ends as `Cert.LayerSpec.layer` of the eleven input arrays.
-/
import proofs.«163391_j14302241096098_1_alg».proof.Proof.Gen.KernelIdeal.Frame
import proofs.«163391_j14302241096098_1_alg».proof.Proof.KBlock0
import Idealize.ShloMosaic.Lib.Pipeline.Value

set_option maxRecDepth 16384

noncomputable section

namespace Cert.KernelIdeal.Flush0

open Cert.KernelIdeal Cert.KernelIdeal.Gen Cert.LayerSpec Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the 50 points: windows 0, 1 and 11 take block row `t`, the others block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- Row `p` of point `t`'s block is row `2000·t + p` of the array. -/
def rowOf (t : Fin cfg0.N) (p : Fin 2000) : Fin 100000 :=
  ⟨t.val * 2000 + p.val, by have ht : t.val < 50 := t.isLt; have hp := p.isLt; omega⟩

/-- Window 0's block at point `t` is rows `2000·t … 2000·t + 1999` of its array. -/
theorem block0_at (c : Dev nD) (t : Fin cfg0.N) (p : Fin 2000) (k : Fin 128) :
    iblk0 V c 0 t (ix2 p k) = V c (Pipeline.arrRef spec0 0) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = t.val * 2000 + p.val; rw [i0a]; omega
  | ⟨1, _⟩ => show win0_0.index t (1 : Fin 2) * 128 + 1 * k.val = k.val; rw [i0b]; omega

/-- Window 1's block at point `t` is rows `2000·t … 2000·t + 1999` of its array. -/
theorem block1_at (c : Dev nD) (t : Fin cfg0.N) (p : Fin 2000) (k : Fin 128) :
    iblk0 V c 1 t (ix2 p k) = V c (Pipeline.arrRef spec0 1) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 1) (((cfg0.win 1).blk t).view.emb (ix2 p k)) = _
  refine congrArg (V c (Pipeline.arrRef spec0 1)) (funext fun a => Fin.ext ?_)
  match a with
  | ⟨0, _⟩ => show win0_1.index t (0 : Fin 2) * 2000 + 1 * p.val = t.val * 2000 + p.val; rw [i1a]; omega
  | ⟨1, _⟩ => show win0_1.index t (1 : Fin 2) * 128 + 1 * k.val = k.val; rw [i1b]; omega

/-- Window 2's block is its whole array at every point. -/
theorem block2_at (c : Dev nD) (t : Fin cfg0.N) (a0 : Fin 1) (k : Fin 128) :
    iblk0 V c 2 t (ix2 a0 k) = V c (Pipeline.arrRef spec0 2) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 2) (((cfg0.win 2).blk t).view.emb (ix2 a0 k)) = _
  refine congrArg (V c (Pipeline.arrRef spec0 2)) (funext fun a => Fin.ext ?_)
  match a with
  | ⟨0, _⟩ => show win0_2.index t (0 : Fin 2) * 1 + 1 * a0.val = a0.val; rw [i2a]; omega
  | ⟨1, _⟩ => show win0_2.index t (1 : Fin 2) * 128 + 1 * k.val = k.val; rw [i2b]; omega

/-- Window 3's block is its whole array at every point. -/
theorem block3_at (c : Dev nD) (t : Fin cfg0.N) (a0 : Fin 128) (k : Fin 128) :
    iblk0 V c 3 t (ix2 a0 k) = V c (Pipeline.arrRef spec0 3) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 3) (((cfg0.win 3).blk t).view.emb (ix2 a0 k)) = _
  refine congrArg (V c (Pipeline.arrRef spec0 3)) (funext fun a => Fin.ext ?_)
  match a with
  | ⟨0, _⟩ => show win0_3.index t (0 : Fin 2) * 128 + 1 * a0.val = a0.val; rw [i3a]; omega
  | ⟨1, _⟩ => show win0_3.index t (1 : Fin 2) * 128 + 1 * k.val = k.val; rw [i3b]; omega

/-- Window 4's block is its whole array at every point. -/
theorem block4_at (c : Dev nD) (t : Fin cfg0.N) (a0 : Fin 1) (k : Fin 128) :
    iblk0 V c 4 t (ix2 a0 k) = V c (Pipeline.arrRef spec0 4) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 4) (((cfg0.win 4).blk t).view.emb (ix2 a0 k)) = _
  refine congrArg (V c (Pipeline.arrRef spec0 4)) (funext fun a => Fin.ext ?_)
  match a with
  | ⟨0, _⟩ => show win0_4.index t (0 : Fin 2) * 1 + 1 * a0.val = a0.val; rw [i4a]; omega
  | ⟨1, _⟩ => show win0_4.index t (1 : Fin 2) * 128 + 1 * k.val = k.val; rw [i4b]; omega

/-- Window 5's block is its whole array at every point. -/
theorem block5_at (c : Dev nD) (t : Fin cfg0.N) (a0 : Fin 128) (k : Fin 128) :
    iblk0 V c 5 t (ix2 a0 k) = V c (Pipeline.arrRef spec0 5) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 5) (((cfg0.win 5).blk t).view.emb (ix2 a0 k)) = _
  refine congrArg (V c (Pipeline.arrRef spec0 5)) (funext fun a => Fin.ext ?_)
  match a with
  | ⟨0, _⟩ => show win0_5.index t (0 : Fin 2) * 128 + 1 * a0.val = a0.val; rw [i5a]; omega
  | ⟨1, _⟩ => show win0_5.index t (1 : Fin 2) * 128 + 1 * k.val = k.val; rw [i5b]; omega

/-- Window 6's block is its whole array at every point. -/
theorem block6_at (c : Dev nD) (t : Fin cfg0.N) (a0 : Fin 1) (k : Fin 128) :
    iblk0 V c 6 t (ix2 a0 k) = V c (Pipeline.arrRef spec0 6) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 6) (((cfg0.win 6).blk t).view.emb (ix2 a0 k)) = _
  refine congrArg (V c (Pipeline.arrRef spec0 6)) (funext fun a => Fin.ext ?_)
  match a with
  | ⟨0, _⟩ => show win0_6.index t (0 : Fin 2) * 1 + 1 * a0.val = a0.val; rw [i6a]; omega
  | ⟨1, _⟩ => show win0_6.index t (1 : Fin 2) * 128 + 1 * k.val = k.val; rw [i6b]; omega

/-- Window 7's block is its whole array at every point. -/
theorem block7_at (c : Dev nD) (t : Fin cfg0.N) (a0 : Fin 1) (k : Fin 128) :
    iblk0 V c 7 t (ix2 a0 k) = V c (Pipeline.arrRef spec0 7) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 7) (((cfg0.win 7).blk t).view.emb (ix2 a0 k)) = _
  refine congrArg (V c (Pipeline.arrRef spec0 7)) (funext fun a => Fin.ext ?_)
  match a with
  | ⟨0, _⟩ => show win0_7.index t (0 : Fin 2) * 1 + 1 * a0.val = a0.val; rw [i7a]; omega
  | ⟨1, _⟩ => show win0_7.index t (1 : Fin 2) * 128 + 1 * k.val = k.val; rw [i7b]; omega

/-- Window 8's block is its whole array at every point. -/
theorem block8_at (c : Dev nD) (t : Fin cfg0.N) (a0 : Fin 1) (k : Fin 128) :
    iblk0 V c 8 t (ix2 a0 k) = V c (Pipeline.arrRef spec0 8) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 8) (((cfg0.win 8).blk t).view.emb (ix2 a0 k)) = _
  refine congrArg (V c (Pipeline.arrRef spec0 8)) (funext fun a => Fin.ext ?_)
  match a with
  | ⟨0, _⟩ => show win0_8.index t (0 : Fin 2) * 1 + 1 * a0.val = a0.val; rw [i8a]; omega
  | ⟨1, _⟩ => show win0_8.index t (1 : Fin 2) * 128 + 1 * k.val = k.val; rw [i8b]; omega

/-- Window 9's block is its whole array at every point. -/
theorem block9_at (c : Dev nD) (t : Fin cfg0.N) (a0 : Fin 1) (k : Fin 128) :
    iblk0 V c 9 t (ix2 a0 k) = V c (Pipeline.arrRef spec0 9) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 9) (((cfg0.win 9).blk t).view.emb (ix2 a0 k)) = _
  refine congrArg (V c (Pipeline.arrRef spec0 9)) (funext fun a => Fin.ext ?_)
  match a with
  | ⟨0, _⟩ => show win0_9.index t (0 : Fin 2) * 1 + 1 * a0.val = a0.val; rw [i9a]; omega
  | ⟨1, _⟩ => show win0_9.index t (1 : Fin 2) * 128 + 1 * k.val = k.val; rw [i9b]; omega

/-- Window 10's block is its whole array at every point. -/
theorem block10_at (c : Dev nD) (t : Fin cfg0.N) (a0 : Fin 1) (k : Fin 128) :
    iblk0 V c 10 t (ix2 a0 k) = V c (Pipeline.arrRef spec0 10) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec0 10) (((cfg0.win 10).blk t).view.emb (ix2 a0 k)) = _
  refine congrArg (V c (Pipeline.arrRef spec0 10)) (funext fun a => Fin.ext ?_)
  match a with
  | ⟨0, _⟩ => show win0_10.index t (0 : Fin 2) * 1 + 1 * a0.val = a0.val; rw [i10a]; omega
  | ⟨1, _⟩ => show win0_10.index t (1 : Fin 2) * 128 + 1 * k.val = k.val; rw [i10b]; omega

/-- Entry `j` of point `t`'s output block sits at row `2000·t + j₀`, column `j₁` of the output array. -/
theorem out_at (t : Fin cfg0.N) (j : S2000x128.Idx) :
    ((cfg0.win 11).blk t).view.emb j
      = ix2 (rowOf t (⟨(j 0).val, idx2_lt0 j⟩ : Fin 2000)) (⟨(j 1).val, idx2_lt1 j⟩ : Fin 128) := by
  obtain ⟨i0a, i0b, i1a, i1b, i11a, i11b, i2a, i2b, i3a, i3b, i4a, i4b, i5a, i5b, i6a, i6b, i7a, i7b, i8a, i8b, i9a, i9b, i10a, i10b⟩ := idx_facts t
  refine funext fun a => Fin.ext ?_
  match a with
  | ⟨0, _⟩ => show win0_11.index t (0 : Fin 2) * 2000 + 1 * (j 0).val = t.val * 2000 + (j 0).val; rw [i11a]; omega
  | ⟨1, _⟩ => show win0_11.index t (1 : Fin 2) * 128 + 1 * (j 1).val = (j 1).val; rw [i11b]; omega

/-- The staging block's index of an index of the part written back has the same coordinates. -/
theorem xinj_eq (t : Fin cfg0.N) (j : S2000x128.Idx) :
    (cfg0.win 11).xinj (grid0.coords t) j = ix2 (⟨(j 0).val, idx2_lt0 j⟩ : Fin 2000) (⟨(j 1).val, idx2_lt1 j⟩ : Fin 128) :=
  funext fun a => Fin.ext (match a with | ⟨0, _⟩ => rfl | ⟨1, _⟩ => rfl)

set_option maxHeartbeats 4000000 in
/-- WHAT POINT `t` WRITES BACK is block `t` of the layer of the arrays as the launch finds them. -/
theorem flushed_eq (c : Dev nD) (t : Fin cfg0.N) :
    (dat0 V c).flushed 11 t = ((cfg0.win 11).blk t).view.read (Elt Ideal) (layer (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))) := by
  show (cfg0.win 11).cut (grid0.coords t) ((dat0 V c).after 11 t) = _
  rw [after0_11]
  unfold out0_11
  rw [View.canon_unit_zero zero_offsets]
  simp only [View.ld_unit_zero (S := S2000x128) zero_offsets, View.ld_unit_zero (S := S1x128) zero_offsets,
    View.ld_unit_zero (S := S128x128) zero_offsets]
  refine (congrArg ((cfg0.win 11).cut (grid0.coords t)) (Block0.stored_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t))).trans ?_
  have key : ∀ j : S2000x128.Idx, Block0.blockFn (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) ((cfg0.win 11).xinj (grid0.coords t) j)
      = layer (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (((cfg0.win 11).blk t).view.emb j) := by
    intro j
    refine (congrArg (Block0.blockFn (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)) (xinj_eq t j)).trans ?_
    rw [out_at t j]
    exact Block0.blockFn_eq_layer (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (rowOf t)
      (block0_at V c t) (block1_at V c t) (block2_at V c t (0 : Fin 1)) (block3_at V c t) (block4_at V c t (0 : Fin 1)) (block5_at V c t) (block6_at V c t (0 : Fin 1)) (block7_at V c t (0 : Fin 1)) (block8_at V c t (0 : Fin 1)) (block9_at V c t (0 : Fin 1)) (block10_at V c t (0 : Fin 1)) (⟨(j 0).val, idx2_lt0 j⟩ : Fin 2000) (⟨(j 1).val, idx2_lt1 j⟩ : Fin 128)
  exact funext key

/-- An index of the output array is in point `t`'s block iff each coordinate is in the block's range on its axis. -/
theorem mem_blk (t : Fin cfg0.N) (i : S100000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v44).slice (win0_11.rect t)).set ↔ _
  rw [View.set_slice_whole, Rect.mem_set_unit]
  exact Iff.rfl

/-- Every row is in the block of the point `row / 2000`. -/
theorem covered (i : S100000x128.Idx) :
    ∃ t : Fin cfg0.N, (cfg0.win 11).flush t = true ∧ i ∈ ((cfg0.win 11).blk t).view.set := by
  have hi0 : (i 0).val < 100000 := (i 0).isLt
  have hi1 : (i 1).val < 128 := (i 1).isLt
  let t : Fin cfg0.N := ⟨(i 0).val / 2000, by show (i 0).val / 2000 < 50; omega⟩
  obtain ⟨i0a, i0b, i1a, i1b, i11a, i11b, i2a, i2b, i3a, i3b, i4a, i4b, i5a, i5b, i6a, i6b, i7a, i7b, i8a, i8b, i9a, i9b, i10a, i10b⟩ := idx_facts t
  refine ⟨t, flush0_11 t, ?_⟩
  rw [mem_blk]
  intro a
  have ht : t.val = (i 0).val / 2000 := rfl
  match a with
  | ⟨0, _⟩ => show win0_11.index t (0 : Fin 2) * 2000 ≤ (i 0).val ∧ (i 0).val < win0_11.index t (0 : Fin 2) * 2000 + 2000; rw [i11a]; omega
  | ⟨1, _⟩ => show win0_11.index t (1 : Fin 2) * 128 ≤ (i 1).val ∧ (i 1).val < win0_11.index t (1 : Fin 2) * 128 + 128; rw [i11b]; omega

set_option maxHeartbeats 4000000 in
/-- THE OUTPUT ARRAY after the launch: the layer of the eleven arrays the launch finds. -/
theorem final (c : Dev nD) :
    (dat0 V c).arrAt 11 cfg0.N = layer (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) :=
  (dat0 V c).arrAt_eq_of_cover 11 _ (fun t _ => flushed_eq V c t) covered

end Cert.KernelIdeal.Flush0

end
-- ==== Proof.KBlock1.lean ====
/-
  What one grid point of launch 1 computes, read at an entry of its block.

  The body loads a block of 2000 node rows of the features and of the neighbour sums, the layer's one-row
  parameters and its two weight matrices, and stores one block: at row `p`, column `q`, the layer's entry
  (`Cert.LayerSpec.entry`) of row `p` of the two loaded blocks.  The two matrix products contract the feature axis
  of the left operand with the SECOND axis of the weight matrix, into a zero accumulator: at the extended reals each is the
  plain sum `∑ i, x (p, i) · W (q, i)`; the narrowing of the operands to bf16 changes nothing there.
-/
import proofs.«163391_j14302241096098_1_alg».proof.Proof.Gen.KernelIdeal.Skeleton
import proofs.«163391_j14302241096098_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block1

open Cert.KernelIdeal Cert.KernelIdeal.Gen Cert.LayerSpec Idealize.ShloMosaic Idealize.ShloMosaic.ValueIdx
open scoped BigOperators

/-- The dimension numbers of both products: axis 1 against axis 1. -/
abbrev dims : DotDims S2000x128 S128x128 S2000x128 := dot_S2000x128_S128x128_S2000x128_1_1_0_0_n_n

theorem contr_rank : dims.contr.rank = 1 := rfl
theorem contr_size : dims.contr.size ⟨0, by rw [contr_rank]; exact Nat.one_pos⟩ = 128 := rfl

/-- At output entry `(p, q)` and contraction position `i` the left operand is read at `(p, i)`. -/
theorem lhs_at (p : Fin 2000) (q : Fin 128) (i : Fin 128) :
    dims.lhsIdx (ix2 p q) ((contrEquiv1 dims 128 contr_rank contr_size).symm i) = ix2 p i := by
  funext a; apply Fin.ext
  match a with
  | ⟨0, _⟩ => rfl
  | ⟨1, _⟩ => exact (DotDims.lhsIdx_val_of_single dims (cl := (1 : Fin 2)) rfl _ _).trans (contrEquiv1_symm_val dims 128 contr_rank contr_size i)

/-- … and the right operand at `(q, i)`: row `q` of the weight matrix. -/
theorem rhs_at (p : Fin 2000) (q : Fin 128) (i : Fin 128) :
    dims.rhsIdx (ix2 p q) ((contrEquiv1 dims 128 contr_rank contr_size).symm i) = ix2 q i := by
  funext a; apply Fin.ext
  match a with
  | ⟨0, _⟩ => rfl
  | ⟨1, _⟩ => exact (DotDims.rhsIdx_val_of_single dims (cr := (1 : Fin 2)) rfl _ _).trans (contrEquiv1_symm_val dims 128 contr_rank contr_size i)

/-- The product into a zero accumulator is the sum over the feature axis of row against row. -/
theorem product_at (l : FVec Ideal S2000x128 .bf16) (r : FVec Ideal S128x128 .bf16) (p : Fin 2000) (q : Fin 128) :
    matmul dims none l r (constant S2000x128 .f32 0x00000000#32) (ix2 p q) = ∑ i : Fin 128, l (ix2 p i) * r (ix2 q i) := by
  refine (Ideal.matmul_constant_zero_apply dims none l r (ix2 p q)).trans ?_
  refine (Equiv.sum_comp (contrEquiv1 dims 128 contr_rank contr_size).symm _).symm.trans ?_
  exact Finset.sum_congr rfl fun i _ => by rw [lhs_at, rhs_at]

/-- A one-row parameter repeated down the block's rows reads, at `(p, q)`, the row's entry `q`. -/
theorem row_at (v : Vec Ideal S1x128 .f32) (p : Fin 2000) (q : Fin 128) :
    broadcastTo S2000x128 (shapeCast S1x128 v shapeCasts_S1x128_S1x128) broadcasts_S1x128_S2000x128 (ix2 p q)
      = v (ix2 (0 : Fin 1) q) := by
  rw [shapeCast_self]; exact broadcastTo_1b_ab_apply v _ p q

/-- The body's value before the last scaling, at `(p, q)`: the second dense map of the cut first one of the mixed
    row, minus the mean, times the reciprocal deviation. -/
theorem scaled_at (x0 x1 : Vec Ideal S2000x128 .f32) (x2 : Vec Ideal S1x128 .f32) (x3 : Vec Ideal S128x128 .f32)
    (x4 : Vec Ideal S1x128 .f32) (x5 : Vec Ideal S128x128 .f32) (x6 x9 x10 : Vec Ideal S1x128 .f32) (p : Fin 2000) (q : Fin 128) :
    k1_pay2 x0 x1 x2 x3 x4 x5 x6 x9 x10 (ix2 p q)
      = (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)) q
          - x9 (ix2 (0 : Fin 1) q)) * x10 (ix2 (0 : Fin 1) q) := by
  unfold k1_pay2
  refine congrArg₂ (· * ·) (congrArg₂ (· - ·) (congrArg₂ (· + ·) ?second (row_at x6 p q)) (row_at x9 p q)) (row_at x10 p q)
  refine (product_at _ _ p q).trans (Finset.sum_congr rfl fun i _ => congrArg₂ (· * ·) ?_ (congrFun (shapeCast_self x5 _) (ix2 q i)))
  refine congrArg₂ max (congrArg₂ (· + ·) ?first (row_at x4 p i)) rfl
  refine (product_at _ _ p i).trans (Finset.sum_congr rfl fun i' _ => congrArg₂ (· * ·) ?_ (congrFun (shapeCast_self x3 _) (ix2 i i')))
  exact congrArg₂ (· + ·) (congrArg₂ (· * ·) (row_at x2 p i') (congrFun (shapeCast_self x0 _) (ix2 p i'))) (congrFun (shapeCast_self x1 _) (ix2 p i'))

/-- THE BLOCK the point stores, at `(p, q)`: the layer's entry of row `p` of the loaded blocks. -/
theorem stored_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    k1_pay1 (k1_pay2 x0 x1 x2 x3 x4 x5 x6 x9 x10) x7 x8 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := by
  have hx : addf (mulf (k1_pay2 x0 x1 x2 x3 x4 x5 x6 x9 x10)
        (broadcastTo S2000x128 (shapeCast S1x128 x7 shapeCasts_S1x128_S1x128) broadcasts_S1x128_S2000x128))
        (broadcastTo S2000x128 (shapeCast S1x128 x8 shapeCasts_S1x128_S1x128) broadcasts_S1x128_S2000x128) (ix2 p q)
      = normed (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)))
          (fun k => x9 (ix2 (0 : Fin 1) k)) (fun k => x10 (ix2 (0 : Fin 1) k)) (fun k => x7 (ix2 (0 : Fin 1) k))
          (fun k => x8 (ix2 (0 : Fin 1) k)) q :=
    congrArg₂ (· + ·) (congrArg₂ (· * ·) (scaled_at x0 x1 x2 x3 x4 x5 x6 x9 x10 p q) (row_at x7 p q)) (row_at x8 p q)
  unfold k1_pay1 entry elu
  exact congrArg (fun y => Scalar.select (FloatOps.cmpf (F := Ideal) (φ := .f32) .ogt y zeroLit) y (Ideal.exp y - oneLit)) hx

/-- The block a point stores, as one function of the eleven loaded blocks. -/
def blockFn (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) : FVec Ideal S2000x128 .f32 :=
  fun j => entry (fun k => x2 (ix2 (0 : Fin 1) k)) (fun k => x0 (ix2 (⟨(j 0).val, idx2_lt0 j⟩ : Fin 2000) k))
    (fun k => x1 (ix2 (⟨(j 0).val, idx2_lt0 j⟩ : Fin 2000) k))
    (fun k i => x3 (ix2 k i)) (fun k => x4 (ix2 (0 : Fin 1) k)) (fun k i => x5 (ix2 k i)) (fun k => x6 (ix2 (0 : Fin 1) k))
    (fun k => x9 (ix2 (0 : Fin 1) k)) (fun k => x10 (ix2 (0 : Fin 1) k)) (fun k => x7 (ix2 (0 : Fin 1) k))
    (fun k => x8 (ix2 (0 : Fin 1) k)) (⟨(j 1).val, idx2_lt1 j⟩ : Fin 128)

theorem blockFn_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    blockFn x0 x1 x2 x3 x4 x5 x6 x7 x8 x9 x10 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := rfl

/-- The body's stored value IS that function. -/
theorem stored_eq (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) :
    k1_pay1 (k1_pay2 x0 x1 x2 x3 x4 x5 x6 x9 x10) x7 x8 = blockFn x0 x1 x2 x3 x4 x5 x6 x7 x8 x9 x10 := by
  funext j
  obtain ⟨p, q, rfl⟩ : ∃ (p : Fin 2000) (q : Fin 128), j = ix2 p q := ⟨j 0, j 1, eq_ix2 j⟩
  exact (stored_at x0 x1 x2 x3 x4 x5 x6 x7 x8 x9 x10 p q).trans (blockFn_at x0 x1 x2 x3 x4 x5 x6 x7 x8 x9 x10 p q).symm

/-- If the eleven loaded blocks are rows `row p` of two arrays and the whole of nine others, the stored block at
    `(p, q)` is the layer of the arrays at `(row p, q)`. -/
theorem blockFn_eq_layer (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32)
    (A0 A1 : Big.Idx → EReal) (A2 : Row.Idx → EReal) (A3 : Sq.Idx → EReal) (A4 : Row.Idx → EReal) (A5 : Sq.Idx → EReal)
    (A6 A7 A8 A9 A10 : Row.Idx → EReal) (row : Fin 2000 → Fin 100000)
    (h0 : ∀ (p : Fin 2000) (k : Fin 128), x0 (ix2 p k) = A0 (ix2 (row p) k))
    (h1 : ∀ (p : Fin 2000) (k : Fin 128), x1 (ix2 p k) = A1 (ix2 (row p) k))
    (h2 : ∀ k : Fin 128, x2 (ix2 (0 : Fin 1) k) = A2 (ix2 (0 : Fin 1) k))
    (h3 : ∀ (a k : Fin 128), x3 (ix2 a k) = A3 (ix2 a k))
    (h4 : ∀ k : Fin 128, x4 (ix2 (0 : Fin 1) k) = A4 (ix2 (0 : Fin 1) k))
    (h5 : ∀ (a k : Fin 128), x5 (ix2 a k) = A5 (ix2 a k))
    (h6 : ∀ k : Fin 128, x6 (ix2 (0 : Fin 1) k) = A6 (ix2 (0 : Fin 1) k))
    (h7 : ∀ k : Fin 128, x7 (ix2 (0 : Fin 1) k) = A7 (ix2 (0 : Fin 1) k))
    (h8 : ∀ k : Fin 128, x8 (ix2 (0 : Fin 1) k) = A8 (ix2 (0 : Fin 1) k))
    (h9 : ∀ k : Fin 128, x9 (ix2 (0 : Fin 1) k) = A9 (ix2 (0 : Fin 1) k))
    (h10 : ∀ k : Fin 128, x10 (ix2 (0 : Fin 1) k) = A10 (ix2 (0 : Fin 1) k))
    (p : Fin 2000) (q : Fin 128) :
    blockFn x0 x1 x2 x3 x4 x5 x6 x7 x8 x9 x10 (ix2 p q) = layer A0 A1 A2 A3 A4 A5 A6 A7 A8 A9 A10 (ix2 (row p) q) := by
  rw [blockFn_at]
  show _ = entry (fun k => A2 (ix2 (0 : Fin 1) k)) (fun k => A0 (ix2 (row p) k)) (fun k => A1 (ix2 (row p) k))
      (fun k i => A3 (ix2 k i)) (fun k => A4 (ix2 (0 : Fin 1) k)) (fun k i => A5 (ix2 k i)) (fun k => A6 (ix2 (0 : Fin 1) k))
      (fun k => A9 (ix2 (0 : Fin 1) k)) (fun k => A10 (ix2 (0 : Fin 1) k)) (fun k => A7 (ix2 (0 : Fin 1) k))
      (fun k => A8 (ix2 (0 : Fin 1) k)) q
  rw [show (fun k => x0 (ix2 p k)) = fun k => A0 (ix2 (row p) k) from funext (h0 p),
    show (fun k => x1 (ix2 p k)) = fun k => A1 (ix2 (row p) k) from funext (h1 p),
    show (fun k => x2 (ix2 (0 : Fin 1) k)) = fun k => A2 (ix2 (0 : Fin 1) k) from funext h2,
    show (fun k i => x3 (ix2 k i)) = fun k i => A3 (ix2 k i) from funext fun a => funext (h3 a),
    show (fun k => x4 (ix2 (0 : Fin 1) k)) = fun k => A4 (ix2 (0 : Fin 1) k) from funext h4,
    show (fun k i => x5 (ix2 k i)) = fun k i => A5 (ix2 k i) from funext fun a => funext (h5 a),
    show (fun k => x6 (ix2 (0 : Fin 1) k)) = fun k => A6 (ix2 (0 : Fin 1) k) from funext h6,
    show (fun k => x7 (ix2 (0 : Fin 1) k)) = fun k => A7 (ix2 (0 : Fin 1) k) from funext h7,
    show (fun k => x8 (ix2 (0 : Fin 1) k)) = fun k => A8 (ix2 (0 : Fin 1) k) from funext h8,
    show (fun k => x9 (ix2 (0 : Fin 1) k)) = fun k => A9 (ix2 (0 : Fin 1) k) from funext h9,
    show (fun k => x10 (ix2 (0 : Fin 1) k)) = fun k => A10 (ix2 (0 : Fin 1) k) from funext h10]

end Cert.KernelIdeal.Block1

end
-- ==== Proof.KFlush1.lean ====
/-
  Launch 1's output array after all 50 grid points, as ONE function of the arrays the launch finds.

  Point `t` reads rows `2000·t … 2000·t + 1999` of the features and of the neighbour sums, and the whole of each
  parameter array, and writes the same rows of the output; every row belongs to exactly the point `row / 2000`.  So
  the output array ends as `Cert.LayerSpec.layer` of the eleven input arrays.
-/
import proofs.«163391_j14302241096098_1_alg».proof.Proof.Gen.KernelIdeal.Frame
import proofs.«163391_j14302241096098_1_alg».proof.Proof.KBlock1
import Idealize.ShloMosaic.Lib.Pipeline.Value

set_option maxRecDepth 16384

noncomputable section

namespace Cert.KernelIdeal.Flush1

open Cert.KernelIdeal Cert.KernelIdeal.Gen Cert.LayerSpec Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the 50 points: windows 0, 1 and 11 take block row `t`, the others block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_11.index t (0 : Fin 2) = t.val ∧ win1_11.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- Row `p` of point `t`'s block is row `2000·t + p` of the array. -/
def rowOf (t : Fin cfg1.N) (p : Fin 2000) : Fin 100000 :=
  ⟨t.val * 2000 + p.val, by have ht : t.val < 50 := t.isLt; have hp := p.isLt; omega⟩

/-- Window 0's block at point `t` is rows `2000·t … 2000·t + 1999` of its array. -/
theorem block0_at (c : Dev nD) (t : Fin cfg1.N) (p : Fin 2000) (k : Fin 128) :
    iblk1 V c 0 t (ix2 p k) = V c (Pipeline.arrRef spec1 0) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 2000 + 1 * p.val = t.val * 2000 + p.val; rw [i0a]; omega
  | ⟨1, _⟩ => show win1_0.index t (1 : Fin 2) * 128 + 1 * k.val = k.val; rw [i0b]; omega

/-- Window 1's block at point `t` is rows `2000·t … 2000·t + 1999` of its array. -/
theorem block1_at (c : Dev nD) (t : Fin cfg1.N) (p : Fin 2000) (k : Fin 128) :
    iblk1 V c 1 t (ix2 p k) = V c (Pipeline.arrRef spec1 1) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 1) (((cfg1.win 1).blk t).view.emb (ix2 p k)) = _
  refine congrArg (V c (Pipeline.arrRef spec1 1)) (funext fun a => Fin.ext ?_)
  match a with
  | ⟨0, _⟩ => show win1_1.index t (0 : Fin 2) * 2000 + 1 * p.val = t.val * 2000 + p.val; rw [i1a]; omega
  | ⟨1, _⟩ => show win1_1.index t (1 : Fin 2) * 128 + 1 * k.val = k.val; rw [i1b]; omega

/-- Window 2's block is its whole array at every point. -/
theorem block2_at (c : Dev nD) (t : Fin cfg1.N) (a0 : Fin 1) (k : Fin 128) :
    iblk1 V c 2 t (ix2 a0 k) = V c (Pipeline.arrRef spec1 2) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 2) (((cfg1.win 2).blk t).view.emb (ix2 a0 k)) = _
  refine congrArg (V c (Pipeline.arrRef spec1 2)) (funext fun a => Fin.ext ?_)
  match a with
  | ⟨0, _⟩ => show win1_2.index t (0 : Fin 2) * 1 + 1 * a0.val = a0.val; rw [i2a]; omega
  | ⟨1, _⟩ => show win1_2.index t (1 : Fin 2) * 128 + 1 * k.val = k.val; rw [i2b]; omega

/-- Window 3's block is its whole array at every point. -/
theorem block3_at (c : Dev nD) (t : Fin cfg1.N) (a0 : Fin 128) (k : Fin 128) :
    iblk1 V c 3 t (ix2 a0 k) = V c (Pipeline.arrRef spec1 3) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 3) (((cfg1.win 3).blk t).view.emb (ix2 a0 k)) = _
  refine congrArg (V c (Pipeline.arrRef spec1 3)) (funext fun a => Fin.ext ?_)
  match a with
  | ⟨0, _⟩ => show win1_3.index t (0 : Fin 2) * 128 + 1 * a0.val = a0.val; rw [i3a]; omega
  | ⟨1, _⟩ => show win1_3.index t (1 : Fin 2) * 128 + 1 * k.val = k.val; rw [i3b]; omega

/-- Window 4's block is its whole array at every point. -/
theorem block4_at (c : Dev nD) (t : Fin cfg1.N) (a0 : Fin 1) (k : Fin 128) :
    iblk1 V c 4 t (ix2 a0 k) = V c (Pipeline.arrRef spec1 4) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 4) (((cfg1.win 4).blk t).view.emb (ix2 a0 k)) = _
  refine congrArg (V c (Pipeline.arrRef spec1 4)) (funext fun a => Fin.ext ?_)
  match a with
  | ⟨0, _⟩ => show win1_4.index t (0 : Fin 2) * 1 + 1 * a0.val = a0.val; rw [i4a]; omega
  | ⟨1, _⟩ => show win1_4.index t (1 : Fin 2) * 128 + 1 * k.val = k.val; rw [i4b]; omega

/-- Window 5's block is its whole array at every point. -/
theorem block5_at (c : Dev nD) (t : Fin cfg1.N) (a0 : Fin 128) (k : Fin 128) :
    iblk1 V c 5 t (ix2 a0 k) = V c (Pipeline.arrRef spec1 5) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 5) (((cfg1.win 5).blk t).view.emb (ix2 a0 k)) = _
  refine congrArg (V c (Pipeline.arrRef spec1 5)) (funext fun a => Fin.ext ?_)
  match a with
  | ⟨0, _⟩ => show win1_5.index t (0 : Fin 2) * 128 + 1 * a0.val = a0.val; rw [i5a]; omega
  | ⟨1, _⟩ => show win1_5.index t (1 : Fin 2) * 128 + 1 * k.val = k.val; rw [i5b]; omega

/-- Window 6's block is its whole array at every point. -/
theorem block6_at (c : Dev nD) (t : Fin cfg1.N) (a0 : Fin 1) (k : Fin 128) :
    iblk1 V c 6 t (ix2 a0 k) = V c (Pipeline.arrRef spec1 6) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 6) (((cfg1.win 6).blk t).view.emb (ix2 a0 k)) = _
  refine congrArg (V c (Pipeline.arrRef spec1 6)) (funext fun a => Fin.ext ?_)
  match a with
  | ⟨0, _⟩ => show win1_6.index t (0 : Fin 2) * 1 + 1 * a0.val = a0.val; rw [i6a]; omega
  | ⟨1, _⟩ => show win1_6.index t (1 : Fin 2) * 128 + 1 * k.val = k.val; rw [i6b]; omega

/-- Window 7's block is its whole array at every point. -/
theorem block7_at (c : Dev nD) (t : Fin cfg1.N) (a0 : Fin 1) (k : Fin 128) :
    iblk1 V c 7 t (ix2 a0 k) = V c (Pipeline.arrRef spec1 7) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 7) (((cfg1.win 7).blk t).view.emb (ix2 a0 k)) = _
  refine congrArg (V c (Pipeline.arrRef spec1 7)) (funext fun a => Fin.ext ?_)
  match a with
  | ⟨0, _⟩ => show win1_7.index t (0 : Fin 2) * 1 + 1 * a0.val = a0.val; rw [i7a]; omega
  | ⟨1, _⟩ => show win1_7.index t (1 : Fin 2) * 128 + 1 * k.val = k.val; rw [i7b]; omega

/-- Window 8's block is its whole array at every point. -/
theorem block8_at (c : Dev nD) (t : Fin cfg1.N) (a0 : Fin 1) (k : Fin 128) :
    iblk1 V c 8 t (ix2 a0 k) = V c (Pipeline.arrRef spec1 8) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 8) (((cfg1.win 8).blk t).view.emb (ix2 a0 k)) = _
  refine congrArg (V c (Pipeline.arrRef spec1 8)) (funext fun a => Fin.ext ?_)
  match a with
  | ⟨0, _⟩ => show win1_8.index t (0 : Fin 2) * 1 + 1 * a0.val = a0.val; rw [i8a]; omega
  | ⟨1, _⟩ => show win1_8.index t (1 : Fin 2) * 128 + 1 * k.val = k.val; rw [i8b]; omega

/-- Window 9's block is its whole array at every point. -/
theorem block9_at (c : Dev nD) (t : Fin cfg1.N) (a0 : Fin 1) (k : Fin 128) :
    iblk1 V c 9 t (ix2 a0 k) = V c (Pipeline.arrRef spec1 9) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 9) (((cfg1.win 9).blk t).view.emb (ix2 a0 k)) = _
  refine congrArg (V c (Pipeline.arrRef spec1 9)) (funext fun a => Fin.ext ?_)
  match a with
  | ⟨0, _⟩ => show win1_9.index t (0 : Fin 2) * 1 + 1 * a0.val = a0.val; rw [i9a]; omega
  | ⟨1, _⟩ => show win1_9.index t (1 : Fin 2) * 128 + 1 * k.val = k.val; rw [i9b]; omega

/-- Window 10's block is its whole array at every point. -/
theorem block10_at (c : Dev nD) (t : Fin cfg1.N) (a0 : Fin 1) (k : Fin 128) :
    iblk1 V c 10 t (ix2 a0 k) = V c (Pipeline.arrRef spec1 10) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec1 10) (((cfg1.win 10).blk t).view.emb (ix2 a0 k)) = _
  refine congrArg (V c (Pipeline.arrRef spec1 10)) (funext fun a => Fin.ext ?_)
  match a with
  | ⟨0, _⟩ => show win1_10.index t (0 : Fin 2) * 1 + 1 * a0.val = a0.val; rw [i10a]; omega
  | ⟨1, _⟩ => show win1_10.index t (1 : Fin 2) * 128 + 1 * k.val = k.val; rw [i10b]; omega

/-- Entry `j` of point `t`'s output block sits at row `2000·t + j₀`, column `j₁` of the output array. -/
theorem out_at (t : Fin cfg1.N) (j : S2000x128.Idx) :
    ((cfg1.win 11).blk t).view.emb j
      = ix2 (rowOf t (⟨(j 0).val, idx2_lt0 j⟩ : Fin 2000)) (⟨(j 1).val, idx2_lt1 j⟩ : Fin 128) := by
  obtain ⟨i0a, i0b, i1a, i1b, i11a, i11b, i2a, i2b, i3a, i3b, i4a, i4b, i5a, i5b, i6a, i6b, i7a, i7b, i8a, i8b, i9a, i9b, i10a, i10b⟩ := idx_facts t
  refine funext fun a => Fin.ext ?_
  match a with
  | ⟨0, _⟩ => show win1_11.index t (0 : Fin 2) * 2000 + 1 * (j 0).val = t.val * 2000 + (j 0).val; rw [i11a]; omega
  | ⟨1, _⟩ => show win1_11.index t (1 : Fin 2) * 128 + 1 * (j 1).val = (j 1).val; rw [i11b]; omega

/-- The staging block's index of an index of the part written back has the same coordinates. -/
theorem xinj_eq (t : Fin cfg1.N) (j : S2000x128.Idx) :
    (cfg1.win 11).xinj (grid1.coords t) j = ix2 (⟨(j 0).val, idx2_lt0 j⟩ : Fin 2000) (⟨(j 1).val, idx2_lt1 j⟩ : Fin 128) :=
  funext fun a => Fin.ext (match a with | ⟨0, _⟩ => rfl | ⟨1, _⟩ => rfl)

set_option maxHeartbeats 4000000 in
/-- WHAT POINT `t` WRITES BACK is block `t` of the layer of the arrays as the launch finds them. -/
theorem flushed_eq (c : Dev nD) (t : Fin cfg1.N) :
    (dat1 V c).flushed 11 t = ((cfg1.win 11).blk t).view.read (Elt Ideal) (layer (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10))) := by
  show (cfg1.win 11).cut (grid1.coords t) ((dat1 V c).after 11 t) = _
  rw [after1_11]
  unfold out1_11
  rw [View.canon_unit_zero zero_offsets]
  simp only [View.ld_unit_zero (S := S2000x128) zero_offsets, View.ld_unit_zero (S := S1x128) zero_offsets,
    View.ld_unit_zero (S := S128x128) zero_offsets]
  refine (congrArg ((cfg1.win 11).cut (grid1.coords t)) (Block1.stored_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t))).trans ?_
  have key : ∀ j : S2000x128.Idx, Block1.blockFn (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) ((cfg1.win 11).xinj (grid1.coords t) j)
      = layer (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (((cfg1.win 11).blk t).view.emb j) := by
    intro j
    refine (congrArg (Block1.blockFn (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) (xinj_eq t j)).trans ?_
    rw [out_at t j]
    exact Block1.blockFn_eq_layer (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (rowOf t)
      (block0_at V c t) (block1_at V c t) (block2_at V c t (0 : Fin 1)) (block3_at V c t) (block4_at V c t (0 : Fin 1)) (block5_at V c t) (block6_at V c t (0 : Fin 1)) (block7_at V c t (0 : Fin 1)) (block8_at V c t (0 : Fin 1)) (block9_at V c t (0 : Fin 1)) (block10_at V c t (0 : Fin 1)) (⟨(j 0).val, idx2_lt0 j⟩ : Fin 2000) (⟨(j 1).val, idx2_lt1 j⟩ : Fin 128)
  exact funext key

/-- An index of the output array is in point `t`'s block iff each coordinate is in the block's range on its axis. -/
theorem mem_blk (t : Fin cfg1.N) (i : S100000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v85).slice (win1_11.rect t)).set ↔ _
  rw [View.set_slice_whole, Rect.mem_set_unit]
  exact Iff.rfl

/-- Every row is in the block of the point `row / 2000`. -/
theorem covered (i : S100000x128.Idx) :
    ∃ t : Fin cfg1.N, (cfg1.win 11).flush t = true ∧ i ∈ ((cfg1.win 11).blk t).view.set := by
  have hi0 : (i 0).val < 100000 := (i 0).isLt
  have hi1 : (i 1).val < 128 := (i 1).isLt
  let t : Fin cfg1.N := ⟨(i 0).val / 2000, by show (i 0).val / 2000 < 50; omega⟩
  obtain ⟨i0a, i0b, i1a, i1b, i11a, i11b, i2a, i2b, i3a, i3b, i4a, i4b, i5a, i5b, i6a, i6b, i7a, i7b, i8a, i8b, i9a, i9b, i10a, i10b⟩ := idx_facts t
  refine ⟨t, flush1_11 t, ?_⟩
  rw [mem_blk]
  intro a
  have ht : t.val = (i 0).val / 2000 := rfl
  match a with
  | ⟨0, _⟩ => show win1_11.index t (0 : Fin 2) * 2000 ≤ (i 0).val ∧ (i 0).val < win1_11.index t (0 : Fin 2) * 2000 + 2000; rw [i11a]; omega
  | ⟨1, _⟩ => show win1_11.index t (1 : Fin 2) * 128 ≤ (i 1).val ∧ (i 1).val < win1_11.index t (1 : Fin 2) * 128 + 128; rw [i11b]; omega

set_option maxHeartbeats 4000000 in
/-- THE OUTPUT ARRAY after the launch: the layer of the eleven arrays the launch finds. -/
theorem final (c : Dev nD) :
    (dat1 V c).arrAt 11 cfg1.N = layer (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) :=
  (dat1 V c).arrAt_eq_of_cover 11 _ (fun t _ => flushed_eq V c t) covered

end Cert.KernelIdeal.Flush1

end
-- ==== Proof.KBlock2.lean ====
/-
  What one grid point of launch 2 computes, read at an entry of its block.

  The body loads a block of 2000 node rows of the features and of the neighbour sums, the layer's one-row
  parameters and its two weight matrices, and stores one block: at row `p`, column `q`, the layer's entry
  (`Cert.LayerSpec.entry`) of row `p` of the two loaded blocks.  The two matrix products contract the feature axis
  of the left operand with the SECOND axis of the weight matrix, into a zero accumulator: at the extended reals each is the
  plain sum `∑ i, x (p, i) · W (q, i)`; the narrowing of the operands to bf16 changes nothing there.
-/
import proofs.«163391_j14302241096098_1_alg».proof.Proof.Gen.KernelIdeal.Skeleton
import proofs.«163391_j14302241096098_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block2

open Cert.KernelIdeal Cert.KernelIdeal.Gen Cert.LayerSpec Idealize.ShloMosaic Idealize.ShloMosaic.ValueIdx
open scoped BigOperators

/-- The dimension numbers of both products: axis 1 against axis 1. -/
abbrev dims : DotDims S2000x128 S128x128 S2000x128 := dot_S2000x128_S128x128_S2000x128_1_1_0_0_n_n

theorem contr_rank : dims.contr.rank = 1 := rfl
theorem contr_size : dims.contr.size ⟨0, by rw [contr_rank]; exact Nat.one_pos⟩ = 128 := rfl

/-- At output entry `(p, q)` and contraction position `i` the left operand is read at `(p, i)`. -/
theorem lhs_at (p : Fin 2000) (q : Fin 128) (i : Fin 128) :
    dims.lhsIdx (ix2 p q) ((contrEquiv1 dims 128 contr_rank contr_size).symm i) = ix2 p i := by
  funext a; apply Fin.ext
  match a with
  | ⟨0, _⟩ => rfl
  | ⟨1, _⟩ => exact (DotDims.lhsIdx_val_of_single dims (cl := (1 : Fin 2)) rfl _ _).trans (contrEquiv1_symm_val dims 128 contr_rank contr_size i)

/-- … and the right operand at `(q, i)`: row `q` of the weight matrix. -/
theorem rhs_at (p : Fin 2000) (q : Fin 128) (i : Fin 128) :
    dims.rhsIdx (ix2 p q) ((contrEquiv1 dims 128 contr_rank contr_size).symm i) = ix2 q i := by
  funext a; apply Fin.ext
  match a with
  | ⟨0, _⟩ => rfl
  | ⟨1, _⟩ => exact (DotDims.rhsIdx_val_of_single dims (cr := (1 : Fin 2)) rfl _ _).trans (contrEquiv1_symm_val dims 128 contr_rank contr_size i)

/-- The product into a zero accumulator is the sum over the feature axis of row against row. -/
theorem product_at (l : FVec Ideal S2000x128 .bf16) (r : FVec Ideal S128x128 .bf16) (p : Fin 2000) (q : Fin 128) :
    matmul dims none l r (constant S2000x128 .f32 0x00000000#32) (ix2 p q) = ∑ i : Fin 128, l (ix2 p i) * r (ix2 q i) := by
  refine (Ideal.matmul_constant_zero_apply dims none l r (ix2 p q)).trans ?_
  refine (Equiv.sum_comp (contrEquiv1 dims 128 contr_rank contr_size).symm _).symm.trans ?_
  exact Finset.sum_congr rfl fun i _ => by rw [lhs_at, rhs_at]

/-- A one-row parameter repeated down the block's rows reads, at `(p, q)`, the row's entry `q`. -/
theorem row_at (v : Vec Ideal S1x128 .f32) (p : Fin 2000) (q : Fin 128) :
    broadcastTo S2000x128 (shapeCast S1x128 v shapeCasts_S1x128_S1x128) broadcasts_S1x128_S2000x128 (ix2 p q)
      = v (ix2 (0 : Fin 1) q) := by
  rw [shapeCast_self]; exact broadcastTo_1b_ab_apply v _ p q

/-- The body's value before the last scaling, at `(p, q)`: the second dense map of the cut first one of the mixed
    row, minus the mean, times the reciprocal deviation. -/
theorem scaled_at (x0 x1 : Vec Ideal S2000x128 .f32) (x2 : Vec Ideal S1x128 .f32) (x3 : Vec Ideal S128x128 .f32)
    (x4 : Vec Ideal S1x128 .f32) (x5 : Vec Ideal S128x128 .f32) (x6 x9 x10 : Vec Ideal S1x128 .f32) (p : Fin 2000) (q : Fin 128) :
    k2_pay2 x0 x1 x2 x3 x4 x5 x6 x9 x10 (ix2 p q)
      = (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)) q
          - x9 (ix2 (0 : Fin 1) q)) * x10 (ix2 (0 : Fin 1) q) := by
  unfold k2_pay2
  refine congrArg₂ (· * ·) (congrArg₂ (· - ·) (congrArg₂ (· + ·) ?second (row_at x6 p q)) (row_at x9 p q)) (row_at x10 p q)
  refine (product_at _ _ p q).trans (Finset.sum_congr rfl fun i _ => congrArg₂ (· * ·) ?_ (congrFun (shapeCast_self x5 _) (ix2 q i)))
  refine congrArg₂ max (congrArg₂ (· + ·) ?first (row_at x4 p i)) rfl
  refine (product_at _ _ p i).trans (Finset.sum_congr rfl fun i' _ => congrArg₂ (· * ·) ?_ (congrFun (shapeCast_self x3 _) (ix2 i i')))
  exact congrArg₂ (· + ·) (congrArg₂ (· * ·) (row_at x2 p i') (congrFun (shapeCast_self x0 _) (ix2 p i'))) (congrFun (shapeCast_self x1 _) (ix2 p i'))

/-- THE BLOCK the point stores, at `(p, q)`: the layer's entry of row `p` of the loaded blocks. -/
theorem stored_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    k2_pay1 (k2_pay2 x0 x1 x2 x3 x4 x5 x6 x9 x10) x7 x8 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := by
  have hx : addf (mulf (k2_pay2 x0 x1 x2 x3 x4 x5 x6 x9 x10)
        (broadcastTo S2000x128 (shapeCast S1x128 x7 shapeCasts_S1x128_S1x128) broadcasts_S1x128_S2000x128))
        (broadcastTo S2000x128 (shapeCast S1x128 x8 shapeCasts_S1x128_S1x128) broadcasts_S1x128_S2000x128) (ix2 p q)
      = normed (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)))
          (fun k => x9 (ix2 (0 : Fin 1) k)) (fun k => x10 (ix2 (0 : Fin 1) k)) (fun k => x7 (ix2 (0 : Fin 1) k))
          (fun k => x8 (ix2 (0 : Fin 1) k)) q :=
    congrArg₂ (· + ·) (congrArg₂ (· * ·) (scaled_at x0 x1 x2 x3 x4 x5 x6 x9 x10 p q) (row_at x7 p q)) (row_at x8 p q)
  unfold k2_pay1 entry elu
  exact congrArg (fun y => Scalar.select (FloatOps.cmpf (F := Ideal) (φ := .f32) .ogt y zeroLit) y (Ideal.exp y - oneLit)) hx

/-- The block a point stores, as one function of the eleven loaded blocks. -/
def blockFn (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) : FVec Ideal S2000x128 .f32 :=
  fun j => entry (fun k => x2 (ix2 (0 : Fin 1) k)) (fun k => x0 (ix2 (⟨(j 0).val, idx2_lt0 j⟩ : Fin 2000) k))
    (fun k => x1 (ix2 (⟨(j 0).val, idx2_lt0 j⟩ : Fin 2000) k))
    (fun k i => x3 (ix2 k i)) (fun k => x4 (ix2 (0 : Fin 1) k)) (fun k i => x5 (ix2 k i)) (fun k => x6 (ix2 (0 : Fin 1) k))
    (fun k => x9 (ix2 (0 : Fin 1) k)) (fun k => x10 (ix2 (0 : Fin 1) k)) (fun k => x7 (ix2 (0 : Fin 1) k))
    (fun k => x8 (ix2 (0 : Fin 1) k)) (⟨(j 1).val, idx2_lt1 j⟩ : Fin 128)

theorem blockFn_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    blockFn x0 x1 x2 x3 x4 x5 x6 x7 x8 x9 x10 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := rfl

/-- The body's stored value IS that function. -/
theorem stored_eq (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) :
    k2_pay1 (k2_pay2 x0 x1 x2 x3 x4 x5 x6 x9 x10) x7 x8 = blockFn x0 x1 x2 x3 x4 x5 x6 x7 x8 x9 x10 := by
  funext j
  obtain ⟨p, q, rfl⟩ : ∃ (p : Fin 2000) (q : Fin 128), j = ix2 p q := ⟨j 0, j 1, eq_ix2 j⟩
  exact (stored_at x0 x1 x2 x3 x4 x5 x6 x7 x8 x9 x10 p q).trans (blockFn_at x0 x1 x2 x3 x4 x5 x6 x7 x8 x9 x10 p q).symm

/-- If the eleven loaded blocks are rows `row p` of two arrays and the whole of nine others, the stored block at
    `(p, q)` is the layer of the arrays at `(row p, q)`. -/
theorem blockFn_eq_layer (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32)
    (A0 A1 : Big.Idx → EReal) (A2 : Row.Idx → EReal) (A3 : Sq.Idx → EReal) (A4 : Row.Idx → EReal) (A5 : Sq.Idx → EReal)
    (A6 A7 A8 A9 A10 : Row.Idx → EReal) (row : Fin 2000 → Fin 100000)
    (h0 : ∀ (p : Fin 2000) (k : Fin 128), x0 (ix2 p k) = A0 (ix2 (row p) k))
    (h1 : ∀ (p : Fin 2000) (k : Fin 128), x1 (ix2 p k) = A1 (ix2 (row p) k))
    (h2 : ∀ k : Fin 128, x2 (ix2 (0 : Fin 1) k) = A2 (ix2 (0 : Fin 1) k))
    (h3 : ∀ (a k : Fin 128), x3 (ix2 a k) = A3 (ix2 a k))
    (h4 : ∀ k : Fin 128, x4 (ix2 (0 : Fin 1) k) = A4 (ix2 (0 : Fin 1) k))
    (h5 : ∀ (a k : Fin 128), x5 (ix2 a k) = A5 (ix2 a k))
    (h6 : ∀ k : Fin 128, x6 (ix2 (0 : Fin 1) k) = A6 (ix2 (0 : Fin 1) k))
    (h7 : ∀ k : Fin 128, x7 (ix2 (0 : Fin 1) k) = A7 (ix2 (0 : Fin 1) k))
    (h8 : ∀ k : Fin 128, x8 (ix2 (0 : Fin 1) k) = A8 (ix2 (0 : Fin 1) k))
    (h9 : ∀ k : Fin 128, x9 (ix2 (0 : Fin 1) k) = A9 (ix2 (0 : Fin 1) k))
    (h10 : ∀ k : Fin 128, x10 (ix2 (0 : Fin 1) k) = A10 (ix2 (0 : Fin 1) k))
    (p : Fin 2000) (q : Fin 128) :
    blockFn x0 x1 x2 x3 x4 x5 x6 x7 x8 x9 x10 (ix2 p q) = layer A0 A1 A2 A3 A4 A5 A6 A7 A8 A9 A10 (ix2 (row p) q) := by
  rw [blockFn_at]
  show _ = entry (fun k => A2 (ix2 (0 : Fin 1) k)) (fun k => A0 (ix2 (row p) k)) (fun k => A1 (ix2 (row p) k))
      (fun k i => A3 (ix2 k i)) (fun k => A4 (ix2 (0 : Fin 1) k)) (fun k i => A5 (ix2 k i)) (fun k => A6 (ix2 (0 : Fin 1) k))
      (fun k => A9 (ix2 (0 : Fin 1) k)) (fun k => A10 (ix2 (0 : Fin 1) k)) (fun k => A7 (ix2 (0 : Fin 1) k))
      (fun k => A8 (ix2 (0 : Fin 1) k)) q
  rw [show (fun k => x0 (ix2 p k)) = fun k => A0 (ix2 (row p) k) from funext (h0 p),
    show (fun k => x1 (ix2 p k)) = fun k => A1 (ix2 (row p) k) from funext (h1 p),
    show (fun k => x2 (ix2 (0 : Fin 1) k)) = fun k => A2 (ix2 (0 : Fin 1) k) from funext h2,
    show (fun k i => x3 (ix2 k i)) = fun k i => A3 (ix2 k i) from funext fun a => funext (h3 a),
    show (fun k => x4 (ix2 (0 : Fin 1) k)) = fun k => A4 (ix2 (0 : Fin 1) k) from funext h4,
    show (fun k i => x5 (ix2 k i)) = fun k i => A5 (ix2 k i) from funext fun a => funext (h5 a),
    show (fun k => x6 (ix2 (0 : Fin 1) k)) = fun k => A6 (ix2 (0 : Fin 1) k) from funext h6,
    show (fun k => x7 (ix2 (0 : Fin 1) k)) = fun k => A7 (ix2 (0 : Fin 1) k) from funext h7,
    show (fun k => x8 (ix2 (0 : Fin 1) k)) = fun k => A8 (ix2 (0 : Fin 1) k) from funext h8,
    show (fun k => x9 (ix2 (0 : Fin 1) k)) = fun k => A9 (ix2 (0 : Fin 1) k) from funext h9,
    show (fun k => x10 (ix2 (0 : Fin 1) k)) = fun k => A10 (ix2 (0 : Fin 1) k) from funext h10]

end Cert.KernelIdeal.Block2

end
-- ==== Proof.KFlush2.lean ====
/-
  Launch 2's output array after all 50 grid points, as ONE function of the arrays the launch finds.

  Point `t` reads rows `2000·t … 2000·t + 1999` of the features and of the neighbour sums, and the whole of each
  parameter array, and writes the same rows of the output; every row belongs to exactly the point `row / 2000`.  So
  the output array ends as `Cert.LayerSpec.layer` of the eleven input arrays.
-/
import proofs.«163391_j14302241096098_1_alg».proof.Proof.Gen.KernelIdeal.Frame
import proofs.«163391_j14302241096098_1_alg».proof.Proof.KBlock2
import Idealize.ShloMosaic.Lib.Pipeline.Value

set_option maxRecDepth 16384

noncomputable section

namespace Cert.KernelIdeal.Flush2

open Cert.KernelIdeal Cert.KernelIdeal.Gen Cert.LayerSpec Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the 50 points: windows 0, 1 and 11 take block row `t`, the others block `(0, 0)`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_11.index t (0 : Fin 2) = t.val ∧ win2_11.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

/-- Row `p` of point `t`'s block is row `2000·t + p` of the array. -/
def rowOf (t : Fin cfg2.N) (p : Fin 2000) : Fin 100000 :=
  ⟨t.val * 2000 + p.val, by have ht : t.val < 50 := t.isLt; have hp := p.isLt; omega⟩

/-- Window 0's block at point `t` is rows `2000·t … 2000·t + 1999` of its array. -/
theorem block0_at (c : Dev nD) (t : Fin cfg2.N) (p : Fin 2000) (k : Fin 128) :
    iblk2 V c 0 t (ix2 p k) = V c (Pipeline.arrRef spec2 0) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2000 + 1 * p.val = t.val * 2000 + p.val; rw [i0a]; omega
  | ⟨1, _⟩ => show win2_0.index t (1 : Fin 2) * 128 + 1 * k.val = k.val; rw [i0b]; omega

/-- Window 1's block at point `t` is rows `2000·t … 2000·t + 1999` of its array. -/
theorem block1_at (c : Dev nD) (t : Fin cfg2.N) (p : Fin 2000) (k : Fin 128) :
    iblk2 V c 1 t (ix2 p k) = V c (Pipeline.arrRef spec2 1) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 1) (((cfg2.win 1).blk t).view.emb (ix2 p k)) = _
  refine congrArg (V c (Pipeline.arrRef spec2 1)) (funext fun a => Fin.ext ?_)
  match a with
  | ⟨0, _⟩ => show win2_1.index t (0 : Fin 2) * 2000 + 1 * p.val = t.val * 2000 + p.val; rw [i1a]; omega
  | ⟨1, _⟩ => show win2_1.index t (1 : Fin 2) * 128 + 1 * k.val = k.val; rw [i1b]; omega

/-- Window 2's block is its whole array at every point. -/
theorem block2_at (c : Dev nD) (t : Fin cfg2.N) (a0 : Fin 1) (k : Fin 128) :
    iblk2 V c 2 t (ix2 a0 k) = V c (Pipeline.arrRef spec2 2) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 2) (((cfg2.win 2).blk t).view.emb (ix2 a0 k)) = _
  refine congrArg (V c (Pipeline.arrRef spec2 2)) (funext fun a => Fin.ext ?_)
  match a with
  | ⟨0, _⟩ => show win2_2.index t (0 : Fin 2) * 1 + 1 * a0.val = a0.val; rw [i2a]; omega
  | ⟨1, _⟩ => show win2_2.index t (1 : Fin 2) * 128 + 1 * k.val = k.val; rw [i2b]; omega

/-- Window 3's block is its whole array at every point. -/
theorem block3_at (c : Dev nD) (t : Fin cfg2.N) (a0 : Fin 128) (k : Fin 128) :
    iblk2 V c 3 t (ix2 a0 k) = V c (Pipeline.arrRef spec2 3) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 3) (((cfg2.win 3).blk t).view.emb (ix2 a0 k)) = _
  refine congrArg (V c (Pipeline.arrRef spec2 3)) (funext fun a => Fin.ext ?_)
  match a with
  | ⟨0, _⟩ => show win2_3.index t (0 : Fin 2) * 128 + 1 * a0.val = a0.val; rw [i3a]; omega
  | ⟨1, _⟩ => show win2_3.index t (1 : Fin 2) * 128 + 1 * k.val = k.val; rw [i3b]; omega

/-- Window 4's block is its whole array at every point. -/
theorem block4_at (c : Dev nD) (t : Fin cfg2.N) (a0 : Fin 1) (k : Fin 128) :
    iblk2 V c 4 t (ix2 a0 k) = V c (Pipeline.arrRef spec2 4) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 4) (((cfg2.win 4).blk t).view.emb (ix2 a0 k)) = _
  refine congrArg (V c (Pipeline.arrRef spec2 4)) (funext fun a => Fin.ext ?_)
  match a with
  | ⟨0, _⟩ => show win2_4.index t (0 : Fin 2) * 1 + 1 * a0.val = a0.val; rw [i4a]; omega
  | ⟨1, _⟩ => show win2_4.index t (1 : Fin 2) * 128 + 1 * k.val = k.val; rw [i4b]; omega

/-- Window 5's block is its whole array at every point. -/
theorem block5_at (c : Dev nD) (t : Fin cfg2.N) (a0 : Fin 128) (k : Fin 128) :
    iblk2 V c 5 t (ix2 a0 k) = V c (Pipeline.arrRef spec2 5) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 5) (((cfg2.win 5).blk t).view.emb (ix2 a0 k)) = _
  refine congrArg (V c (Pipeline.arrRef spec2 5)) (funext fun a => Fin.ext ?_)
  match a with
  | ⟨0, _⟩ => show win2_5.index t (0 : Fin 2) * 128 + 1 * a0.val = a0.val; rw [i5a]; omega
  | ⟨1, _⟩ => show win2_5.index t (1 : Fin 2) * 128 + 1 * k.val = k.val; rw [i5b]; omega

/-- Window 6's block is its whole array at every point. -/
theorem block6_at (c : Dev nD) (t : Fin cfg2.N) (a0 : Fin 1) (k : Fin 128) :
    iblk2 V c 6 t (ix2 a0 k) = V c (Pipeline.arrRef spec2 6) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 6) (((cfg2.win 6).blk t).view.emb (ix2 a0 k)) = _
  refine congrArg (V c (Pipeline.arrRef spec2 6)) (funext fun a => Fin.ext ?_)
  match a with
  | ⟨0, _⟩ => show win2_6.index t (0 : Fin 2) * 1 + 1 * a0.val = a0.val; rw [i6a]; omega
  | ⟨1, _⟩ => show win2_6.index t (1 : Fin 2) * 128 + 1 * k.val = k.val; rw [i6b]; omega

/-- Window 7's block is its whole array at every point. -/
theorem block7_at (c : Dev nD) (t : Fin cfg2.N) (a0 : Fin 1) (k : Fin 128) :
    iblk2 V c 7 t (ix2 a0 k) = V c (Pipeline.arrRef spec2 7) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 7) (((cfg2.win 7).blk t).view.emb (ix2 a0 k)) = _
  refine congrArg (V c (Pipeline.arrRef spec2 7)) (funext fun a => Fin.ext ?_)
  match a with
  | ⟨0, _⟩ => show win2_7.index t (0 : Fin 2) * 1 + 1 * a0.val = a0.val; rw [i7a]; omega
  | ⟨1, _⟩ => show win2_7.index t (1 : Fin 2) * 128 + 1 * k.val = k.val; rw [i7b]; omega

/-- Window 8's block is its whole array at every point. -/
theorem block8_at (c : Dev nD) (t : Fin cfg2.N) (a0 : Fin 1) (k : Fin 128) :
    iblk2 V c 8 t (ix2 a0 k) = V c (Pipeline.arrRef spec2 8) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 8) (((cfg2.win 8).blk t).view.emb (ix2 a0 k)) = _
  refine congrArg (V c (Pipeline.arrRef spec2 8)) (funext fun a => Fin.ext ?_)
  match a with
  | ⟨0, _⟩ => show win2_8.index t (0 : Fin 2) * 1 + 1 * a0.val = a0.val; rw [i8a]; omega
  | ⟨1, _⟩ => show win2_8.index t (1 : Fin 2) * 128 + 1 * k.val = k.val; rw [i8b]; omega

/-- Window 9's block is its whole array at every point. -/
theorem block9_at (c : Dev nD) (t : Fin cfg2.N) (a0 : Fin 1) (k : Fin 128) :
    iblk2 V c 9 t (ix2 a0 k) = V c (Pipeline.arrRef spec2 9) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 9) (((cfg2.win 9).blk t).view.emb (ix2 a0 k)) = _
  refine congrArg (V c (Pipeline.arrRef spec2 9)) (funext fun a => Fin.ext ?_)
  match a with
  | ⟨0, _⟩ => show win2_9.index t (0 : Fin 2) * 1 + 1 * a0.val = a0.val; rw [i9a]; omega
  | ⟨1, _⟩ => show win2_9.index t (1 : Fin 2) * 128 + 1 * k.val = k.val; rw [i9b]; omega

/-- Window 10's block is its whole array at every point. -/
theorem block10_at (c : Dev nD) (t : Fin cfg2.N) (a0 : Fin 1) (k : Fin 128) :
    iblk2 V c 10 t (ix2 a0 k) = V c (Pipeline.arrRef spec2 10) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec2 10) (((cfg2.win 10).blk t).view.emb (ix2 a0 k)) = _
  refine congrArg (V c (Pipeline.arrRef spec2 10)) (funext fun a => Fin.ext ?_)
  match a with
  | ⟨0, _⟩ => show win2_10.index t (0 : Fin 2) * 1 + 1 * a0.val = a0.val; rw [i10a]; omega
  | ⟨1, _⟩ => show win2_10.index t (1 : Fin 2) * 128 + 1 * k.val = k.val; rw [i10b]; omega

/-- Entry `j` of point `t`'s output block sits at row `2000·t + j₀`, column `j₁` of the output array. -/
theorem out_at (t : Fin cfg2.N) (j : S2000x128.Idx) :
    ((cfg2.win 11).blk t).view.emb j
      = ix2 (rowOf t (⟨(j 0).val, idx2_lt0 j⟩ : Fin 2000)) (⟨(j 1).val, idx2_lt1 j⟩ : Fin 128) := by
  obtain ⟨i0a, i0b, i1a, i1b, i11a, i11b, i2a, i2b, i3a, i3b, i4a, i4b, i5a, i5b, i6a, i6b, i7a, i7b, i8a, i8b, i9a, i9b, i10a, i10b⟩ := idx_facts t
  refine funext fun a => Fin.ext ?_
  match a with
  | ⟨0, _⟩ => show win2_11.index t (0 : Fin 2) * 2000 + 1 * (j 0).val = t.val * 2000 + (j 0).val; rw [i11a]; omega
  | ⟨1, _⟩ => show win2_11.index t (1 : Fin 2) * 128 + 1 * (j 1).val = (j 1).val; rw [i11b]; omega

/-- The staging block's index of an index of the part written back has the same coordinates. -/
theorem xinj_eq (t : Fin cfg2.N) (j : S2000x128.Idx) :
    (cfg2.win 11).xinj (grid2.coords t) j = ix2 (⟨(j 0).val, idx2_lt0 j⟩ : Fin 2000) (⟨(j 1).val, idx2_lt1 j⟩ : Fin 128) :=
  funext fun a => Fin.ext (match a with | ⟨0, _⟩ => rfl | ⟨1, _⟩ => rfl)

set_option maxHeartbeats 4000000 in
/-- WHAT POINT `t` WRITES BACK is block `t` of the layer of the arrays as the launch finds them. -/
theorem flushed_eq (c : Dev nD) (t : Fin cfg2.N) :
    (dat2 V c).flushed 11 t = ((cfg2.win 11).blk t).view.read (Elt Ideal) (layer (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10))) := by
  show (cfg2.win 11).cut (grid2.coords t) ((dat2 V c).after 11 t) = _
  rw [after2_11]
  unfold out2_11
  rw [View.canon_unit_zero zero_offsets]
  simp only [View.ld_unit_zero (S := S2000x128) zero_offsets, View.ld_unit_zero (S := S1x128) zero_offsets,
    View.ld_unit_zero (S := S128x128) zero_offsets]
  refine (congrArg ((cfg2.win 11).cut (grid2.coords t)) (Block2.stored_eq (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t))).trans ?_
  have key : ∀ j : S2000x128.Idx, Block2.blockFn (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) ((cfg2.win 11).xinj (grid2.coords t) j)
      = layer (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (((cfg2.win 11).blk t).view.emb j) := by
    intro j
    refine (congrArg (Block2.blockFn (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)) (xinj_eq t j)).trans ?_
    rw [out_at t j]
    exact Block2.blockFn_eq_layer (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (rowOf t)
      (block0_at V c t) (block1_at V c t) (block2_at V c t (0 : Fin 1)) (block3_at V c t) (block4_at V c t (0 : Fin 1)) (block5_at V c t) (block6_at V c t (0 : Fin 1)) (block7_at V c t (0 : Fin 1)) (block8_at V c t (0 : Fin 1)) (block9_at V c t (0 : Fin 1)) (block10_at V c t (0 : Fin 1)) (⟨(j 0).val, idx2_lt0 j⟩ : Fin 2000) (⟨(j 1).val, idx2_lt1 j⟩ : Fin 128)
  exact funext key

/-- An index of the output array is in point `t`'s block iff each coordinate is in the block's range on its axis. -/
theorem mem_blk (t : Fin cfg2.N) (i : S100000x128.Idx) :
    i ∈ ((cfg2.win 11).blk t).view.set ↔ ∀ a : Fin 2, win2_11.index t a * S2000x128.size a ≤ (i a).val ∧ (i a).val < win2_11.index t a * S2000x128.size a + S2000x128.size a := by
  show i ∈ ((View.whole main_v126).slice (win2_11.rect t)).set ↔ _
  rw [View.set_slice_whole, Rect.mem_set_unit]
  exact Iff.rfl

/-- Every row is in the block of the point `row / 2000`. -/
theorem covered (i : S100000x128.Idx) :
    ∃ t : Fin cfg2.N, (cfg2.win 11).flush t = true ∧ i ∈ ((cfg2.win 11).blk t).view.set := by
  have hi0 : (i 0).val < 100000 := (i 0).isLt
  have hi1 : (i 1).val < 128 := (i 1).isLt
  let t : Fin cfg2.N := ⟨(i 0).val / 2000, by show (i 0).val / 2000 < 50; omega⟩
  obtain ⟨i0a, i0b, i1a, i1b, i11a, i11b, i2a, i2b, i3a, i3b, i4a, i4b, i5a, i5b, i6a, i6b, i7a, i7b, i8a, i8b, i9a, i9b, i10a, i10b⟩ := idx_facts t
  refine ⟨t, flush2_11 t, ?_⟩
  rw [mem_blk]
  intro a
  have ht : t.val = (i 0).val / 2000 := rfl
  match a with
  | ⟨0, _⟩ => show win2_11.index t (0 : Fin 2) * 2000 ≤ (i 0).val ∧ (i 0).val < win2_11.index t (0 : Fin 2) * 2000 + 2000; rw [i11a]; omega
  | ⟨1, _⟩ => show win2_11.index t (1 : Fin 2) * 128 ≤ (i 1).val ∧ (i 1).val < win2_11.index t (1 : Fin 2) * 128 + 128; rw [i11b]; omega

set_option maxHeartbeats 4000000 in
/-- THE OUTPUT ARRAY after the launch: the layer of the eleven arrays the launch finds. -/
theorem final (c : Dev nD) :
    (dat2 V c).arrAt 11 cfg2.N = layer (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) :=
  (dat2 V c).arrAt_eq_of_cover 11 _ (fun t _ => flushed_eq V c t) covered

end Cert.KernelIdeal.Flush2

end
-- ==== Proof.KBlock3.lean ====
/-
  What one grid point of launch 3 computes, read at an entry of its block.

  The body loads a block of 2000 node rows of the features and of the neighbour sums, the layer's one-row
  parameters and its two weight matrices, and stores one block: at row `p`, column `q`, the layer's entry
  (`Cert.LayerSpec.entry`) of row `p` of the two loaded blocks.  The two matrix products contract the feature axis
  of the left operand with the SECOND axis of the weight matrix, into a zero accumulator: at the extended reals each is the
  plain sum `∑ i, x (p, i) · W (q, i)`; the narrowing of the operands to bf16 changes nothing there.
-/
import proofs.«163391_j14302241096098_1_alg».proof.Proof.Gen.KernelIdeal.Skeleton
import proofs.«163391_j14302241096098_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block3

open Cert.KernelIdeal Cert.KernelIdeal.Gen Cert.LayerSpec Idealize.ShloMosaic Idealize.ShloMosaic.ValueIdx
open scoped BigOperators

/-- The dimension numbers of both products: axis 1 against axis 1. -/
abbrev dims : DotDims S2000x128 S128x128 S2000x128 := dot_S2000x128_S128x128_S2000x128_1_1_0_0_n_n

theorem contr_rank : dims.contr.rank = 1 := rfl
theorem contr_size : dims.contr.size ⟨0, by rw [contr_rank]; exact Nat.one_pos⟩ = 128 := rfl

/-- At output entry `(p, q)` and contraction position `i` the left operand is read at `(p, i)`. -/
theorem lhs_at (p : Fin 2000) (q : Fin 128) (i : Fin 128) :
    dims.lhsIdx (ix2 p q) ((contrEquiv1 dims 128 contr_rank contr_size).symm i) = ix2 p i := by
  funext a; apply Fin.ext
  match a with
  | ⟨0, _⟩ => rfl
  | ⟨1, _⟩ => exact (DotDims.lhsIdx_val_of_single dims (cl := (1 : Fin 2)) rfl _ _).trans (contrEquiv1_symm_val dims 128 contr_rank contr_size i)

/-- … and the right operand at `(q, i)`: row `q` of the weight matrix. -/
theorem rhs_at (p : Fin 2000) (q : Fin 128) (i : Fin 128) :
    dims.rhsIdx (ix2 p q) ((contrEquiv1 dims 128 contr_rank contr_size).symm i) = ix2 q i := by
  funext a; apply Fin.ext
  match a with
  | ⟨0, _⟩ => rfl
  | ⟨1, _⟩ => exact (DotDims.rhsIdx_val_of_single dims (cr := (1 : Fin 2)) rfl _ _).trans (contrEquiv1_symm_val dims 128 contr_rank contr_size i)

/-- The product into a zero accumulator is the sum over the feature axis of row against row. -/
theorem product_at (l : FVec Ideal S2000x128 .bf16) (r : FVec Ideal S128x128 .bf16) (p : Fin 2000) (q : Fin 128) :
    matmul dims none l r (constant S2000x128 .f32 0x00000000#32) (ix2 p q) = ∑ i : Fin 128, l (ix2 p i) * r (ix2 q i) := by
  refine (Ideal.matmul_constant_zero_apply dims none l r (ix2 p q)).trans ?_
  refine (Equiv.sum_comp (contrEquiv1 dims 128 contr_rank contr_size).symm _).symm.trans ?_
  exact Finset.sum_congr rfl fun i _ => by rw [lhs_at, rhs_at]

/-- A one-row parameter repeated down the block's rows reads, at `(p, q)`, the row's entry `q`. -/
theorem row_at (v : Vec Ideal S1x128 .f32) (p : Fin 2000) (q : Fin 128) :
    broadcastTo S2000x128 (shapeCast S1x128 v shapeCasts_S1x128_S1x128) broadcasts_S1x128_S2000x128 (ix2 p q)
      = v (ix2 (0 : Fin 1) q) := by
  rw [shapeCast_self]; exact broadcastTo_1b_ab_apply v _ p q

/-- The body's value before the last scaling, at `(p, q)`: the second dense map of the cut first one of the mixed
    row, minus the mean, times the reciprocal deviation. -/
theorem scaled_at (x0 x1 : Vec Ideal S2000x128 .f32) (x2 : Vec Ideal S1x128 .f32) (x3 : Vec Ideal S128x128 .f32)
    (x4 : Vec Ideal S1x128 .f32) (x5 : Vec Ideal S128x128 .f32) (x6 x9 x10 : Vec Ideal S1x128 .f32) (p : Fin 2000) (q : Fin 128) :
    k3_pay2 x0 x1 x2 x3 x4 x5 x6 x9 x10 (ix2 p q)
      = (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)) q
          - x9 (ix2 (0 : Fin 1) q)) * x10 (ix2 (0 : Fin 1) q) := by
  unfold k3_pay2
  refine congrArg₂ (· * ·) (congrArg₂ (· - ·) (congrArg₂ (· + ·) ?second (row_at x6 p q)) (row_at x9 p q)) (row_at x10 p q)
  refine (product_at _ _ p q).trans (Finset.sum_congr rfl fun i _ => congrArg₂ (· * ·) ?_ (congrFun (shapeCast_self x5 _) (ix2 q i)))
  refine congrArg₂ max (congrArg₂ (· + ·) ?first (row_at x4 p i)) rfl
  refine (product_at _ _ p i).trans (Finset.sum_congr rfl fun i' _ => congrArg₂ (· * ·) ?_ (congrFun (shapeCast_self x3 _) (ix2 i i')))
  exact congrArg₂ (· + ·) (congrArg₂ (· * ·) (row_at x2 p i') (congrFun (shapeCast_self x0 _) (ix2 p i'))) (congrFun (shapeCast_self x1 _) (ix2 p i'))

/-- THE BLOCK the point stores, at `(p, q)`: the layer's entry of row `p` of the loaded blocks. -/
theorem stored_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    k3_pay1 (k3_pay2 x0 x1 x2 x3 x4 x5 x6 x9 x10) x7 x8 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := by
  have hx : addf (mulf (k3_pay2 x0 x1 x2 x3 x4 x5 x6 x9 x10)
        (broadcastTo S2000x128 (shapeCast S1x128 x7 shapeCasts_S1x128_S1x128) broadcasts_S1x128_S2000x128))
        (broadcastTo S2000x128 (shapeCast S1x128 x8 shapeCasts_S1x128_S1x128) broadcasts_S1x128_S2000x128) (ix2 p q)
      = normed (affine (hidden (mixed (fun k => x2 (ix2 (0 : Fin 1) k)) (fun k => x0 (ix2 p k)) (fun k => x1 (ix2 p k)))
            (fun k i => x3 (ix2 k i)) (fun k => x4 (ix2 (0 : Fin 1) k))) (fun k i => x5 (ix2 k i)) (fun k => x6 (ix2 (0 : Fin 1) k)))
          (fun k => x9 (ix2 (0 : Fin 1) k)) (fun k => x10 (ix2 (0 : Fin 1) k)) (fun k => x7 (ix2 (0 : Fin 1) k))
          (fun k => x8 (ix2 (0 : Fin 1) k)) q :=
    congrArg₂ (· + ·) (congrArg₂ (· * ·) (scaled_at x0 x1 x2 x3 x4 x5 x6 x9 x10 p q) (row_at x7 p q)) (row_at x8 p q)
  unfold k3_pay1 entry elu
  exact congrArg (fun y => Scalar.select (FloatOps.cmpf (F := Ideal) (φ := .f32) .ogt y zeroLit) y (Ideal.exp y - oneLit)) hx

/-- The block a point stores, as one function of the eleven loaded blocks. -/
def blockFn (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) : FVec Ideal S2000x128 .f32 :=
  fun j => entry (fun k => x2 (ix2 (0 : Fin 1) k)) (fun k => x0 (ix2 (⟨(j 0).val, idx2_lt0 j⟩ : Fin 2000) k))
    (fun k => x1 (ix2 (⟨(j 0).val, idx2_lt0 j⟩ : Fin 2000) k))
    (fun k i => x3 (ix2 k i)) (fun k => x4 (ix2 (0 : Fin 1) k)) (fun k i => x5 (ix2 k i)) (fun k => x6 (ix2 (0 : Fin 1) k))
    (fun k => x9 (ix2 (0 : Fin 1) k)) (fun k => x10 (ix2 (0 : Fin 1) k)) (fun k => x7 (ix2 (0 : Fin 1) k))
    (fun k => x8 (ix2 (0 : Fin 1) k)) (⟨(j 1).val, idx2_lt1 j⟩ : Fin 128)

theorem blockFn_at (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) (p : Fin 2000) (q : Fin 128) :
    blockFn x0 x1 x2 x3 x4 x5 x6 x7 x8 x9 x10 (ix2 p q)
      = entry (fun k => x2 (ix2 (0 : Fin 1) k)) (fun k => x0 (ix2 p k)) (fun k => x1 (ix2 p k))
          (fun k i => x3 (ix2 k i)) (fun k => x4 (ix2 (0 : Fin 1) k)) (fun k i => x5 (ix2 k i)) (fun k => x6 (ix2 (0 : Fin 1) k))
          (fun k => x9 (ix2 (0 : Fin 1) k)) (fun k => x10 (ix2 (0 : Fin 1) k)) (fun k => x7 (ix2 (0 : Fin 1) k))
          (fun k => x8 (ix2 (0 : Fin 1) k)) q := rfl

/-- The body's stored value IS that function. -/
theorem stored_eq (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32) :
    k3_pay1 (k3_pay2 x0 x1 x2 x3 x4 x5 x6 x9 x10) x7 x8 = blockFn x0 x1 x2 x3 x4 x5 x6 x7 x8 x9 x10 := by
  funext j
  obtain ⟨p, q, rfl⟩ : ∃ (p : Fin 2000) (q : Fin 128), j = ix2 p q := ⟨j 0, j 1, eq_ix2 j⟩
  exact (stored_at x0 x1 x2 x3 x4 x5 x6 x7 x8 x9 x10 p q).trans (blockFn_at x0 x1 x2 x3 x4 x5 x6 x7 x8 x9 x10 p q).symm

/-- If the eleven loaded blocks are rows `row p` of two arrays and the whole of nine others, the stored block at
    `(p, q)` is the layer of the arrays at `(row p, q)`. -/
theorem blockFn_eq_layer (x0 x1 : Vec Ideal S2000x128 .f32) (x2 : Vec Ideal S1x128 .f32) (x3 : Vec Ideal S128x128 .f32)
    (x4 : Vec Ideal S1x128 .f32) (x5 : Vec Ideal S128x128 .f32) (x6 x7 x8 x9 x10 : Vec Ideal S1x128 .f32)
    (A0 A1 : Big.Idx → EReal) (A2 : Row.Idx → EReal) (A3 : Sq.Idx → EReal) (A4 : Row.Idx → EReal) (A5 : Sq.Idx → EReal)
    (A6 A7 A8 A9 A10 : Row.Idx → EReal) (row : Fin 2000 → Fin 100000)
    (h0 : ∀ (p : Fin 2000) (k : Fin 128), x0 (ix2 p k) = A0 (ix2 (row p) k))
    (h1 : ∀ (p : Fin 2000) (k : Fin 128), x1 (ix2 p k) = A1 (ix2 (row p) k))
    (h2 : ∀ k : Fin 128, x2 (ix2 (0 : Fin 1) k) = A2 (ix2 (0 : Fin 1) k))
    (h3 : ∀ (a k : Fin 128), x3 (ix2 a k) = A3 (ix2 a k))
    (h4 : ∀ k : Fin 128, x4 (ix2 (0 : Fin 1) k) = A4 (ix2 (0 : Fin 1) k))
    (h5 : ∀ (a k : Fin 128), x5 (ix2 a k) = A5 (ix2 a k))
    (h6 : ∀ k : Fin 128, x6 (ix2 (0 : Fin 1) k) = A6 (ix2 (0 : Fin 1) k))
    (h7 : ∀ k : Fin 128, x7 (ix2 (0 : Fin 1) k) = A7 (ix2 (0 : Fin 1) k))
    (h8 : ∀ k : Fin 128, x8 (ix2 (0 : Fin 1) k) = A8 (ix2 (0 : Fin 1) k))
    (h9 : ∀ k : Fin 128, x9 (ix2 (0 : Fin 1) k) = A9 (ix2 (0 : Fin 1) k))
    (h10 : ∀ k : Fin 128, x10 (ix2 (0 : Fin 1) k) = A10 (ix2 (0 : Fin 1) k))
    (p : Fin 2000) (q : Fin 128) :
    blockFn x0 x1 x2 x3 x4 x5 x6 x7 x8 x9 x10 (ix2 p q) = layer A0 A1 A2 A3 A4 A5 A6 A7 A8 A9 A10 (ix2 (row p) q) := by
  rw [blockFn_at]
  show _ = entry (fun k => A2 (ix2 (0 : Fin 1) k)) (fun k => A0 (ix2 (row p) k)) (fun k => A1 (ix2 (row p) k))
      (fun k i => A3 (ix2 k i)) (fun k => A4 (ix2 (0 : Fin 1) k)) (fun k i => A5 (ix2 k i)) (fun k => A6 (ix2 (0 : Fin 1) k))
      (fun k => A9 (ix2 (0 : Fin 1) k)) (fun k => A10 (ix2 (0 : Fin 1) k)) (fun k => A7 (ix2 (0 : Fin 1) k))
      (fun k => A8 (ix2 (0 : Fin 1) k)) q
  rw [show (fun k => x0 (ix2 p k)) = fun k => A0 (ix2 (row p) k) from funext (h0 p),
    show (fun k => x1 (ix2 p k)) = fun k => A1 (ix2 (row p) k) from funext (h1 p),
    show (fun k => x2 (ix2 (0 : Fin 1) k)) = fun k => A2 (ix2 (0 : Fin 1) k) from funext h2,
    show (fun k i => x3 (ix2 k i)) = fun k i => A3 (ix2 k i) from funext fun a => funext (h3 a),
    show (fun k => x4 (ix2 (0 : Fin 1) k)) = fun k => A4 (ix2 (0 : Fin 1) k) from funext h4,
    show (fun k i => x5 (ix2 k i)) = fun k i => A5 (ix2 k i) from funext fun a => funext (h5 a),
    show (fun k => x6 (ix2 (0 : Fin 1) k)) = fun k => A6 (ix2 (0 : Fin 1) k) from funext h6,
    show (fun k => x7 (ix2 (0 : Fin 1) k)) = fun k => A7 (ix2 (0 : Fin 1) k) from funext h7,
    show (fun k => x8 (ix2 (0 : Fin 1) k)) = fun k => A8 (ix2 (0 : Fin 1) k) from funext h8,
    show (fun k => x9 (ix2 (0 : Fin 1) k)) = fun k => A9 (ix2 (0 : Fin 1) k) from funext h9,
    show (fun k => x10 (ix2 (0 : Fin 1) k)) = fun k => A10 (ix2 (0 : Fin 1) k) from funext h10]

end Cert.KernelIdeal.Block3

end
-- ==== Proof.KFlush3.lean ====
/-
  Launch 3's output array after all 50 grid points, as ONE function of the arrays the launch finds.

  Point `t` reads rows `2000·t … 2000·t + 1999` of the features and of the neighbour sums, and the whole of each
  parameter array, and writes the same rows of the output; every row belongs to exactly the point `row / 2000`.  So
  the output array ends as `Cert.LayerSpec.layer` of the eleven input arrays.
-/
import proofs.«163391_j14302241096098_1_alg».proof.Proof.Gen.KernelIdeal.Frame
import proofs.«163391_j14302241096098_1_alg».proof.Proof.KBlock3
import Idealize.ShloMosaic.Lib.Pipeline.Value

set_option maxRecDepth 16384

noncomputable section

namespace Cert.KernelIdeal.Flush3

open Cert.KernelIdeal Cert.KernelIdeal.Gen Cert.LayerSpec Idealize.ShloMosaic Idealize.ShloMosaic.ValueIdx
open Idealize.ShloMosaic.TcCoe Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps, decided over the 50 points: windows 0, 1 and 11 take block row `t`, the others block `(0, 0)`. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_11.index t (0 : Fin 2) = t.val ∧ win3_11.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

/-- Row `p` of point `t`'s block is row `2000·t + p` of the array. -/
def rowOf (t : Fin cfg3.N) (p : Fin 2000) : Fin 100000 :=
  ⟨t.val * 2000 + p.val, by have ht : t.val < 50 := t.isLt; have hp := p.isLt; omega⟩

/-- Window 0's block at point `t` is rows `2000·t … 2000·t + 1999` of its array. -/
theorem block0_at (c : Dev nD) (t : Fin cfg3.N) (p : Fin 2000) (k : Fin 128) :
    iblk3 V c 0 t (ix2 p k) = V c (Pipeline.arrRef spec3 0) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 2000 + 1 * p.val = t.val * 2000 + p.val; rw [i0a]; omega
  | ⟨1, _⟩ => show win3_0.index t (1 : Fin 2) * 128 + 1 * k.val = k.val; rw [i0b]; omega

/-- Window 1's block at point `t` is rows `2000·t … 2000·t + 1999` of its array. -/
theorem block1_at (c : Dev nD) (t : Fin cfg3.N) (p : Fin 2000) (k : Fin 128) :
    iblk3 V c 1 t (ix2 p k) = V c (Pipeline.arrRef spec3 1) (ix2 (rowOf t p) k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 1) (((cfg3.win 1).blk t).view.emb (ix2 p k)) = _
  refine congrArg (V c (Pipeline.arrRef spec3 1)) (funext fun a => Fin.ext ?_)
  match a with
  | ⟨0, _⟩ => show win3_1.index t (0 : Fin 2) * 2000 + 1 * p.val = t.val * 2000 + p.val; rw [i1a]; omega
  | ⟨1, _⟩ => show win3_1.index t (1 : Fin 2) * 128 + 1 * k.val = k.val; rw [i1b]; omega

/-- Window 2's block is its whole array at every point. -/
theorem block2_at (c : Dev nD) (t : Fin cfg3.N) (a0 : Fin 1) (k : Fin 128) :
    iblk3 V c 2 t (ix2 a0 k) = V c (Pipeline.arrRef spec3 2) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 2) (((cfg3.win 2).blk t).view.emb (ix2 a0 k)) = _
  refine congrArg (V c (Pipeline.arrRef spec3 2)) (funext fun a => Fin.ext ?_)
  match a with
  | ⟨0, _⟩ => show win3_2.index t (0 : Fin 2) * 1 + 1 * a0.val = a0.val; rw [i2a]; omega
  | ⟨1, _⟩ => show win3_2.index t (1 : Fin 2) * 128 + 1 * k.val = k.val; rw [i2b]; omega

/-- Window 3's block is its whole array at every point. -/
theorem block3_at (c : Dev nD) (t : Fin cfg3.N) (a0 : Fin 128) (k : Fin 128) :
    iblk3 V c 3 t (ix2 a0 k) = V c (Pipeline.arrRef spec3 3) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 3) (((cfg3.win 3).blk t).view.emb (ix2 a0 k)) = _
  refine congrArg (V c (Pipeline.arrRef spec3 3)) (funext fun a => Fin.ext ?_)
  match a with
  | ⟨0, _⟩ => show win3_3.index t (0 : Fin 2) * 128 + 1 * a0.val = a0.val; rw [i3a]; omega
  | ⟨1, _⟩ => show win3_3.index t (1 : Fin 2) * 128 + 1 * k.val = k.val; rw [i3b]; omega

/-- Window 4's block is its whole array at every point. -/
theorem block4_at (c : Dev nD) (t : Fin cfg3.N) (a0 : Fin 1) (k : Fin 128) :
    iblk3 V c 4 t (ix2 a0 k) = V c (Pipeline.arrRef spec3 4) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 4) (((cfg3.win 4).blk t).view.emb (ix2 a0 k)) = _
  refine congrArg (V c (Pipeline.arrRef spec3 4)) (funext fun a => Fin.ext ?_)
  match a with
  | ⟨0, _⟩ => show win3_4.index t (0 : Fin 2) * 1 + 1 * a0.val = a0.val; rw [i4a]; omega
  | ⟨1, _⟩ => show win3_4.index t (1 : Fin 2) * 128 + 1 * k.val = k.val; rw [i4b]; omega

/-- Window 5's block is its whole array at every point. -/
theorem block5_at (c : Dev nD) (t : Fin cfg3.N) (a0 : Fin 128) (k : Fin 128) :
    iblk3 V c 5 t (ix2 a0 k) = V c (Pipeline.arrRef spec3 5) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 5) (((cfg3.win 5).blk t).view.emb (ix2 a0 k)) = _
  refine congrArg (V c (Pipeline.arrRef spec3 5)) (funext fun a => Fin.ext ?_)
  match a with
  | ⟨0, _⟩ => show win3_5.index t (0 : Fin 2) * 128 + 1 * a0.val = a0.val; rw [i5a]; omega
  | ⟨1, _⟩ => show win3_5.index t (1 : Fin 2) * 128 + 1 * k.val = k.val; rw [i5b]; omega

/-- Window 6's block is its whole array at every point. -/
theorem block6_at (c : Dev nD) (t : Fin cfg3.N) (a0 : Fin 1) (k : Fin 128) :
    iblk3 V c 6 t (ix2 a0 k) = V c (Pipeline.arrRef spec3 6) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 6) (((cfg3.win 6).blk t).view.emb (ix2 a0 k)) = _
  refine congrArg (V c (Pipeline.arrRef spec3 6)) (funext fun a => Fin.ext ?_)
  match a with
  | ⟨0, _⟩ => show win3_6.index t (0 : Fin 2) * 1 + 1 * a0.val = a0.val; rw [i6a]; omega
  | ⟨1, _⟩ => show win3_6.index t (1 : Fin 2) * 128 + 1 * k.val = k.val; rw [i6b]; omega

/-- Window 7's block is its whole array at every point. -/
theorem block7_at (c : Dev nD) (t : Fin cfg3.N) (a0 : Fin 1) (k : Fin 128) :
    iblk3 V c 7 t (ix2 a0 k) = V c (Pipeline.arrRef spec3 7) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 7) (((cfg3.win 7).blk t).view.emb (ix2 a0 k)) = _
  refine congrArg (V c (Pipeline.arrRef spec3 7)) (funext fun a => Fin.ext ?_)
  match a with
  | ⟨0, _⟩ => show win3_7.index t (0 : Fin 2) * 1 + 1 * a0.val = a0.val; rw [i7a]; omega
  | ⟨1, _⟩ => show win3_7.index t (1 : Fin 2) * 128 + 1 * k.val = k.val; rw [i7b]; omega

/-- Window 8's block is its whole array at every point. -/
theorem block8_at (c : Dev nD) (t : Fin cfg3.N) (a0 : Fin 1) (k : Fin 128) :
    iblk3 V c 8 t (ix2 a0 k) = V c (Pipeline.arrRef spec3 8) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 8) (((cfg3.win 8).blk t).view.emb (ix2 a0 k)) = _
  refine congrArg (V c (Pipeline.arrRef spec3 8)) (funext fun a => Fin.ext ?_)
  match a with
  | ⟨0, _⟩ => show win3_8.index t (0 : Fin 2) * 1 + 1 * a0.val = a0.val; rw [i8a]; omega
  | ⟨1, _⟩ => show win3_8.index t (1 : Fin 2) * 128 + 1 * k.val = k.val; rw [i8b]; omega

/-- Window 9's block is its whole array at every point. -/
theorem block9_at (c : Dev nD) (t : Fin cfg3.N) (a0 : Fin 1) (k : Fin 128) :
    iblk3 V c 9 t (ix2 a0 k) = V c (Pipeline.arrRef spec3 9) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 9) (((cfg3.win 9).blk t).view.emb (ix2 a0 k)) = _
  refine congrArg (V c (Pipeline.arrRef spec3 9)) (funext fun a => Fin.ext ?_)
  match a with
  | ⟨0, _⟩ => show win3_9.index t (0 : Fin 2) * 1 + 1 * a0.val = a0.val; rw [i9a]; omega
  | ⟨1, _⟩ => show win3_9.index t (1 : Fin 2) * 128 + 1 * k.val = k.val; rw [i9b]; omega

/-- Window 10's block is its whole array at every point. -/
theorem block10_at (c : Dev nD) (t : Fin cfg3.N) (a0 : Fin 1) (k : Fin 128) :
    iblk3 V c 10 t (ix2 a0 k) = V c (Pipeline.arrRef spec3 10) (ix2 a0 k) := by
  obtain ⟨i0a, i0b, i1a, i1b, i11a, i11b, i2a, i2b, i3a, i3b, i4a, i4b, i5a, i5b, i6a, i6b, i7a, i7b, i8a, i8b, i9a, i9b, i10a, i10b⟩ := idx_facts t
  show V c (Pipeline.arrRef spec3 10) (((cfg3.win 10).blk t).view.emb (ix2 a0 k)) = _
  refine congrArg (V c (Pipeline.arrRef spec3 10)) (funext fun a => Fin.ext ?_)
  match a with
  | ⟨0, _⟩ => show win3_10.index t (0 : Fin 2) * 1 + 1 * a0.val = a0.val; rw [i10a]; omega
  | ⟨1, _⟩ => show win3_10.index t (1 : Fin 2) * 128 + 1 * k.val = k.val; rw [i10b]; omega

/-- Entry `j` of point `t`'s output block sits at row `2000·t + j₀`, column `j₁` of the output array. -/
theorem out_at (t : Fin cfg3.N) (j : S2000x128.Idx) :
    ((cfg3.win 11).blk t).view.emb j
      = ix2 (rowOf t (⟨(j 0).val, idx2_lt0 j⟩ : Fin 2000)) (⟨(j 1).val, idx2_lt1 j⟩ : Fin 128) := by
  obtain ⟨i0a, i0b, i1a, i1b, i11a, i11b, i2a, i2b, i3a, i3b, i4a, i4b, i5a, i5b, i6a, i6b, i7a, i7b, i8a, i8b, i9a, i9b, i10a, i10b⟩ := idx_facts t
  refine funext fun a => Fin.ext ?_
  match a with
  | ⟨0, _⟩ => show win3_11.index t (0 : Fin 2) * 2000 + 1 * (j 0).val = t.val * 2000 + (j 0).val; rw [i11a]; omega
  | ⟨1, _⟩ => show win3_11.index t (1 : Fin 2) * 128 + 1 * (j 1).val = (j 1).val; rw [i11b]; omega

/-- The staging block's index of an index of the part written back has the same coordinates. -/
theorem xinj_eq (t : Fin cfg3.N) (j : S2000x128.Idx) :
    (cfg3.win 11).xinj (grid3.coords t) j = ix2 (⟨(j 0).val, idx2_lt0 j⟩ : Fin 2000) (⟨(j 1).val, idx2_lt1 j⟩ : Fin 128) :=
  funext fun a => Fin.ext (match a with | ⟨0, _⟩ => rfl | ⟨1, _⟩ => rfl)

set_option maxHeartbeats 4000000 in
/-- WHAT POINT `t` WRITES BACK is block `t` of the layer of the arrays as the launch finds them. -/
theorem flushed_eq (c : Dev nD) (t : Fin cfg3.N) :
    (dat3 V c).flushed 11 t = ((cfg3.win 11).blk t).view.read (Elt Ideal) (layer (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))) := by
  show (cfg3.win 11).cut (grid3.coords t) ((dat3 V c).after 11 t) = _
  rw [after3_11]
  unfold out3_11
  rw [View.canon_unit_zero zero_offsets]
  simp only [View.ld_unit_zero (S := S2000x128) zero_offsets, View.ld_unit_zero (S := S1x128) zero_offsets,
    View.ld_unit_zero (S := S128x128) zero_offsets]
  refine (congrArg ((cfg3.win 11).cut (grid3.coords t)) (Block3.stored_eq (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t))).trans ?_
  have key : ∀ j : S2000x128.Idx, Block3.blockFn (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) ((cfg3.win 11).xinj (grid3.coords t) j)
      = layer (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (((cfg3.win 11).blk t).view.emb j) := by
    intro j
    refine (congrArg (Block3.blockFn (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)) (xinj_eq t j)).trans ?_
    rw [out_at t j]
    exact Block3.blockFn_eq_layer (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) (rowOf t)
      (block0_at V c t) (block1_at V c t) (block2_at V c t (0 : Fin 1)) (block3_at V c t) (block4_at V c t (0 : Fin 1)) (block5_at V c t) (block6_at V c t (0 : Fin 1)) (block7_at V c t (0 : Fin 1)) (block8_at V c t (0 : Fin 1)) (block9_at V c t (0 : Fin 1)) (block10_at V c t (0 : Fin 1)) (⟨(j 0).val, idx2_lt0 j⟩ : Fin 2000) (⟨(j 1).val, idx2_lt1 j⟩ : Fin 128)
  exact funext key

/-- An index of the output array is in point `t`'s block iff each coordinate is in the block's range on its axis. -/
theorem mem_blk (t : Fin cfg3.N) (i : S100000x128.Idx) :
    i ∈ ((cfg3.win 11).blk t).view.set ↔ ∀ a : Fin 2, win3_11.index t a * S2000x128.size a ≤ (i a).val ∧ (i a).val < win3_11.index t a * S2000x128.size a + S2000x128.size a := by
  show i ∈ ((View.whole main_v167).slice (win3_11.rect t)).set ↔ _
  rw [View.set_slice_whole, Rect.mem_set_unit]
  exact Iff.rfl

/-- Every row is in the block of the point `row / 2000`. -/
theorem covered (i : S100000x128.Idx) :
    ∃ t : Fin cfg3.N, (cfg3.win 11).flush t = true ∧ i ∈ ((cfg3.win 11).blk t).view.set := by
  have hi0 : (i 0).val < 100000 := (i 0).isLt
  have hi1 : (i 1).val < 128 := (i 1).isLt
  let t : Fin cfg3.N := ⟨(i 0).val / 2000, by show (i 0).val / 2000 < 50; omega⟩
  obtain ⟨i0a, i0b, i1a, i1b, i11a, i11b, i2a, i2b, i3a, i3b, i4a, i4b, i5a, i5b, i6a, i6b, i7a, i7b, i8a, i8b, i9a, i9b, i10a, i10b⟩ := idx_facts t
  refine ⟨t, flush3_11 t, ?_⟩
  rw [mem_blk]
  intro a
  have ht : t.val = (i 0).val / 2000 := rfl
  match a with
  | ⟨0, _⟩ => show win3_11.index t (0 : Fin 2) * 2000 ≤ (i 0).val ∧ (i 0).val < win3_11.index t (0 : Fin 2) * 2000 + 2000; rw [i11a]; omega
  | ⟨1, _⟩ => show win3_11.index t (1 : Fin 2) * 128 ≤ (i 1).val ∧ (i 1).val < win3_11.index t (1 : Fin 2) * 128 + 128; rw [i11b]; omega

set_option maxHeartbeats 4000000 in
/-- THE OUTPUT ARRAY after the launch: the layer of the eleven arrays the launch finds. -/
theorem final (c : Dev nD) :
    (dat3 V c).arrAt 11 cfg3.N = layer (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) :=
  (dat3 V c).arrAt_eq_of_cover 11 _ (fun t _ => flushed_eq V c t) covered

end Cert.KernelIdeal.Flush3

end
-- ==== Proof.RefTerm.lean ====
/-
  The reference program's result as one term of its arguments, layer by layer.

  The graph network has four layers.  A layer takes the node features `h` (100000 × 128), sums over each node's
  incoming edges the features of the edge's source node (`aggOf`: rows gathered at the source indices, a negative index
  counted from the end, then added into the row of the destination index), and applies
      h ↦ elu (bn (relu ((1 + ε)·h + agg) · W₁ᵀ + b₁) · W₂ᵀ + b₂)
  where `bn x = (x − μ) · rsqrt (σ² + 1e-5) · γ + β` column by column, `relu x = max x 0` and
  `elu x = x` for `x > 0`, `1 · expm1 x` otherwise.  Layer `l` uses row `l` of each stacked parameter.
  Every function here is the composition of the program's own operations in the program's order, at any float type.
-/
import proofs.«163391_j14302241096098_1_alg».proof.ReferenceIdeal

noncomputable section

namespace Cert.ReferenceIdeal.RefTerm

open Cert.ReferenceIdeal Idealize.ShloMosaic

variable {F : FTy → Type} [FloatOps F] [Facts]

open Facts₀ Facts

/-- Row `0` of the edge table (the source node of every edge) as a vector. -/
def srcOf (ei : (⟨S2x625000, .i32⟩ : BufTy).Contents (Elt F)) : (⟨S625000, .i32⟩ : BufTy).Contents (Elt F) :=
  fun i => shapeCast S625000 (extractStridedSlice S1x625000 ![0, 0] ei slices_S2x625000_S1x625000_0_0) shapeCasts_S1x625000_S625000 i

/-- Row `1` of the edge table (the destination node of every edge) as a vector. -/
def dstOf (ei : (⟨S2x625000, .i32⟩ : BufTy).Contents (Elt F)) : (⟨S625000, .i32⟩ : BufTy).Contents (Elt F) :=
  fun i => shapeCast S625000 (extractStridedSlice S1x625000 ![1, 0] ei slices_S2x625000_S1x625000_1_0) shapeCasts_S1x625000_S625000 i

/-- The neighbour sums: the rows of `h` at the source indices (a negative index has 100000 added), each added into the
    row of its destination index, starting from zeros. -/
def aggOf (h : (⟨S100000x128, .f32⟩ : BufTy).Contents (Elt F)) (src dst : (⟨S625000, .i32⟩ : BufTy).Contents (Elt F)) :
    (⟨S100000x128, .f32⟩ : BufTy).Contents (Elt F) :=
  Host.scatterAdd scatter_S100000x128_S625000x1_S625000x128_1_0_0_1
    (broadcastInDim S100000x128 ![] bcast_S_S100000x128 (constant S_ .f32 0x00000000#32))
    (broadcastInDim S625000x1 ![0] bcast_S625000_S625000x1_0 dst)
    (Host.gather gather_S100000x128_S625000x1_S625000x128_1_0_n_n_0_1_1128 h
      (broadcastInDim S625000x1 ![0] bcast_S625000_S625000x1_0
        (select (cmpi .slt src (broadcastInDim S625000 ![] bcast_S_S625000 (constantI S_ 32 0#32)))
          (addi src (broadcastInDim S625000 ![] bcast_S_S625000 (constantI S_ 32 100000#32))) src)))

/-- A vector of 128 columns repeated down the 100000 rows. -/
def rowsOf (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

/-- `x · Wᵀ + b`: each row of `x` against each row of `W`, plus the bias of that row of `W`. -/
def denseOf (x : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  addf (Host.dotGeneral dot_S100000x128_S128x128_S100000x128_1_0_0_1_n_n none x
      (transpose S128x128 [1, 0] W transposes_S128x128_S128x128_1_0)) (rowsOf b)

/-- `max x 0`. -/
def reluOf (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- `x` where `x > 0`, and `1 · expm1 x` elsewhere (the argument of `expm1` replaced by `0` where `x > 0`). -/
def eluOf (x : (⟨S100000x128, .f32⟩ : BufTy).Contents (Elt F)) : (⟨S100000x128, .f32⟩ : BufTy).Contents (Elt F) :=
  select (cmpf .ogt x (broadcastInDim S100000x128 ![] bcast_S_S100000x128 (constant S_ .f32 0x00000000#32))) x
    (mulf (broadcastInDim S100000x128 ![] bcast_S_S100000x128 (constant S_ .f32 0x3F800000#32))
      (Host.expm1
        (select (cmpf .ogt x (broadcastInDim S100000x128 ![] bcast_S_S100000x128 (constant S_ .f32 0x00000000#32)))
          (broadcastInDim S100000x128 ![] bcast_S_S100000x128 (id (constant S_ .f32 0x00000000#32))) x)))

/-- One layer from the features, the neighbour sums and the layer's own parameters (its row of each stacked array). -/
def layerOf (h agg : (⟨S100000x128, .f32⟩ : BufTy).Contents (Elt F)) (e : (⟨S_, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (mu var g be : (⟨S128, .f32⟩ : BufTy).Contents (Elt F)) : (⟨S100000x128, .f32⟩ : BufTy).Contents (Elt F) :=
  eluOf (addf (mulf (mulf (subf
      (denseOf (reluOf (denseOf
          (addf (mulf (broadcastInDim S100000x128 ![] bcast_S_S100000x128 (addf (constant S_ .f32 0x3F800000#32) e)) h) agg)
          W1 b1)) W2 b2)
      (rowsOf mu))
      (rowsOf (Host.rsqrt (addf var (broadcastInDim S128 ![] bcast_S_S128 (constant S_ .f32 0x3727C5AC#32))))))
      (rowsOf g)) (rowsOf be))

/-! Row `l` of a stacked parameter, at its own shape. -/
def e0 (a : (⟨S4, .f32⟩ : BufTy).Contents (Elt F)) : (⟨S_, .f32⟩ : BufTy).Contents (Elt F) :=
  fun i => shapeCast S_ (extractStridedSlice S1 ![0] a slices_S4_S1_0) shapeCasts_S1_S_ i
def e1 (a : (⟨S4, .f32⟩ : BufTy).Contents (Elt F)) : (⟨S_, .f32⟩ : BufTy).Contents (Elt F) :=
  fun i => shapeCast S_ (extractStridedSlice S1 ![1] a slices_S4_S1_1) shapeCasts_S1_S_ i
def e2 (a : (⟨S4, .f32⟩ : BufTy).Contents (Elt F)) : (⟨S_, .f32⟩ : BufTy).Contents (Elt F) :=
  fun i => shapeCast S_ (extractStridedSlice S1 ![2] a slices_S4_S1_2) shapeCasts_S1_S_ i
def e3 (a : (⟨S4, .f32⟩ : BufTy).Contents (Elt F)) : (⟨S_, .f32⟩ : BufTy).Contents (Elt F) :=
  fun i => shapeCast S_ (extractStridedSlice S1 ![3] a slices_S4_S1_3) shapeCasts_S1_S_ i
def vec0 (a : (⟨S4x128, .f32⟩ : BufTy).Contents (Elt F)) : (⟨S128, .f32⟩ : BufTy).Contents (Elt F) :=
  fun i => shapeCast S128 (extractStridedSlice S1x128 ![0, 0] a slices_S4x128_S1x128_0_0) shapeCasts_S1x128_S128 i
def vec1 (a : (⟨S4x128, .f32⟩ : BufTy).Contents (Elt F)) : (⟨S128, .f32⟩ : BufTy).Contents (Elt F) :=
  fun i => shapeCast S128 (extractStridedSlice S1x128 ![1, 0] a slices_S4x128_S1x128_1_0) shapeCasts_S1x128_S128 i
def vec2 (a : (⟨S4x128, .f32⟩ : BufTy).Contents (Elt F)) : (⟨S128, .f32⟩ : BufTy).Contents (Elt F) :=
  fun i => shapeCast S128 (extractStridedSlice S1x128 ![2, 0] a slices_S4x128_S1x128_2_0) shapeCasts_S1x128_S128 i
def vec3 (a : (⟨S4x128, .f32⟩ : BufTy).Contents (Elt F)) : (⟨S128, .f32⟩ : BufTy).Contents (Elt F) :=
  fun i => shapeCast S128 (extractStridedSlice S1x128 ![3, 0] a slices_S4x128_S1x128_3_0) shapeCasts_S1x128_S128 i
def mat0 (a : (⟨S4x128x128, .f32⟩ : BufTy).Contents (Elt F)) : (⟨S128x128, .f32⟩ : BufTy).Contents (Elt F) :=
  fun i => shapeCast S128x128 (extractStridedSlice S1x128x128 ![0, 0, 0] a slices_S4x128x128_S1x128x128_0_0_0) shapeCasts_S1x128x128_S128x128 i
def mat1 (a : (⟨S4x128x128, .f32⟩ : BufTy).Contents (Elt F)) : (⟨S128x128, .f32⟩ : BufTy).Contents (Elt F) :=
  fun i => shapeCast S128x128 (extractStridedSlice S1x128x128 ![1, 0, 0] a slices_S4x128x128_S1x128x128_1_0_0) shapeCasts_S1x128x128_S128x128 i
def mat2 (a : (⟨S4x128x128, .f32⟩ : BufTy).Contents (Elt F)) : (⟨S128x128, .f32⟩ : BufTy).Contents (Elt F) :=
  fun i => shapeCast S128x128 (extractStridedSlice S1x128x128 ![2, 0, 0] a slices_S4x128x128_S1x128x128_2_0_0) shapeCasts_S1x128x128_S128x128 i
def mat3 (a : (⟨S4x128x128, .f32⟩ : BufTy).Contents (Elt F)) : (⟨S128x128, .f32⟩ : BufTy).Contents (Elt F) :=
  fun i => shapeCast S128x128 (extractStridedSlice S1x128x128 ![3, 0, 0] a slices_S4x128x128_S1x128x128_3_0_0) shapeCasts_S1x128x128_S128x128 i

end Cert.ReferenceIdeal.RefTerm

end
-- ==== Proof.RefLayer.lean ====
/-
  The reference's layer, read entry by entry, is the layer of `LayerSpec`.

  Each stage of the reference's layer is a whole-array operation; read at the entry `(n, j)` it is the matching
  scalar expression.  A vector of 128 columns repeated down the rows reads its column `j`.  The dense map
  `x · Wᵀ + b` reads `∑ i, x (n, i) · W (j, i) + b j`: the contraction runs over the second axis of `x` and the
  first axis of the transposed weights, and the transposed weights at `(i, j)` are the weights at `(j, i)`.
  The cut at zero, the normalisation and `elu` are pointwise.  Both sides sum over the same 128 indices in the same
  order, so no law of the extended reals is used beyond the two spellings of `elu` agreeing.
-/
import proofs.«163391_j14302241096098_1_alg».proof.Proof.Gen.ReferenceIdeal
import proofs.«163391_j14302241096098_1_alg».proof.Proof.RefTerm
import proofs.«163391_j14302241096098_1_alg».proof.Proof.LayerSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefLayer

open Cert.ReferenceIdeal Cert.ReferenceIdeal.RefTerm Cert.LayerSpec Idealize.ShloMosaic Idealize.ShloMosaic.ValueIdx
open Facts₀ Facts
open scoped BigOperators

/-! ## The dense map's dimension numbers -/

/-- Rows of the left operand against columns of the right one: contraction over axis 1 of the left operand and
    axis 0 of the right. -/
abbrev dims : DotDims S100000x128 S128x128 S100000x128 := dot_S100000x128_S128x128_S100000x128_1_0_0_1_n_n

theorem contr_rank : dims.contr.rank = 1 := rfl
theorem contr_size : dims.contr.size ⟨0, by rw [contr_rank]; exact Nat.one_pos⟩ = 128 := rfl

/-- At output entry `(p, q)` and contraction position `i` the left operand is read at `(p, i)`. -/
theorem lhs_at (p : Fin 100000) (q : Fin 128) (i : Fin 128) :
    dims.lhsIdx (ix2 p q) ((contrEquiv1 dims 128 contr_rank contr_size).symm i) = ix2 p i := by
  funext a; apply Fin.ext
  match a with
  | ⟨0, _⟩ => rfl
  | ⟨1, _⟩ =>
    exact (DotDims.lhsIdx_val_of_single dims (cl := (1 : Fin 2)) rfl _ _).trans
      (contrEquiv1_symm_val dims 128 contr_rank contr_size i)

/-- At output entry `(p, q)` and contraction position `i` the right operand is read at `(i, q)`. -/
theorem rhs_at (p : Fin 100000) (q : Fin 128) (i : Fin 128) :
    dims.rhsIdx (ix2 p q) ((contrEquiv1 dims 128 contr_rank contr_size).symm i) = ix2 i q := by
  funext a; apply Fin.ext
  match a with
  | ⟨0, _⟩ =>
    exact (DotDims.rhsIdx_val_of_single dims (cr := (0 : Fin 2)) rfl _ _).trans
      (contrEquiv1_symm_val dims 128 contr_rank contr_size i)
  | ⟨1, _⟩ => rfl

/-! ## The stages read at an entry -/

/-- A vector repeated down the rows reads, at `(n, j)`, its column `j`. -/
theorem rowsOf_at (v : (⟨S128, .f32⟩ : BufTy).Contents (Elt Ideal)) (n : Fin 100000) (j : Fin 128) :
    rowsOf (F := Ideal) v (ix2 n j) = v (ix1 j) := by
  unfold rowsOf
  refine (broadcastInDim_apply ![0, 1] bcast_S1x128_S100000x128_0_1 _ (ix2 n j) (ix2 (0 : Fin 1) j)
    (fun a => match a with | ⟨0, _⟩ => rfl | ⟨1, _⟩ => rfl)).trans ?_
  exact broadcastInDim_apply ![1] bcast_S128_S1x128_1 v (ix2 (0 : Fin 1) j) (ix1 j)
    (fun a => match a with | ⟨0, _⟩ => rfl)

/-- The host's product of `x` with the transposed weights reads, at `(n, j)`, row `n` of `x` against row `j`
    of the weights. -/
theorem product_at (x : (⟨S100000x128, .f32⟩ : BufTy).Contents (Elt Ideal))
    (W : (⟨S128x128, .f32⟩ : BufTy).Contents (Elt Ideal)) (n : Fin 100000) (j : Fin 128) :
    Host.dotGeneral (F := Ideal) (φ₁ := .f32) (φ₂ := .f32) dims none x (transpose S128x128 [1, 0] W transposes_S128x128_S128x128_1_0) (ix2 n j)
      = ∑ i : Fin 128, x (ix2 n i) * W (ix2 j i) := by
  refine (Ideal.dotGeneral_apply (φ₁ := .f32) (φ₂ := .f32) dims none .single x _ (ix2 n j)).trans ?_
  refine (Equiv.sum_comp (contrEquiv1 dims 128 contr_rank contr_size).symm _).symm.trans ?_
  refine Finset.sum_congr rfl fun i _ => ?_
  rw [lhs_at, rhs_at]
  exact congrArg (x (ix2 n i) * ·) (transpose_ix2_apply W transposes_S128x128_S128x128_1_0 i j)

/-- The dense map `x · Wᵀ + b` at `(n, j)`. -/
theorem denseOf_at (x : (⟨S100000x128, .f32⟩ : BufTy).Contents (Elt Ideal))
    (W : (⟨S128x128, .f32⟩ : BufTy).Contents (Elt Ideal)) (b : (⟨S128, .f32⟩ : BufTy).Contents (Elt Ideal))
    (n : Fin 100000) (j : Fin 128) :
    denseOf (F := Ideal) x W b (ix2 n j) = (∑ i : Fin 128, x (ix2 n i) * W (ix2 j i)) + b (ix1 j) := by
  unfold denseOf
  exact congrArg₂ (· + ·) (product_at x W n j) (rowsOf_at b n j)

/-- The cut at zero at `(n, j)`. -/
theorem reluOf_at (x : (⟨S100000x128, .f32⟩ : BufTy).Contents (Elt Ideal)) (n : Fin 100000) (j : Fin 128) :
    reluOf (F := Ideal) x (ix2 n j) = max (x (ix2 n j)) zeroLit := by
  unfold reluOf
  exact congrArg (max (x (ix2 n j))) (broadcastInDim_scalar_apply bcast_S_S100000x128 _ (ix2 n j))

/-- The reference's `elu` at `(n, j)` is `elu` of the entry. -/
theorem eluOf_at (x : (⟨S100000x128, .f32⟩ : BufTy).Contents (Elt Ideal)) (n : Fin 100000) (j : Fin 128) :
    eluOf (F := Ideal) x (ix2 n j) = elu (x (ix2 n j)) := by
  unfold eluOf
  have hz : ∀ c : (⟨S_, .f32⟩ : BufTy).Contents (Elt Ideal),
      broadcastInDim S100000x128 ![] bcast_S_S100000x128 c (ix2 n j) = c ix0 :=
    fun c => broadcastInDim_scalar_apply bcast_S_S100000x128 c (ix2 n j)
  refine Eq.trans ?_ (elu_expm1 (x (ix2 n j)))
  show Scalar.select (FloatOps.cmpf (F := Ideal) (φ := .f32) .ogt (x (ix2 n j))
        (broadcastInDim S100000x128 ![] bcast_S_S100000x128 (constant (F := Ideal) S_ .f32 0x00000000#32) (ix2 n j)))
      (x (ix2 n j))
      (broadcastInDim S100000x128 ![] bcast_S_S100000x128 (constant (F := Ideal) S_ .f32 0x3F800000#32) (ix2 n j)
        * (Ideal.exp (Scalar.select (FloatOps.cmpf (F := Ideal) (φ := .f32) .ogt (x (ix2 n j))
              (broadcastInDim S100000x128 ![] bcast_S_S100000x128 (constant (F := Ideal) S_ .f32 0x00000000#32) (ix2 n j)))
            (broadcastInDim S100000x128 ![] bcast_S_S100000x128 (constant (F := Ideal) S_ .f32 0x00000000#32) (ix2 n j))
            (x (ix2 n j))) - 1)) = _
  rw [hz, hz]
  rfl

/-- The reciprocal standard deviation of column `j`: `rsqrt (σ² + 1e-5)`. -/
theorem rstd_at (var : (⟨S128, .f32⟩ : BufTy).Contents (Elt Ideal)) (j : Fin 128) :
    Host.rsqrt (F := Ideal) (addf var (broadcastInDim S128 ![] bcast_S_S128 (constant S_ .f32 0x3727C5AC#32))) (ix1 j)
      = Ideal.rsqrt (var (ix1 j) + Ideal.ofBits .f32 0x3727C5AC#32) :=
  congrArg (fun c => Ideal.rsqrt (var (ix1 j) + c))
    (broadcastInDim_scalar_apply bcast_S_S128 (constant (F := Ideal) S_ .f32 0x3727C5AC#32) (ix1 j))

/-- The reference's layer is `layer`: at every entry `(n, j)` the two are the same expression in the entries of the
    features, the neighbour sums and the parameters, once each one-row parameter is read as the vector it repeats. -/
theorem layerOf_eq_layer
    (h agg : (⟨S100000x128, .f32⟩ : BufTy).Contents (Elt Ideal)) (e : (⟨S_, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 mu var g be : (⟨S128, .f32⟩ : BufTy).Contents (Elt Ideal))
    (sc b1' b2' g' be' mu' r' : Row.Idx → EReal)
    (hsc : ∀ k : Fin 128, sc (ix2 (0 : Fin 1) k) = oneLit + e ix0)
    (hb1 : ∀ k : Fin 128, b1' (ix2 (0 : Fin 1) k) = b1 (ix1 k)) (hb2 : ∀ k : Fin 128, b2' (ix2 (0 : Fin 1) k) = b2 (ix1 k))
    (hg : ∀ k : Fin 128, g' (ix2 (0 : Fin 1) k) = g (ix1 k)) (hbe : ∀ k : Fin 128, be' (ix2 (0 : Fin 1) k) = be (ix1 k))
    (hmu : ∀ k : Fin 128, mu' (ix2 (0 : Fin 1) k) = mu (ix1 k))
    (hr : ∀ k : Fin 128, r' (ix2 (0 : Fin 1) k) = Ideal.rsqrt (var (ix1 k) + Ideal.ofBits .f32 0x3727C5AC#32)) :
    layerOf (F := Ideal) h agg e W1 b1 W2 b2 mu var g be = layer h agg sc W1 b1' W2 b2' g' be' mu' r' := by
  funext i
  obtain ⟨n, j, rfl⟩ : ∃ (n : Fin 100000) (j : Fin 128), i = ix2 n j := ⟨i 0, i 1, eq_ix2 i⟩
  show layerOf (F := Ideal) h agg e W1 b1 W2 b2 mu var g be (ix2 n j) = layerAt h agg sc W1 b1' W2 b2' g' be' mu' r' n j
  unfold layerOf
  refine (eluOf_at _ n j).trans ?_
  simp only [layerAt, entry, normed, affine, Cert.LayerSpec.hidden, mixed, hsc, hb1, hb2, hg, hbe, hmu, hr]
  refine congrArg elu ?_
  simp only [addf_apply, mulf_apply, subf_apply, rowsOf_at, denseOf_at, reluOf_at]
  have hbc : ∀ i : Fin 128,
      broadcastInDim S100000x128 ![] bcast_S_S100000x128 (addf (F := Ideal) (constant S_ .f32 0x3F800000#32) e) (ix2 n i)
        = oneLit + e ix0 :=
    fun i => broadcastInDim_scalar_apply bcast_S_S100000x128 (addf (F := Ideal) (constant S_ .f32 0x3F800000#32) e) (ix2 n i)
  simp only [hbc]
  rw [rstd_at var j]

end Cert.ReferenceIdeal.RefLayer

end
-- ==== Proof.KEntry0.lean ====
/-
  What launch 0 finds in its eleven input arrays, from the buffer contents before the host operations that precede it.

  The stretch gathers the rows of the current features at the edges' sources and adds them into the rows of the edges'
  destinations (the neighbour sums), and prepares the layer's parameters: row 0 of each stacked array, the biases and
  the normalisation vectors reshaped to one row, `1 + ε` repeated along a row, and the reciprocal square root of the
  variance plus 1e-5.  The whole-array results are the reference's own operations (`Cert.ReferenceIdeal.RefTerm`); the
  one-row results are read entry by entry.
-/
import proofs.«163391_j14302241096098_1_alg».proof.Proof.Gen.KernelIdeal.Launch
import proofs.«163391_j14302241096098_1_alg».proof.Proof.Gen.ReferenceIdeal
import proofs.«163391_j14302241096098_1_alg».proof.Proof.RefTerm
import proofs.«163391_j14302241096098_1_alg».proof.Proof.LayerSpec
import proofs.«163391_j14302241096098_1_alg».proof.Proof.RefLayer
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Entry0

open Cert.KernelIdeal Cert.KernelIdeal.Gen Idealize.ShloMosaic Idealize.ShloMosaic.TcCoe Idealize.ShloMosaic.StableHlo
open Idealize.ShloMosaic.ValueIdx Cert.ReferenceIdeal.RefTerm Cert.LayerSpec

variable {F : FTy → Type} [FloatOps F]

attribute [local irreducible] Host.gather Host.scatterAdd

/-- The references the stretch writes. -/
abbrev written : List (Ref sig .tc) :=
  [ main_v0, main_v1, main_v2, main_v3, main_c, main_v4, main_v5, main_c_0, main_v6, main_v7, main_v8, main_v9, main_v10, main_cst, main_v11, main_v12, main_v13, main_v14, main_v15, main_cst_1, main_v16, main_v17, main_v18, main_v19, main_v20, main_cst_2, main_v21, main_v22, main_v23, main_v24, main_v25, main_v26, main_v27, main_v28, main_v29, main_v30, main_v31, main_v32, main_v33, main_v34, main_v35, main_v36, main_v37, main_v38, main_v39, main_v40, main_v41, main_v42, main_v43 ]

theorem writes_sub : (hostOps0 : List (HloOp τ sig (Elt F))).Forall fun op => op.writes ⊆ ((written.map (Proc.devRef (τ := τ) .tc)).toFinset) := by
  simp only [hostOps0, List.Forall, nullary_writes, unary_writes, binary_writes, ternary_writes, reshape_writes, Finset.singleton_subset_iff, List.mem_toFinset]
  repeat' apply And.intro
  all_goals exact List.mem_map_of_mem (by decide)

/-- A buffer the stretch does not write keeps its contents. -/
theorem keep {r : Ref sig .tc} (hr : r ∉ written) (X : Valuation τ sig (Elt F)) :
    after hostOps0 X (Proc.devRef .tc r) = X (Proc.devRef .tc r) :=
  after_of_writes_sub hostOps0 X writes_sub hr

/-- The stretch computes the edges' source and destination vectors, which the later stretches reuse. -/
theorem src (X : Valuation τ sig (Elt F)) : after hostOps0 X (Proc.devRef .tc main_v1) = srcOf (X (Proc.devRef .tc main_arg1)) := by
  dsimp only [hostOps0]
  after_results
  rfl
theorem dst (X : Valuation τ sig (Elt F)) : after hostOps0 X (Proc.devRef .tc main_v3) = dstOf (X (Proc.devRef .tc main_arg1)) := by
  dsimp only [hostOps0]
  after_results
  rfl

/-- The neighbour sums of the current features. -/
theorem agg (X : Valuation τ sig (Elt F)) :
    after hostOps0 X (Proc.devRef .tc main_v13) = aggOf (X (Proc.devRef .tc main_arg0)) (srcOf (X (Proc.devRef .tc main_arg1))) (dstOf (X (Proc.devRef .tc main_arg1))) := by
  dsimp only [hostOps0]
  after_results_simp
  rfl

/-- The two weight matrices: row 0 of the stacked ones. -/
theorem w1 (X : Valuation τ sig (Elt F)) : after hostOps0 X (Proc.devRef .tc main_v26) = mat0 (X (Proc.devRef .tc main_arg3)) := by
  dsimp only [hostOps0]
  after_results
  rfl
theorem w2 (X : Valuation τ sig (Elt F)) : after hostOps0 X (Proc.devRef .tc main_v31) = mat0 (X (Proc.devRef .tc main_arg5)) := by
  dsimp only [hostOps0]
  after_results
  rfl

/-- Every entry of the scale row is `1 + ε`. -/
theorem sc (X : Valuation τ sig (Elt Ideal)) (k : Fin 128) :
    (after hostOps0 X (Proc.devRef .tc main_v18) : S1x128.Idx → EReal) (ix2 (0 : Fin 1) k) = oneLit + e0 (X (Proc.devRef .tc main_arg2)) ix0 := by
  have e : (after hostOps0 X (Proc.devRef .tc main_v18) : S1x128.Idx → EReal)
      = broadcastInDim S1x128 ![0, 1] Facts₀.bcast_S1x1_S1x128_0_1
          (fun i => shapeCast S1x1 (addf (constant (F := Ideal) S_ .f32 0x3F800000#32) (e0 (X (Proc.devRef .tc main_arg2)))) Facts₀.shapeCasts_S_S1x1 i) := by
    dsimp only [hostOps0]
    after_results
    rfl
  rw [e]
  refine (broadcastInDim_apply _ _ _ (ix2 (0 : Fin 1) k) (ix2 (0 : Fin 1) (0 : Fin 1)) fun a => ?_).trans ?_
  · match a with
    | ⟨0, _⟩ => rfl
    | ⟨1, _⟩ => rfl
  · refine (shapeCast_apply _ _ (ix2 (0 : Fin 1) (0 : Fin 1)) ix0 ?_).trans rfl
    rfl

/-- The first bias as one row. -/
theorem b1 (X : Valuation τ sig (Elt Ideal)) (k : Fin 128) :
    (after hostOps0 X (Proc.devRef .tc main_v29) : S1x128.Idx → EReal) (ix2 (0 : Fin 1) k) = vec0 (X (Proc.devRef .tc main_arg4)) (ix1 k) := by
  have e : (after hostOps0 X (Proc.devRef .tc main_v29) : S1x128.Idx → EReal)
      = fun i => shapeCast S1x128 (vec0 (X (Proc.devRef .tc main_arg4))) Facts₀.shapeCasts_S128_S1x128 i := by
    dsimp only [hostOps0]
    after_results
    rfl
  rw [e]
  exact shapeCast_a_1a_apply _ _ (0 : Fin 1) k

/-- The second bias as one row. -/
theorem b2 (X : Valuation τ sig (Elt Ideal)) (k : Fin 128) :
    (after hostOps0 X (Proc.devRef .tc main_v34) : S1x128.Idx → EReal) (ix2 (0 : Fin 1) k) = vec0 (X (Proc.devRef .tc main_arg6)) (ix1 k) := by
  have e : (after hostOps0 X (Proc.devRef .tc main_v34) : S1x128.Idx → EReal)
      = fun i => shapeCast S1x128 (vec0 (X (Proc.devRef .tc main_arg6))) Facts₀.shapeCasts_S128_S1x128 i := by
    dsimp only [hostOps0]
    after_results
    rfl
  rw [e]
  exact shapeCast_a_1a_apply _ _ (0 : Fin 1) k

/-- The normalisation's scale as one row. -/
theorem g (X : Valuation τ sig (Elt Ideal)) (k : Fin 128) :
    (after hostOps0 X (Proc.devRef .tc main_v37) : S1x128.Idx → EReal) (ix2 (0 : Fin 1) k) = vec0 (X (Proc.devRef .tc main_arg7)) (ix1 k) := by
  have e : (after hostOps0 X (Proc.devRef .tc main_v37) : S1x128.Idx → EReal)
      = fun i => shapeCast S1x128 (vec0 (X (Proc.devRef .tc main_arg7))) Facts₀.shapeCasts_S128_S1x128 i := by
    dsimp only [hostOps0]
    after_results
    rfl
  rw [e]
  exact shapeCast_a_1a_apply _ _ (0 : Fin 1) k

/-- The normalisation's shift as one row. -/
theorem be (X : Valuation τ sig (Elt Ideal)) (k : Fin 128) :
    (after hostOps0 X (Proc.devRef .tc main_v40) : S1x128.Idx → EReal) (ix2 (0 : Fin 1) k) = vec0 (X (Proc.devRef .tc main_arg8)) (ix1 k) := by
  have e : (after hostOps0 X (Proc.devRef .tc main_v40) : S1x128.Idx → EReal)
      = fun i => shapeCast S1x128 (vec0 (X (Proc.devRef .tc main_arg8))) Facts₀.shapeCasts_S128_S1x128 i := by
    dsimp only [hostOps0]
    after_results
    rfl
  rw [e]
  exact shapeCast_a_1a_apply _ _ (0 : Fin 1) k

/-- The running mean as one row. -/
theorem mu (X : Valuation τ sig (Elt Ideal)) (k : Fin 128) :
    (after hostOps0 X (Proc.devRef .tc main_v43) : S1x128.Idx → EReal) (ix2 (0 : Fin 1) k) = vec0 (X (Proc.devRef .tc main_arg9)) (ix1 k) := by
  have e : (after hostOps0 X (Proc.devRef .tc main_v43) : S1x128.Idx → EReal)
      = fun i => shapeCast S1x128 (vec0 (X (Proc.devRef .tc main_arg9))) Facts₀.shapeCasts_S128_S1x128 i := by
    dsimp only [hostOps0]
    after_results
    rfl
  rw [e]
  exact shapeCast_a_1a_apply _ _ (0 : Fin 1) k

/-- The reciprocal deviation as one row: `rsqrt (σ² + 1e-5)` entry by entry. -/
theorem rdev (X : Valuation τ sig (Elt Ideal)) (k : Fin 128) :
    (after hostOps0 X (Proc.devRef .tc main_v24) : S1x128.Idx → EReal) (ix2 (0 : Fin 1) k)
      = Ideal.rsqrt (vec0 (X (Proc.devRef .tc main_arg10)) (ix1 k) + Ideal.ofBits .f32 0x3727C5AC#32) := by
  have e : (after hostOps0 X (Proc.devRef .tc main_v24) : S1x128.Idx → EReal)
      = fun i => shapeCast S1x128 (Host.rsqrt (addf (vec0 (X (Proc.devRef .tc main_arg10)))
          (broadcastInDim S128 ![] Facts₀.bcast_S_S128 (constant (F := Ideal) S_ .f32 0x3727C5AC#32)))) Facts₀.shapeCasts_S128_S1x128 i := by
    dsimp only [hostOps0]
    after_results
    rfl
  rw [e]
  refine (shapeCast_a_1a_apply _ _ (0 : Fin 1) k).trans ?_
  exact congrArg (fun y => Ideal.rsqrt (vec0 (X (Proc.devRef .tc main_arg10)) (ix1 k) + y)) (broadcastInDim_scalar_apply _ _ _)

/-- THE LAUNCH'S INPUTS, TOGETHER: the layer of the eleven arrays the launch finds is the reference's layer of the
    current features, their neighbour sums and row 0 of each stacked parameter. -/
theorem layer_eq (X : Valuation τ sig (Elt Ideal)) :
    layer (after hostOps0 X (Proc.devRef .tc main_arg0)) (after hostOps0 X (Proc.devRef .tc main_v13)) (after hostOps0 X (Proc.devRef .tc main_v18)) (after hostOps0 X (Proc.devRef .tc main_v26)) (after hostOps0 X (Proc.devRef .tc main_v29)) (after hostOps0 X (Proc.devRef .tc main_v31)) (after hostOps0 X (Proc.devRef .tc main_v34)) (after hostOps0 X (Proc.devRef .tc main_v37)) (after hostOps0 X (Proc.devRef .tc main_v40)) (after hostOps0 X (Proc.devRef .tc main_v43)) (after hostOps0 X (Proc.devRef .tc main_v24))
      = layerOf (F := Ideal) (X (Proc.devRef .tc main_arg0)) (aggOf (X (Proc.devRef .tc main_arg0)) (srcOf (X (Proc.devRef .tc main_arg1))) (dstOf (X (Proc.devRef .tc main_arg1)))) (e0 (X (Proc.devRef .tc main_arg2))) (mat0 (X (Proc.devRef .tc main_arg3))) (vec0 (X (Proc.devRef .tc main_arg4)))
          (mat0 (X (Proc.devRef .tc main_arg5))) (vec0 (X (Proc.devRef .tc main_arg6))) (vec0 (X (Proc.devRef .tc main_arg9))) (vec0 (X (Proc.devRef .tc main_arg10)))
          (vec0 (X (Proc.devRef .tc main_arg7))) (vec0 (X (Proc.devRef .tc main_arg8))) := by
  rw [keep (r := main_arg0) (by decide) X, agg X, w1 X, w2 X]
  exact (Cert.ReferenceIdeal.RefLayer.layerOf_eq_layer _ _ _ _ _ _ _ _ _ _ _ _ _ _ _ _ _ _
    (sc X) (b1 X) (b2 X) (g X) (be X) (mu X) (rdev X)).symm

end Cert.KernelIdeal.Entry0

end
-- ==== Proof.KEntry1.lean ====
/-
  What launch 1 finds in its eleven input arrays, from the buffer contents before the host operations that precede it.

  The stretch gathers the rows of the current features at the edges' sources and adds them into the rows of the edges'
  destinations (the neighbour sums), and prepares the layer's parameters: row 1 of each stacked array, the biases and
  the normalisation vectors reshaped to one row, `1 + ε` repeated along a row, and the reciprocal square root of the
  variance plus 1e-5.  The whole-array results are the reference's own operations (`Cert.ReferenceIdeal.RefTerm`); the
  one-row results are read entry by entry.
-/
import proofs.«163391_j14302241096098_1_alg».proof.Proof.Gen.KernelIdeal.Launch
import proofs.«163391_j14302241096098_1_alg».proof.Proof.Gen.ReferenceIdeal
import proofs.«163391_j14302241096098_1_alg».proof.Proof.RefTerm
import proofs.«163391_j14302241096098_1_alg».proof.Proof.LayerSpec
import proofs.«163391_j14302241096098_1_alg».proof.Proof.RefLayer
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Entry1

open Cert.KernelIdeal Cert.KernelIdeal.Gen Idealize.ShloMosaic Idealize.ShloMosaic.TcCoe Idealize.ShloMosaic.StableHlo
open Idealize.ShloMosaic.ValueIdx Cert.ReferenceIdeal.RefTerm Cert.LayerSpec

variable {F : FTy → Type} [FloatOps F]

attribute [local irreducible] Host.gather Host.scatterAdd

/-- The references the stretch writes. -/
abbrev written : List (Ref sig .tc) :=
  [ main_c_3, main_v45, main_v46, main_c_4, main_v47, main_v48, main_v49, main_v50, main_v51, main_cst_5, main_v52, main_v53, main_v54, main_v55, main_v56, main_cst_6, main_v57, main_v58, main_v59, main_v60, main_v61, main_cst_7, main_v62, main_v63, main_v64, main_v65, main_v66, main_v67, main_v68, main_v69, main_v70, main_v71, main_v72, main_v73, main_v74, main_v75, main_v76, main_v77, main_v78, main_v79, main_v80, main_v81, main_v82, main_v83, main_v84 ]

theorem writes_sub : (hostOps1 : List (HloOp τ sig (Elt F))).Forall fun op => op.writes ⊆ ((written.map (Proc.devRef (τ := τ) .tc)).toFinset) := by
  simp only [hostOps1, List.Forall, nullary_writes, unary_writes, binary_writes, ternary_writes, reshape_writes, Finset.singleton_subset_iff, List.mem_toFinset]
  repeat' apply And.intro
  all_goals exact List.mem_map_of_mem (by decide)

/-- A buffer the stretch does not write keeps its contents. -/
theorem keep {r : Ref sig .tc} (hr : r ∉ written) (X : Valuation τ sig (Elt F)) :
    after hostOps1 X (Proc.devRef .tc r) = X (Proc.devRef .tc r) :=
  after_of_writes_sub hostOps1 X writes_sub hr

/-- The neighbour sums of the current features. -/
theorem agg (X : Valuation τ sig (Elt F)) :
    after hostOps1 X (Proc.devRef .tc main_v54) = aggOf (X (Proc.devRef .tc main_v44)) (X (Proc.devRef .tc main_v1)) (X (Proc.devRef .tc main_v3)) := by
  dsimp only [hostOps1]
  after_results_simp
  rfl

/-- The two weight matrices: row 1 of the stacked ones. -/
theorem w1 (X : Valuation τ sig (Elt F)) : after hostOps1 X (Proc.devRef .tc main_v67) = mat1 (X (Proc.devRef .tc main_arg3)) := by
  dsimp only [hostOps1]
  after_results
  rfl
theorem w2 (X : Valuation τ sig (Elt F)) : after hostOps1 X (Proc.devRef .tc main_v72) = mat1 (X (Proc.devRef .tc main_arg5)) := by
  dsimp only [hostOps1]
  after_results
  rfl

/-- Every entry of the scale row is `1 + ε`. -/
theorem sc (X : Valuation τ sig (Elt Ideal)) (k : Fin 128) :
    (after hostOps1 X (Proc.devRef .tc main_v59) : S1x128.Idx → EReal) (ix2 (0 : Fin 1) k) = oneLit + e1 (X (Proc.devRef .tc main_arg2)) ix0 := by
  have e : (after hostOps1 X (Proc.devRef .tc main_v59) : S1x128.Idx → EReal)
      = broadcastInDim S1x128 ![0, 1] Facts₀.bcast_S1x1_S1x128_0_1
          (fun i => shapeCast S1x1 (addf (constant (F := Ideal) S_ .f32 0x3F800000#32) (e1 (X (Proc.devRef .tc main_arg2)))) Facts₀.shapeCasts_S_S1x1 i) := by
    dsimp only [hostOps1]
    after_results
    rfl
  rw [e]
  refine (broadcastInDim_apply _ _ _ (ix2 (0 : Fin 1) k) (ix2 (0 : Fin 1) (0 : Fin 1)) fun a => ?_).trans ?_
  · match a with
    | ⟨0, _⟩ => rfl
    | ⟨1, _⟩ => rfl
  · refine (shapeCast_apply _ _ (ix2 (0 : Fin 1) (0 : Fin 1)) ix0 ?_).trans rfl
    rfl

/-- The first bias as one row. -/
theorem b1 (X : Valuation τ sig (Elt Ideal)) (k : Fin 128) :
    (after hostOps1 X (Proc.devRef .tc main_v70) : S1x128.Idx → EReal) (ix2 (0 : Fin 1) k) = vec1 (X (Proc.devRef .tc main_arg4)) (ix1 k) := by
  have e : (after hostOps1 X (Proc.devRef .tc main_v70) : S1x128.Idx → EReal)
      = fun i => shapeCast S1x128 (vec1 (X (Proc.devRef .tc main_arg4))) Facts₀.shapeCasts_S128_S1x128 i := by
    dsimp only [hostOps1]
    after_results
    rfl
  rw [e]
  exact shapeCast_a_1a_apply _ _ (0 : Fin 1) k

/-- The second bias as one row. -/
theorem b2 (X : Valuation τ sig (Elt Ideal)) (k : Fin 128) :
    (after hostOps1 X (Proc.devRef .tc main_v75) : S1x128.Idx → EReal) (ix2 (0 : Fin 1) k) = vec1 (X (Proc.devRef .tc main_arg6)) (ix1 k) := by
  have e : (after hostOps1 X (Proc.devRef .tc main_v75) : S1x128.Idx → EReal)
      = fun i => shapeCast S1x128 (vec1 (X (Proc.devRef .tc main_arg6))) Facts₀.shapeCasts_S128_S1x128 i := by
    dsimp only [hostOps1]
    after_results
    rfl
  rw [e]
  exact shapeCast_a_1a_apply _ _ (0 : Fin 1) k

/-- The normalisation's scale as one row. -/
theorem g (X : Valuation τ sig (Elt Ideal)) (k : Fin 128) :
    (after hostOps1 X (Proc.devRef .tc main_v78) : S1x128.Idx → EReal) (ix2 (0 : Fin 1) k) = vec1 (X (Proc.devRef .tc main_arg7)) (ix1 k) := by
  have e : (after hostOps1 X (Proc.devRef .tc main_v78) : S1x128.Idx → EReal)
      = fun i => shapeCast S1x128 (vec1 (X (Proc.devRef .tc main_arg7))) Facts₀.shapeCasts_S128_S1x128 i := by
    dsimp only [hostOps1]
    after_results
    rfl
  rw [e]
  exact shapeCast_a_1a_apply _ _ (0 : Fin 1) k

/-- The normalisation's shift as one row. -/
theorem be (X : Valuation τ sig (Elt Ideal)) (k : Fin 128) :
    (after hostOps1 X (Proc.devRef .tc main_v81) : S1x128.Idx → EReal) (ix2 (0 : Fin 1) k) = vec1 (X (Proc.devRef .tc main_arg8)) (ix1 k) := by
  have e : (after hostOps1 X (Proc.devRef .tc main_v81) : S1x128.Idx → EReal)
      = fun i => shapeCast S1x128 (vec1 (X (Proc.devRef .tc main_arg8))) Facts₀.shapeCasts_S128_S1x128 i := by
    dsimp only [hostOps1]
    after_results
    rfl
  rw [e]
  exact shapeCast_a_1a_apply _ _ (0 : Fin 1) k

/-- The running mean as one row. -/
theorem mu (X : Valuation τ sig (Elt Ideal)) (k : Fin 128) :
    (after hostOps1 X (Proc.devRef .tc main_v84) : S1x128.Idx → EReal) (ix2 (0 : Fin 1) k) = vec1 (X (Proc.devRef .tc main_arg9)) (ix1 k) := by
  have e : (after hostOps1 X (Proc.devRef .tc main_v84) : S1x128.Idx → EReal)
      = fun i => shapeCast S1x128 (vec1 (X (Proc.devRef .tc main_arg9))) Facts₀.shapeCasts_S128_S1x128 i := by
    dsimp only [hostOps1]
    after_results
    rfl
  rw [e]
  exact shapeCast_a_1a_apply _ _ (0 : Fin 1) k

/-- The reciprocal deviation as one row: `rsqrt (σ² + 1e-5)` entry by entry. -/
theorem rdev (X : Valuation τ sig (Elt Ideal)) (k : Fin 128) :
    (after hostOps1 X (Proc.devRef .tc main_v65) : S1x128.Idx → EReal) (ix2 (0 : Fin 1) k)
      = Ideal.rsqrt (vec1 (X (Proc.devRef .tc main_arg10)) (ix1 k) + Ideal.ofBits .f32 0x3727C5AC#32) := by
  have e : (after hostOps1 X (Proc.devRef .tc main_v65) : S1x128.Idx → EReal)
      = fun i => shapeCast S1x128 (Host.rsqrt (addf (vec1 (X (Proc.devRef .tc main_arg10)))
          (broadcastInDim S128 ![] Facts₀.bcast_S_S128 (constant (F := Ideal) S_ .f32 0x3727C5AC#32)))) Facts₀.shapeCasts_S128_S1x128 i := by
    dsimp only [hostOps1]
    after_results
    rfl
  rw [e]
  refine (shapeCast_a_1a_apply _ _ (0 : Fin 1) k).trans ?_
  exact congrArg (fun y => Ideal.rsqrt (vec1 (X (Proc.devRef .tc main_arg10)) (ix1 k) + y)) (broadcastInDim_scalar_apply _ _ _)

/-- THE LAUNCH'S INPUTS, TOGETHER: the layer of the eleven arrays the launch finds is the reference's layer of the
    current features, their neighbour sums and row 1 of each stacked parameter. -/
theorem layer_eq (X : Valuation τ sig (Elt Ideal)) :
    layer (after hostOps1 X (Proc.devRef .tc main_v44)) (after hostOps1 X (Proc.devRef .tc main_v54)) (after hostOps1 X (Proc.devRef .tc main_v59)) (after hostOps1 X (Proc.devRef .tc main_v67)) (after hostOps1 X (Proc.devRef .tc main_v70)) (after hostOps1 X (Proc.devRef .tc main_v72)) (after hostOps1 X (Proc.devRef .tc main_v75)) (after hostOps1 X (Proc.devRef .tc main_v78)) (after hostOps1 X (Proc.devRef .tc main_v81)) (after hostOps1 X (Proc.devRef .tc main_v84)) (after hostOps1 X (Proc.devRef .tc main_v65))
      = layerOf (F := Ideal) (X (Proc.devRef .tc main_v44)) (aggOf (X (Proc.devRef .tc main_v44)) (X (Proc.devRef .tc main_v1)) (X (Proc.devRef .tc main_v3))) (e1 (X (Proc.devRef .tc main_arg2))) (mat1 (X (Proc.devRef .tc main_arg3))) (vec1 (X (Proc.devRef .tc main_arg4)))
          (mat1 (X (Proc.devRef .tc main_arg5))) (vec1 (X (Proc.devRef .tc main_arg6))) (vec1 (X (Proc.devRef .tc main_arg9))) (vec1 (X (Proc.devRef .tc main_arg10)))
          (vec1 (X (Proc.devRef .tc main_arg7))) (vec1 (X (Proc.devRef .tc main_arg8))) := by
  rw [keep (r := main_v44) (by decide) X, agg X, w1 X, w2 X]
  exact (Cert.ReferenceIdeal.RefLayer.layerOf_eq_layer _ _ _ _ _ _ _ _ _ _ _ _ _ _ _ _ _ _
    (sc X) (b1 X) (b2 X) (g X) (be X) (mu X) (rdev X)).symm

end Cert.KernelIdeal.Entry1

end
-- ==== Proof.KEntry2.lean ====
/-
  What launch 2 finds in its eleven input arrays, from the buffer contents before the host operations that precede it.

  The stretch gathers the rows of the current features at the edges' sources and adds them into the rows of the edges'
  destinations (the neighbour sums), and prepares the layer's parameters: row 2 of each stacked array, the biases and
  the normalisation vectors reshaped to one row, `1 + ε` repeated along a row, and the reciprocal square root of the
  variance plus 1e-5.  The whole-array results are the reference's own operations (`Cert.ReferenceIdeal.RefTerm`); the
  one-row results are read entry by entry.
-/
import proofs.«163391_j14302241096098_1_alg».proof.Proof.Gen.KernelIdeal.Launch
import proofs.«163391_j14302241096098_1_alg».proof.Proof.Gen.ReferenceIdeal
import proofs.«163391_j14302241096098_1_alg».proof.Proof.RefTerm
import proofs.«163391_j14302241096098_1_alg».proof.Proof.LayerSpec
import proofs.«163391_j14302241096098_1_alg».proof.Proof.RefLayer
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Entry2

open Cert.KernelIdeal Cert.KernelIdeal.Gen Idealize.ShloMosaic Idealize.ShloMosaic.TcCoe Idealize.ShloMosaic.StableHlo
open Idealize.ShloMosaic.ValueIdx Cert.ReferenceIdeal.RefTerm Cert.LayerSpec

variable {F : FTy → Type} [FloatOps F]

attribute [local irreducible] Host.gather Host.scatterAdd

/-- The references the stretch writes. -/
abbrev written : List (Ref sig .tc) :=
  [ main_c_8, main_v86, main_v87, main_c_9, main_v88, main_v89, main_v90, main_v91, main_v92, main_cst_10, main_v93, main_v94, main_v95, main_v96, main_v97, main_cst_11, main_v98, main_v99, main_v100, main_v101, main_v102, main_cst_12, main_v103, main_v104, main_v105, main_v106, main_v107, main_v108, main_v109, main_v110, main_v111, main_v112, main_v113, main_v114, main_v115, main_v116, main_v117, main_v118, main_v119, main_v120, main_v121, main_v122, main_v123, main_v124, main_v125 ]

theorem writes_sub : (hostOps2 : List (HloOp τ sig (Elt F))).Forall fun op => op.writes ⊆ ((written.map (Proc.devRef (τ := τ) .tc)).toFinset) := by
  simp only [hostOps2, List.Forall, nullary_writes, unary_writes, binary_writes, ternary_writes, reshape_writes, Finset.singleton_subset_iff, List.mem_toFinset]
  repeat' apply And.intro
  all_goals exact List.mem_map_of_mem (by decide)

/-- A buffer the stretch does not write keeps its contents. -/
theorem keep {r : Ref sig .tc} (hr : r ∉ written) (X : Valuation τ sig (Elt F)) :
    after hostOps2 X (Proc.devRef .tc r) = X (Proc.devRef .tc r) :=
  after_of_writes_sub hostOps2 X writes_sub hr

/-- The neighbour sums of the current features. -/
theorem agg (X : Valuation τ sig (Elt F)) :
    after hostOps2 X (Proc.devRef .tc main_v95) = aggOf (X (Proc.devRef .tc main_v85)) (X (Proc.devRef .tc main_v1)) (X (Proc.devRef .tc main_v3)) := by
  dsimp only [hostOps2]
  after_results_simp
  rfl

/-- The two weight matrices: row 2 of the stacked ones. -/
theorem w1 (X : Valuation τ sig (Elt F)) : after hostOps2 X (Proc.devRef .tc main_v108) = mat2 (X (Proc.devRef .tc main_arg3)) := by
  dsimp only [hostOps2]
  after_results
  rfl
theorem w2 (X : Valuation τ sig (Elt F)) : after hostOps2 X (Proc.devRef .tc main_v113) = mat2 (X (Proc.devRef .tc main_arg5)) := by
  dsimp only [hostOps2]
  after_results
  rfl

/-- Every entry of the scale row is `1 + ε`. -/
theorem sc (X : Valuation τ sig (Elt Ideal)) (k : Fin 128) :
    (after hostOps2 X (Proc.devRef .tc main_v100) : S1x128.Idx → EReal) (ix2 (0 : Fin 1) k) = oneLit + e2 (X (Proc.devRef .tc main_arg2)) ix0 := by
  have e : (after hostOps2 X (Proc.devRef .tc main_v100) : S1x128.Idx → EReal)
      = broadcastInDim S1x128 ![0, 1] Facts₀.bcast_S1x1_S1x128_0_1
          (fun i => shapeCast S1x1 (addf (constant (F := Ideal) S_ .f32 0x3F800000#32) (e2 (X (Proc.devRef .tc main_arg2)))) Facts₀.shapeCasts_S_S1x1 i) := by
    dsimp only [hostOps2]
    after_results
    rfl
  rw [e]
  refine (broadcastInDim_apply _ _ _ (ix2 (0 : Fin 1) k) (ix2 (0 : Fin 1) (0 : Fin 1)) fun a => ?_).trans ?_
  · match a with
    | ⟨0, _⟩ => rfl
    | ⟨1, _⟩ => rfl
  · refine (shapeCast_apply _ _ (ix2 (0 : Fin 1) (0 : Fin 1)) ix0 ?_).trans rfl
    rfl

/-- The first bias as one row. -/
theorem b1 (X : Valuation τ sig (Elt Ideal)) (k : Fin 128) :
    (after hostOps2 X (Proc.devRef .tc main_v111) : S1x128.Idx → EReal) (ix2 (0 : Fin 1) k) = vec2 (X (Proc.devRef .tc main_arg4)) (ix1 k) := by
  have e : (after hostOps2 X (Proc.devRef .tc main_v111) : S1x128.Idx → EReal)
      = fun i => shapeCast S1x128 (vec2 (X (Proc.devRef .tc main_arg4))) Facts₀.shapeCasts_S128_S1x128 i := by
    dsimp only [hostOps2]
    after_results
    rfl
  rw [e]
  exact shapeCast_a_1a_apply _ _ (0 : Fin 1) k

/-- The second bias as one row. -/
theorem b2 (X : Valuation τ sig (Elt Ideal)) (k : Fin 128) :
    (after hostOps2 X (Proc.devRef .tc main_v116) : S1x128.Idx → EReal) (ix2 (0 : Fin 1) k) = vec2 (X (Proc.devRef .tc main_arg6)) (ix1 k) := by
  have e : (after hostOps2 X (Proc.devRef .tc main_v116) : S1x128.Idx → EReal)
      = fun i => shapeCast S1x128 (vec2 (X (Proc.devRef .tc main_arg6))) Facts₀.shapeCasts_S128_S1x128 i := by
    dsimp only [hostOps2]
    after_results
    rfl
  rw [e]
  exact shapeCast_a_1a_apply _ _ (0 : Fin 1) k

/-- The normalisation's scale as one row. -/
theorem g (X : Valuation τ sig (Elt Ideal)) (k : Fin 128) :
    (after hostOps2 X (Proc.devRef .tc main_v119) : S1x128.Idx → EReal) (ix2 (0 : Fin 1) k) = vec2 (X (Proc.devRef .tc main_arg7)) (ix1 k) := by
  have e : (after hostOps2 X (Proc.devRef .tc main_v119) : S1x128.Idx → EReal)
      = fun i => shapeCast S1x128 (vec2 (X (Proc.devRef .tc main_arg7))) Facts₀.shapeCasts_S128_S1x128 i := by
    dsimp only [hostOps2]
    after_results
    rfl
  rw [e]
  exact shapeCast_a_1a_apply _ _ (0 : Fin 1) k

/-- The normalisation's shift as one row. -/
theorem be (X : Valuation τ sig (Elt Ideal)) (k : Fin 128) :
    (after hostOps2 X (Proc.devRef .tc main_v122) : S1x128.Idx → EReal) (ix2 (0 : Fin 1) k) = vec2 (X (Proc.devRef .tc main_arg8)) (ix1 k) := by
  have e : (after hostOps2 X (Proc.devRef .tc main_v122) : S1x128.Idx → EReal)
      = fun i => shapeCast S1x128 (vec2 (X (Proc.devRef .tc main_arg8))) Facts₀.shapeCasts_S128_S1x128 i := by
    dsimp only [hostOps2]
    after_results
    rfl
  rw [e]
  exact shapeCast_a_1a_apply _ _ (0 : Fin 1) k

/-- The running mean as one row. -/
theorem mu (X : Valuation τ sig (Elt Ideal)) (k : Fin 128) :
    (after hostOps2 X (Proc.devRef .tc main_v125) : S1x128.Idx → EReal) (ix2 (0 : Fin 1) k) = vec2 (X (Proc.devRef .tc main_arg9)) (ix1 k) := by
  have e : (after hostOps2 X (Proc.devRef .tc main_v125) : S1x128.Idx → EReal)
      = fun i => shapeCast S1x128 (vec2 (X (Proc.devRef .tc main_arg9))) Facts₀.shapeCasts_S128_S1x128 i := by
    dsimp only [hostOps2]
    after_results
    rfl
  rw [e]
  exact shapeCast_a_1a_apply _ _ (0 : Fin 1) k

/-- The reciprocal deviation as one row: `rsqrt (σ² + 1e-5)` entry by entry. -/
theorem rdev (X : Valuation τ sig (Elt Ideal)) (k : Fin 128) :
    (after hostOps2 X (Proc.devRef .tc main_v106) : S1x128.Idx → EReal) (ix2 (0 : Fin 1) k)
      = Ideal.rsqrt (vec2 (X (Proc.devRef .tc main_arg10)) (ix1 k) + Ideal.ofBits .f32 0x3727C5AC#32) := by
  have e : (after hostOps2 X (Proc.devRef .tc main_v106) : S1x128.Idx → EReal)
      = fun i => shapeCast S1x128 (Host.rsqrt (addf (vec2 (X (Proc.devRef .tc main_arg10)))
          (broadcastInDim S128 ![] Facts₀.bcast_S_S128 (constant (F := Ideal) S_ .f32 0x3727C5AC#32)))) Facts₀.shapeCasts_S128_S1x128 i := by
    dsimp only [hostOps2]
    after_results
    rfl
  rw [e]
  refine (shapeCast_a_1a_apply _ _ (0 : Fin 1) k).trans ?_
  exact congrArg (fun y => Ideal.rsqrt (vec2 (X (Proc.devRef .tc main_arg10)) (ix1 k) + y)) (broadcastInDim_scalar_apply _ _ _)

/-- THE LAUNCH'S INPUTS, TOGETHER: the layer of the eleven arrays the launch finds is the reference's layer of the
    current features, their neighbour sums and row 2 of each stacked parameter. -/
theorem layer_eq (X : Valuation τ sig (Elt Ideal)) :
    layer (after hostOps2 X (Proc.devRef .tc main_v85)) (after hostOps2 X (Proc.devRef .tc main_v95)) (after hostOps2 X (Proc.devRef .tc main_v100)) (after hostOps2 X (Proc.devRef .tc main_v108)) (after hostOps2 X (Proc.devRef .tc main_v111)) (after hostOps2 X (Proc.devRef .tc main_v113)) (after hostOps2 X (Proc.devRef .tc main_v116)) (after hostOps2 X (Proc.devRef .tc main_v119)) (after hostOps2 X (Proc.devRef .tc main_v122)) (after hostOps2 X (Proc.devRef .tc main_v125)) (after hostOps2 X (Proc.devRef .tc main_v106))
      = layerOf (F := Ideal) (X (Proc.devRef .tc main_v85)) (aggOf (X (Proc.devRef .tc main_v85)) (X (Proc.devRef .tc main_v1)) (X (Proc.devRef .tc main_v3))) (e2 (X (Proc.devRef .tc main_arg2))) (mat2 (X (Proc.devRef .tc main_arg3))) (vec2 (X (Proc.devRef .tc main_arg4)))
          (mat2 (X (Proc.devRef .tc main_arg5))) (vec2 (X (Proc.devRef .tc main_arg6))) (vec2 (X (Proc.devRef .tc main_arg9))) (vec2 (X (Proc.devRef .tc main_arg10)))
          (vec2 (X (Proc.devRef .tc main_arg7))) (vec2 (X (Proc.devRef .tc main_arg8))) := by
  rw [keep (r := main_v85) (by decide) X, agg X, w1 X, w2 X]
  exact (Cert.ReferenceIdeal.RefLayer.layerOf_eq_layer _ _ _ _ _ _ _ _ _ _ _ _ _ _ _ _ _ _
    (sc X) (b1 X) (b2 X) (g X) (be X) (mu X) (rdev X)).symm

end Cert.KernelIdeal.Entry2

end
-- ==== Proof.KEntry3.lean ====
/-
  What launch 3 finds in its eleven input arrays, from the buffer contents before the host operations that precede it.

  The stretch gathers the rows of the current features at the edges' sources and adds them into the rows of the edges'
  destinations (the neighbour sums), and prepares the layer's parameters: row 3 of each stacked array, the biases and
  the normalisation vectors reshaped to one row, `1 + ε` repeated along a row, and the reciprocal square root of the
  variance plus 1e-5.  The whole-array results are the reference's own operations (`Cert.ReferenceIdeal.RefTerm`); the
  one-row results are read entry by entry.
-/
import proofs.«163391_j14302241096098_1_alg».proof.Proof.Gen.KernelIdeal.Launch
import proofs.«163391_j14302241096098_1_alg».proof.Proof.Gen.ReferenceIdeal
import proofs.«163391_j14302241096098_1_alg».proof.Proof.RefTerm
import proofs.«163391_j14302241096098_1_alg».proof.Proof.LayerSpec
import proofs.«163391_j14302241096098_1_alg».proof.Proof.RefLayer
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Entry3

open Cert.KernelIdeal Cert.KernelIdeal.Gen Idealize.ShloMosaic Idealize.ShloMosaic.TcCoe Idealize.ShloMosaic.StableHlo
open Idealize.ShloMosaic.ValueIdx Cert.ReferenceIdeal.RefTerm Cert.LayerSpec

variable {F : FTy → Type} [FloatOps F]

attribute [local irreducible] Host.gather Host.scatterAdd

/-- The references the stretch writes. -/
abbrev written : List (Ref sig .tc) :=
  [ main_c_13, main_v127, main_v128, main_c_14, main_v129, main_v130, main_v131, main_v132, main_v133, main_cst_15, main_v134, main_v135, main_v136, main_v137, main_v138, main_cst_16, main_v139, main_v140, main_v141, main_v142, main_v143, main_cst_17, main_v144, main_v145, main_v146, main_v147, main_v148, main_v149, main_v150, main_v151, main_v152, main_v153, main_v154, main_v155, main_v156, main_v157, main_v158, main_v159, main_v160, main_v161, main_v162, main_v163, main_v164, main_v165, main_v166 ]

theorem writes_sub : (hostOps3 : List (HloOp τ sig (Elt F))).Forall fun op => op.writes ⊆ ((written.map (Proc.devRef (τ := τ) .tc)).toFinset) := by
  simp only [hostOps3, List.Forall, nullary_writes, unary_writes, binary_writes, ternary_writes, reshape_writes, Finset.singleton_subset_iff, List.mem_toFinset]
  repeat' apply And.intro
  all_goals exact List.mem_map_of_mem (by decide)

/-- A buffer the stretch does not write keeps its contents. -/
theorem keep {r : Ref sig .tc} (hr : r ∉ written) (X : Valuation τ sig (Elt F)) :
    after hostOps3 X (Proc.devRef .tc r) = X (Proc.devRef .tc r) :=
  after_of_writes_sub hostOps3 X writes_sub hr

/-- The neighbour sums of the current features. -/
theorem agg (X : Valuation τ sig (Elt F)) :
    after hostOps3 X (Proc.devRef .tc main_v136) = aggOf (X (Proc.devRef .tc main_v126)) (X (Proc.devRef .tc main_v1)) (X (Proc.devRef .tc main_v3)) := by
  dsimp only [hostOps3]
  after_results_simp
  rfl

/-- The two weight matrices: row 3 of the stacked ones. -/
theorem w1 (X : Valuation τ sig (Elt F)) : after hostOps3 X (Proc.devRef .tc main_v149) = mat3 (X (Proc.devRef .tc main_arg3)) := by
  dsimp only [hostOps3]
  after_results
  rfl
theorem w2 (X : Valuation τ sig (Elt F)) : after hostOps3 X (Proc.devRef .tc main_v154) = mat3 (X (Proc.devRef .tc main_arg5)) := by
  dsimp only [hostOps3]
  after_results
  rfl

/-- Every entry of the scale row is `1 + ε`. -/
theorem sc (X : Valuation τ sig (Elt Ideal)) (k : Fin 128) :
    (after hostOps3 X (Proc.devRef .tc main_v141) : S1x128.Idx → EReal) (ix2 (0 : Fin 1) k) = oneLit + e3 (X (Proc.devRef .tc main_arg2)) ix0 := by
  have e : (after hostOps3 X (Proc.devRef .tc main_v141) : S1x128.Idx → EReal)
      = broadcastInDim S1x128 ![0, 1] Facts₀.bcast_S1x1_S1x128_0_1
          (fun i => shapeCast S1x1 (addf (constant (F := Ideal) S_ .f32 0x3F800000#32) (e3 (X (Proc.devRef .tc main_arg2)))) Facts₀.shapeCasts_S_S1x1 i) := by
    dsimp only [hostOps3]
    after_results
    rfl
  rw [e]
  refine (broadcastInDim_apply _ _ _ (ix2 (0 : Fin 1) k) (ix2 (0 : Fin 1) (0 : Fin 1)) fun a => ?_).trans ?_
  · match a with
    | ⟨0, _⟩ => rfl
    | ⟨1, _⟩ => rfl
  · refine (shapeCast_apply _ _ (ix2 (0 : Fin 1) (0 : Fin 1)) ix0 ?_).trans rfl
    rfl

/-- The first bias as one row. -/
theorem b1 (X : Valuation τ sig (Elt Ideal)) (k : Fin 128) :
    (after hostOps3 X (Proc.devRef .tc main_v152) : S1x128.Idx → EReal) (ix2 (0 : Fin 1) k) = vec3 (X (Proc.devRef .tc main_arg4)) (ix1 k) := by
  have e : (after hostOps3 X (Proc.devRef .tc main_v152) : S1x128.Idx → EReal)
      = fun i => shapeCast S1x128 (vec3 (X (Proc.devRef .tc main_arg4))) Facts₀.shapeCasts_S128_S1x128 i := by
    dsimp only [hostOps3]
    after_results
    rfl
  rw [e]
  exact shapeCast_a_1a_apply _ _ (0 : Fin 1) k

/-- The second bias as one row. -/
theorem b2 (X : Valuation τ sig (Elt Ideal)) (k : Fin 128) :
    (after hostOps3 X (Proc.devRef .tc main_v157) : S1x128.Idx → EReal) (ix2 (0 : Fin 1) k) = vec3 (X (Proc.devRef .tc main_arg6)) (ix1 k) := by
  have e : (after hostOps3 X (Proc.devRef .tc main_v157) : S1x128.Idx → EReal)
      = fun i => shapeCast S1x128 (vec3 (X (Proc.devRef .tc main_arg6))) Facts₀.shapeCasts_S128_S1x128 i := by
    dsimp only [hostOps3]
    after_results
    rfl
  rw [e]
  exact shapeCast_a_1a_apply _ _ (0 : Fin 1) k

/-- The normalisation's scale as one row. -/
theorem g (X : Valuation τ sig (Elt Ideal)) (k : Fin 128) :
    (after hostOps3 X (Proc.devRef .tc main_v160) : S1x128.Idx → EReal) (ix2 (0 : Fin 1) k) = vec3 (X (Proc.devRef .tc main_arg7)) (ix1 k) := by
  have e : (after hostOps3 X (Proc.devRef .tc main_v160) : S1x128.Idx → EReal)
      = fun i => shapeCast S1x128 (vec3 (X (Proc.devRef .tc main_arg7))) Facts₀.shapeCasts_S128_S1x128 i := by
    dsimp only [hostOps3]
    after_results
    rfl
  rw [e]
  exact shapeCast_a_1a_apply _ _ (0 : Fin 1) k

/-- The normalisation's shift as one row. -/
theorem be (X : Valuation τ sig (Elt Ideal)) (k : Fin 128) :
    (after hostOps3 X (Proc.devRef .tc main_v163) : S1x128.Idx → EReal) (ix2 (0 : Fin 1) k) = vec3 (X (Proc.devRef .tc main_arg8)) (ix1 k) := by
  have e : (after hostOps3 X (Proc.devRef .tc main_v163) : S1x128.Idx → EReal)
      = fun i => shapeCast S1x128 (vec3 (X (Proc.devRef .tc main_arg8))) Facts₀.shapeCasts_S128_S1x128 i := by
    dsimp only [hostOps3]
    after_results
    rfl
  rw [e]
  exact shapeCast_a_1a_apply _ _ (0 : Fin 1) k

/-- The running mean as one row. -/
theorem mu (X : Valuation τ sig (Elt Ideal)) (k : Fin 128) :
    (after hostOps3 X (Proc.devRef .tc main_v166) : S1x128.Idx → EReal) (ix2 (0 : Fin 1) k) = vec3 (X (Proc.devRef .tc main_arg9)) (ix1 k) := by
  have e : (after hostOps3 X (Proc.devRef .tc main_v166) : S1x128.Idx → EReal)
      = fun i => shapeCast S1x128 (vec3 (X (Proc.devRef .tc main_arg9))) Facts₀.shapeCasts_S128_S1x128 i := by
    dsimp only [hostOps3]
    after_results
    rfl
  rw [e]
  exact shapeCast_a_1a_apply _ _ (0 : Fin 1) k

/-- The reciprocal deviation as one row: `rsqrt (σ² + 1e-5)` entry by entry. -/
theorem rdev (X : Valuation τ sig (Elt Ideal)) (k : Fin 128) :
    (after hostOps3 X (Proc.devRef .tc main_v147) : S1x128.Idx → EReal) (ix2 (0 : Fin 1) k)
      = Ideal.rsqrt (vec3 (X (Proc.devRef .tc main_arg10)) (ix1 k) + Ideal.ofBits .f32 0x3727C5AC#32) := by
  have e : (after hostOps3 X (Proc.devRef .tc main_v147) : S1x128.Idx → EReal)
      = fun i => shapeCast S1x128 (Host.rsqrt (addf (vec3 (X (Proc.devRef .tc main_arg10)))
          (broadcastInDim S128 ![] Facts₀.bcast_S_S128 (constant (F := Ideal) S_ .f32 0x3727C5AC#32)))) Facts₀.shapeCasts_S128_S1x128 i := by
    dsimp only [hostOps3]
    after_results
    rfl
  rw [e]
  refine (shapeCast_a_1a_apply _ _ (0 : Fin 1) k).trans ?_
  exact congrArg (fun y => Ideal.rsqrt (vec3 (X (Proc.devRef .tc main_arg10)) (ix1 k) + y)) (broadcastInDim_scalar_apply _ _ _)

/-- THE LAUNCH'S INPUTS, TOGETHER: the layer of the eleven arrays the launch finds is the reference's layer of the
    current features, their neighbour sums and row 3 of each stacked parameter. -/
theorem layer_eq (X : Valuation τ sig (Elt Ideal)) :
    layer (after hostOps3 X (Proc.devRef .tc main_v126)) (after hostOps3 X (Proc.devRef .tc main_v136)) (after hostOps3 X (Proc.devRef .tc main_v141)) (after hostOps3 X (Proc.devRef .tc main_v149)) (after hostOps3 X (Proc.devRef .tc main_v152)) (after hostOps3 X (Proc.devRef .tc main_v154)) (after hostOps3 X (Proc.devRef .tc main_v157)) (after hostOps3 X (Proc.devRef .tc main_v160)) (after hostOps3 X (Proc.devRef .tc main_v163)) (after hostOps3 X (Proc.devRef .tc main_v166)) (after hostOps3 X (Proc.devRef .tc main_v147))
      = layerOf (F := Ideal) (X (Proc.devRef .tc main_v126)) (aggOf (X (Proc.devRef .tc main_v126)) (X (Proc.devRef .tc main_v1)) (X (Proc.devRef .tc main_v3))) (e3 (X (Proc.devRef .tc main_arg2))) (mat3 (X (Proc.devRef .tc main_arg3))) (vec3 (X (Proc.devRef .tc main_arg4)))
          (mat3 (X (Proc.devRef .tc main_arg5))) (vec3 (X (Proc.devRef .tc main_arg6))) (vec3 (X (Proc.devRef .tc main_arg9))) (vec3 (X (Proc.devRef .tc main_arg10)))
          (vec3 (X (Proc.devRef .tc main_arg7))) (vec3 (X (Proc.devRef .tc main_arg8))) := by
  rw [keep (r := main_v126) (by decide) X, agg X, w1 X, w2 X]
  exact (Cert.ReferenceIdeal.RefLayer.layerOf_eq_layer _ _ _ _ _ _ _ _ _ _ _ _ _ _ _ _ _ _
    (sc X) (b1 X) (b2 X) (g X) (be X) (mu X) (rdev X)).symm

end Cert.KernelIdeal.Entry3

end
-- ==== Proof.RefRun.lean ====
/-
  The reference program's run read back as a term of its arguments.

  The program is a straight line of 324 host operations once its calls are unfolded: four that take the two rows of the
  edge table, then four layers of eighty.  A layer normalises the source indices, gathers the rows of its input at them,
  adds each gathered row into the row of its destination index (thirteen operations), forms (1 + ε)·h + agg, applies the
  first dense map, `max · 0` (three operations of the called function), the second dense map, the column-wise
  normalisation, and the exponential linear unit (fifteen operations of the called function, three of them the inner
  selection's).  The lists below are those operations in order; the program equals their sequence, its run ends with
  every buffer at the fold of their results, and that fold at the last layer's output is `net` of the arguments.
-/
import proofs.«163391_j14302241096098_1_alg».proof.Proof.Gen.ReferenceIdeal
import proofs.«163391_j14302241096098_1_alg».proof.Proof.RefTerm
import Idealize.ShloMosaic.Lib.StableHlo.Run
import Idealize.ShloMosaic.Lib.Pipeline.Frame

noncomputable section

namespace Cert.ReferenceIdeal.RefRun

open Cert.ReferenceIdeal Idealize.ShloMosaic Idealize.SL.Sem Idealize.ShloMosaic.StableHlo

variable {F : FTy → Type} [FloatOps F] [Facts]

open Facts₀ Facts
/-! ## The operations -/

/-- The two rows of the edge table, each sliced out and reshaped to a vector: the sources `main_v1`, the destinations `main_v3`. -/
abbrev opsP : List (HloOp τ sig (Elt F)) :=
  [ StableHlo.unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    StableHlo.reshape main_v0 main_v1 rfl shapeCasts_S1x625000_S625000,
    StableHlo.unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    StableHlo.reshape main_v2 main_v3 rfl shapeCasts_S1x625000_S625000 ]

/-- Layer 0, from the input features `main_arg0` to `main_v62`. -/
abbrev opsL0 : List (HloOp τ sig (Elt F)) :=
  [ StableHlo.nullary main_c (constantI S_ 32 0#32),
    StableHlo.unary main_c main_v4 (broadcastInDim S625000 ![] bcast_S_S625000 : (⟨S_, .i32⟩ : BufTy).Contents (Elt F) → (⟨S625000, .i32⟩ : BufTy).Contents (Elt F)),
    StableHlo.binary main_v1 main_v4 main_v5 (cmpi .slt : (⟨S625000, .i32⟩ : BufTy).Contents (Elt F) → (⟨S625000, .i32⟩ : BufTy).Contents (Elt F) → (⟨S625000, .i1⟩ : BufTy).Contents (Elt F)),
    StableHlo.nullary main_c_0 (constantI S_ 32 100000#32),
    StableHlo.unary main_c_0 main_v6 (broadcastInDim S625000 ![] bcast_S_S625000 : (⟨S_, .i32⟩ : BufTy).Contents (Elt F) → (⟨S625000, .i32⟩ : BufTy).Contents (Elt F)),
    StableHlo.binary main_v1 main_v6 main_v7 (addi : (⟨S625000, .i32⟩ : BufTy).Contents (Elt F) → (⟨S625000, .i32⟩ : BufTy).Contents (Elt F) → (⟨S625000, .i32⟩ : BufTy).Contents (Elt F)),
    StableHlo.ternary main_v5 main_v7 main_v1 main_v8 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v8 main_v9 (broadcastInDim S625000x1 ![0] bcast_S625000_S625000x1_0 : (⟨S625000, .i32⟩ : BufTy).Contents (Elt F) → (⟨S625000x1, .i32⟩ : BufTy).Contents (Elt F)),
    StableHlo.binary main_arg0 main_v9 main_v10 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S625000x1 ![0] bcast_S625000_S625000x1_0 : (⟨S625000, .i32⟩ : BufTy).Contents (Elt F) → (⟨S625000x1, .i32⟩ : BufTy).Contents (Elt F)),
    StableHlo.ternary main_v11 main_v12 main_v10 main_v13 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    StableHlo.unary main_arg2 main_v14 ((extractStridedSlice S1 ![0] · slices_S4_S1_0) : (⟨S4, .f32⟩ : BufTy).Contents (Elt F) → (⟨S1, .f32⟩ : BufTy).Contents (Elt F)),
    StableHlo.reshape main_v14 main_v15 rfl shapeCasts_S1_S_,
    StableHlo.nullary main_cst_1 (constant S_ .f32 0x3F800000#32),
    StableHlo.binary main_cst_1 main_v15 main_v16 (addf : (⟨S_, .f32⟩ : BufTy).Contents (Elt F) → (⟨S_, .f32⟩ : BufTy).Contents (Elt F) → (⟨S_, .f32⟩ : BufTy).Contents (Elt F)),
    StableHlo.unary main_v16 main_v17 (broadcastInDim S100000x128 ![] bcast_S_S100000x128 : (⟨S_, .f32⟩ : BufTy).Contents (Elt F) → (⟨S100000x128, .f32⟩ : BufTy).Contents (Elt F)),
    StableHlo.binary main_v17 main_arg0 main_v18 (mulf : (⟨S100000x128, .f32⟩ : BufTy).Contents (Elt F) → (⟨S100000x128, .f32⟩ : BufTy).Contents (Elt F) → (⟨S100000x128, .f32⟩ : BufTy).Contents (Elt F)),
    StableHlo.binary main_v18 main_v13 main_v19 (addf : (⟨S100000x128, .f32⟩ : BufTy).Contents (Elt F) → (⟨S100000x128, .f32⟩ : BufTy).Contents (Elt F) → (⟨S100000x128, .f32⟩ : BufTy).Contents (Elt F)),
    StableHlo.unary main_arg3 main_v20 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v20 main_v21 rfl shapeCasts_S1x128x128_S128x128,
    StableHlo.unary main_v21 main_v22 ((transpose S128x128 [1, 0] · transposes_S128x128_S128x128_1_0) : (⟨S128x128, .f32⟩ : BufTy).Contents (Elt F) → (⟨S128x128, .f32⟩ : BufTy).Contents (Elt F)),
    StableHlo.binary main_v19 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v24 ((extractStridedSlice S1x128 ![0, 0] · slices_S4x128_S1x128_0_0) : (⟨S4x128, .f32⟩ : BufTy).Contents (Elt F) → (⟨S1x128, .f32⟩ : BufTy).Contents (Elt F)),
    StableHlo.reshape main_v24 main_v25 rfl shapeCasts_S1x128_S128,
    StableHlo.unary main_v25 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S100000x128 ![0, 1] bcast_S1x128_S100000x128_0_1 : (⟨S1x128, .f32⟩ : BufTy).Contents (Elt F) → (⟨S100000x128, .f32⟩ : BufTy).Contents (Elt F)),
    StableHlo.binary main_v23 main_v27 main_v28 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v28 : StableHlo.TRef sig ⟨S100000x128, .f32⟩) main_call0.v0 main_call0.v1 maximumf,
    StableHlo.unary main_arg5 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v30 main_v31 rfl shapeCasts_S1x128x128_S128x128,
    StableHlo.unary main_v31 main_v32 ((transpose S128x128 [1, 0] · transposes_S128x128_S128x128_1_0) : (⟨S128x128, .f32⟩ : BufTy).Contents (Elt F) → (⟨S128x128, .f32⟩ : BufTy).Contents (Elt F)),
    StableHlo.binary main_v29 main_v32 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v34 ((extractStridedSlice S1x128 ![0, 0] · slices_S4x128_S1x128_0_0) : (⟨S4x128, .f32⟩ : BufTy).Contents (Elt F) → (⟨S1x128, .f32⟩ : BufTy).Contents (Elt F)),
    StableHlo.reshape main_v34 main_v35 rfl shapeCasts_S1x128_S128,
    StableHlo.unary main_v35 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v37 main_v38 (addf : (⟨S100000x128, .f32⟩ : BufTy).Contents (Elt F) → (⟨S100000x128, .f32⟩ : BufTy).Contents (Elt F) → (⟨S100000x128, .f32⟩ : BufTy).Contents (Elt F)),
    StableHlo.unary main_arg9 main_v39 ((extractStridedSlice S1x128 ![0, 0] · slices_S4x128_S1x128_0_0) : (⟨S4x128, .f32⟩ : BufTy).Contents (Elt F) → (⟨S1x128, .f32⟩ : BufTy).Contents (Elt F)),
    StableHlo.reshape main_v39 main_v40 rfl shapeCasts_S1x128_S128,
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v38 main_v42 main_v43 (subf : (⟨S100000x128, .f32⟩ : BufTy).Contents (Elt F) → (⟨S100000x128, .f32⟩ : BufTy).Contents (Elt F) → (⟨S100000x128, .f32⟩ : BufTy).Contents (Elt F)),
    StableHlo.unary main_arg10 main_v44 ((extractStridedSlice S1x128 ![0, 0] · slices_S4x128_S1x128_0_0) : (⟨S4x128, .f32⟩ : BufTy).Contents (Elt F) → (⟨S1x128, .f32⟩ : BufTy).Contents (Elt F)),
    StableHlo.reshape main_v44 main_v45 rfl shapeCasts_S1x128_S128,
    StableHlo.nullary main_cst_2 (constant S_ .f32 0x3727C5AC#32),
    StableHlo.unary main_cst_2 main_v46 (broadcastInDim S128 ![] bcast_S_S128 : (⟨S_, .f32⟩ : BufTy).Contents (Elt F) → (⟨S128, .f32⟩ : BufTy).Contents (Elt F)),
    StableHlo.binary main_v45 main_v46 main_v47 (addf : (⟨S128, .f32⟩ : BufTy).Contents (Elt F) → (⟨S128, .f32⟩ : BufTy).Contents (Elt F) → (⟨S128, .f32⟩ : BufTy).Contents (Elt F)),
    StableHlo.unary main_v47 main_v48 (Host.rsqrt : (⟨S128, .f32⟩ : BufTy).Contents (Elt F) → (⟨S128, .f32⟩ : BufTy).Contents (Elt F)),
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v50 main_v51 (mulf : (⟨S100000x128, .f32⟩ : BufTy).Contents (Elt F) → (⟨S100000x128, .f32⟩ : BufTy).Contents (Elt F) → (⟨S100000x128, .f32⟩ : BufTy).Contents (Elt F)),
    StableHlo.unary main_arg7 main_v52 ((extractStridedSlice S1x128 ![0, 0] · slices_S4x128_S1x128_0_0) : (⟨S4x128, .f32⟩ : BufTy).Contents (Elt F) → (⟨S1x128, .f32⟩ : BufTy).Contents (Elt F)),
    StableHlo.reshape main_v52 main_v53 rfl shapeCasts_S1x128_S128,
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v51 main_v55 main_v56 (mulf : (⟨S100000x128, .f32⟩ : BufTy).Contents (Elt F) → (⟨S100000x128, .f32⟩ : BufTy).Contents (Elt F) → (⟨S100000x128, .f32⟩ : BufTy).Contents (Elt F)),
    StableHlo.unary main_arg8 main_v57 ((extractStridedSlice S1x128 ![0, 0] · slices_S4x128_S1x128_0_0) : (⟨S4x128, .f32⟩ : BufTy).Contents (Elt F) → (⟨S1x128, .f32⟩ : BufTy).Contents (Elt F)),
    StableHlo.reshape main_v57 main_v58 rfl shapeCasts_S1x128_S128,
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v60 main_v61 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v61 : StableHlo.TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (.of main_v61 : StableHlo.TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (.of main_v61 : StableHlo.TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (.of main_v61 : StableHlo.TRef sig ⟨S100000x128, .f32⟩) main_call1.v7 main_call1.call1.v0 select ]

/-- Layer 1, from `main_v62` to `main_v121`. -/
abbrev opsL1 : List (HloOp τ sig (Elt F)) :=
  [ StableHlo.nullary main_c_3 (constantI S_ 32 0#32),
    StableHlo.unary main_c_3 main_v63 (broadcastInDim S625000 ![] bcast_S_S625000 : (⟨S_, .i32⟩ : BufTy).Contents (Elt F) → (⟨S625000, .i32⟩ : BufTy).Contents (Elt F)),
    StableHlo.binary main_v1 main_v63 main_v64 (cmpi .slt : (⟨S625000, .i32⟩ : BufTy).Contents (Elt F) → (⟨S625000, .i32⟩ : BufTy).Contents (Elt F) → (⟨S625000, .i1⟩ : BufTy).Contents (Elt F)),
    StableHlo.nullary main_c_4 (constantI S_ 32 100000#32),
    StableHlo.unary main_c_4 main_v65 (broadcastInDim S625000 ![] bcast_S_S625000 : (⟨S_, .i32⟩ : BufTy).Contents (Elt F) → (⟨S625000, .i32⟩ : BufTy).Contents (Elt F)),
    StableHlo.binary main_v1 main_v65 main_v66 (addi : (⟨S625000, .i32⟩ : BufTy).Contents (Elt F) → (⟨S625000, .i32⟩ : BufTy).Contents (Elt F) → (⟨S625000, .i32⟩ : BufTy).Contents (Elt F)),
    StableHlo.ternary main_v64 main_v66 main_v1 main_v67 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v67 main_v68 (broadcastInDim S625000x1 ![0] bcast_S625000_S625000x1_0 : (⟨S625000, .i32⟩ : BufTy).Contents (Elt F) → (⟨S625000x1, .i32⟩ : BufTy).Contents (Elt F)),
    StableHlo.binary main_v62 main_v68 main_v69 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    StableHlo.nullary main_cst_5 (constant S_ .f32 0x00000000#32),
    StableHlo.unary main_cst_5 main_v70 (broadcastInDim S100000x128 ![] bcast_S_S100000x128 : (⟨S_, .f32⟩ : BufTy).Contents (Elt F) → (⟨S100000x128, .f32⟩ : BufTy).Contents (Elt F)),
    StableHlo.unary main_v3 main_v71 (broadcastInDim S625000x1 ![0] bcast_S625000_S625000x1_0 : (⟨S625000, .i32⟩ : BufTy).Contents (Elt F) → (⟨S625000x1, .i32⟩ : BufTy).Contents (Elt F)),
    StableHlo.ternary main_v70 main_v71 main_v69 main_v72 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    StableHlo.unary main_arg2 main_v73 ((extractStridedSlice S1 ![1] · slices_S4_S1_1) : (⟨S4, .f32⟩ : BufTy).Contents (Elt F) → (⟨S1, .f32⟩ : BufTy).Contents (Elt F)),
    StableHlo.reshape main_v73 main_v74 rfl shapeCasts_S1_S_,
    StableHlo.nullary main_cst_6 (constant S_ .f32 0x3F800000#32),
    StableHlo.binary main_cst_6 main_v74 main_v75 (addf : (⟨S_, .f32⟩ : BufTy).Contents (Elt F) → (⟨S_, .f32⟩ : BufTy).Contents (Elt F) → (⟨S_, .f32⟩ : BufTy).Contents (Elt F)),
    StableHlo.unary main_v75 main_v76 (broadcastInDim S100000x128 ![] bcast_S_S100000x128 : (⟨S_, .f32⟩ : BufTy).Contents (Elt F) → (⟨S100000x128, .f32⟩ : BufTy).Contents (Elt F)),
    StableHlo.binary main_v76 main_v62 main_v77 (mulf : (⟨S100000x128, .f32⟩ : BufTy).Contents (Elt F) → (⟨S100000x128, .f32⟩ : BufTy).Contents (Elt F) → (⟨S100000x128, .f32⟩ : BufTy).Contents (Elt F)),
    StableHlo.binary main_v77 main_v72 main_v78 (addf : (⟨S100000x128, .f32⟩ : BufTy).Contents (Elt F) → (⟨S100000x128, .f32⟩ : BufTy).Contents (Elt F) → (⟨S100000x128, .f32⟩ : BufTy).Contents (Elt F)),
    StableHlo.unary main_arg3 main_v79 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v79 main_v80 rfl shapeCasts_S1x128x128_S128x128,
    StableHlo.unary main_v80 main_v81 ((transpose S128x128 [1, 0] · transposes_S128x128_S128x128_1_0) : (⟨S128x128, .f32⟩ : BufTy).Contents (Elt F) → (⟨S128x128, .f32⟩ : BufTy).Contents (Elt F)),
    StableHlo.binary main_v78 main_v81 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v83 ((extractStridedSlice S1x128 ![1, 0] · slices_S4x128_S1x128_1_0) : (⟨S4x128, .f32⟩ : BufTy).Contents (Elt F) → (⟨S1x128, .f32⟩ : BufTy).Contents (Elt F)),
    StableHlo.reshape main_v83 main_v84 rfl shapeCasts_S1x128_S128,
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v86 main_v87 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v87 : StableHlo.TRef sig ⟨S100000x128, .f32⟩) main_call2.v0 main_call2.v1 maximumf,
    StableHlo.unary main_arg5 main_v89 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v89 main_v90 rfl shapeCasts_S1x128x128_S128x128,
    StableHlo.unary main_v90 main_v91 ((transpose S128x128 [1, 0] · transposes_S128x128_S128x128_1_0) : (⟨S128x128, .f32⟩ : BufTy).Contents (Elt F) → (⟨S128x128, .f32⟩ : BufTy).Contents (Elt F)),
    StableHlo.binary main_v88 main_v91 main_v92 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v93 ((extractStridedSlice S1x128 ![1, 0] · slices_S4x128_S1x128_1_0) : (⟨S4x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v92 main_v96 main_v97 (addf : (⟨S100000x128, .f32⟩ : BufTy).Contents (Elt F) → (⟨S100000x128, .f32⟩ : BufTy).Contents (Elt F) → (⟨S100000x128, .f32⟩ : BufTy).Contents (Elt F)),
    StableHlo.unary main_arg9 main_v98 ((extractStridedSlice S1x128 ![1, 0] · slices_S4x128_S1x128_1_0) : (⟨S4x128, .f32⟩ : BufTy).Contents (Elt F) → (⟨S1x128, .f32⟩ : BufTy).Contents (Elt F)),
    StableHlo.reshape main_v98 main_v99 rfl shapeCasts_S1x128_S128,
    StableHlo.unary main_v99 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v101 main_v102 (subf : (⟨S100000x128, .f32⟩ : BufTy).Contents (Elt F) → (⟨S100000x128, .f32⟩ : BufTy).Contents (Elt F) → (⟨S100000x128, .f32⟩ : BufTy).Contents (Elt F)),
    StableHlo.unary main_arg10 main_v103 ((extractStridedSlice S1x128 ![1, 0] · slices_S4x128_S1x128_1_0) : (⟨S4x128, .f32⟩ : BufTy).Contents (Elt F) → (⟨S1x128, .f32⟩ : BufTy).Contents (Elt F)),
    StableHlo.reshape main_v103 main_v104 rfl shapeCasts_S1x128_S128,
    StableHlo.nullary main_cst_7 (constant S_ .f32 0x3727C5AC#32),
    StableHlo.unary main_cst_7 main_v105 (broadcastInDim S128 ![] bcast_S_S128 : (⟨S_, .f32⟩ : BufTy).Contents (Elt F) → (⟨S128, .f32⟩ : BufTy).Contents (Elt F)),
    StableHlo.binary main_v104 main_v105 main_v106 (addf : (⟨S128, .f32⟩ : BufTy).Contents (Elt F) → (⟨S128, .f32⟩ : BufTy).Contents (Elt F) → (⟨S128, .f32⟩ : BufTy).Contents (Elt F)),
    StableHlo.unary main_v106 main_v107 (Host.rsqrt : (⟨S128, .f32⟩ : BufTy).Contents (Elt F) → (⟨S128, .f32⟩ : BufTy).Contents (Elt F)),
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S100000x128 ![0, 1] bcast_S1x128_S100000x128_0_1 : (⟨S1x128, .f32⟩ : BufTy).Contents (Elt F) → (⟨S100000x128, .f32⟩ : BufTy).Contents (Elt F)),
    StableHlo.binary main_v102 main_v109 main_v110 (mulf : (⟨S100000x128, .f32⟩ : BufTy).Contents (Elt F) → (⟨S100000x128, .f32⟩ : BufTy).Contents (Elt F) → (⟨S100000x128, .f32⟩ : BufTy).Contents (Elt F)),
    StableHlo.unary main_arg7 main_v111 ((extractStridedSlice S1x128 ![1, 0] · slices_S4x128_S1x128_1_0) : (⟨S4x128, .f32⟩ : BufTy).Contents (Elt F) → (⟨S1x128, .f32⟩ : BufTy).Contents (Elt F)),
    StableHlo.reshape main_v111 main_v112 rfl shapeCasts_S1x128_S128,
    StableHlo.unary main_v112 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v110 main_v114 main_v115 (mulf : (⟨S100000x128, .f32⟩ : BufTy).Contents (Elt F) → (⟨S100000x128, .f32⟩ : BufTy).Contents (Elt F) → (⟨S100000x128, .f32⟩ : BufTy).Contents (Elt F)),
    StableHlo.unary main_arg8 main_v116 ((extractStridedSlice S1x128 ![1, 0] · slices_S4x128_S1x128_1_0) : (⟨S4x128, .f32⟩ : BufTy).Contents (Elt F) → (⟨S1x128, .f32⟩ : BufTy).Contents (Elt F)),
    StableHlo.reshape main_v116 main_v117 rfl shapeCasts_S1x128_S128,
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v119 main_v120 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v120 : StableHlo.TRef sig ⟨S100000x128, .f32⟩) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v120 : StableHlo.TRef sig ⟨S100000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v120 : StableHlo.TRef sig ⟨S100000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v120 : StableHlo.TRef sig ⟨S100000x128, .f32⟩) main_call3.v7 main_call3.call1.v0 select ]

/-- Layer 2, from `main_v121` to `main_v180`. -/
abbrev opsL2 : List (HloOp τ sig (Elt F)) :=
  [ StableHlo.nullary main_c_8 (constantI S_ 32 0#32),
    StableHlo.unary main_c_8 main_v122 (broadcastInDim S625000 ![] bcast_S_S625000 : (⟨S_, .i32⟩ : BufTy).Contents (Elt F) → (⟨S625000, .i32⟩ : BufTy).Contents (Elt F)),
    StableHlo.binary main_v1 main_v122 main_v123 (cmpi .slt : (⟨S625000, .i32⟩ : BufTy).Contents (Elt F) → (⟨S625000, .i32⟩ : BufTy).Contents (Elt F) → (⟨S625000, .i1⟩ : BufTy).Contents (Elt F)),
    StableHlo.nullary main_c_9 (constantI S_ 32 100000#32),
    StableHlo.unary main_c_9 main_v124 (broadcastInDim S625000 ![] bcast_S_S625000 : (⟨S_, .i32⟩ : BufTy).Contents (Elt F) → (⟨S625000, .i32⟩ : BufTy).Contents (Elt F)),
    StableHlo.binary main_v1 main_v124 main_v125 (addi : (⟨S625000, .i32⟩ : BufTy).Contents (Elt F) → (⟨S625000, .i32⟩ : BufTy).Contents (Elt F) → (⟨S625000, .i32⟩ : BufTy).Contents (Elt F)),
    StableHlo.ternary main_v123 main_v125 main_v1 main_v126 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v126 main_v127 (broadcastInDim S625000x1 ![0] bcast_S625000_S625000x1_0 : (⟨S625000, .i32⟩ : BufTy).Contents (Elt F) → (⟨S625000x1, .i32⟩ : BufTy).Contents (Elt F)),
    StableHlo.binary main_v121 main_v127 main_v128 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    StableHlo.nullary main_cst_10 (constant S_ .f32 0x00000000#32),
    StableHlo.unary main_cst_10 main_v129 (broadcastInDim S100000x128 ![] bcast_S_S100000x128 : (⟨S_, .f32⟩ : BufTy).Contents (Elt F) → (⟨S100000x128, .f32⟩ : BufTy).Contents (Elt F)),
    StableHlo.unary main_v3 main_v130 (broadcastInDim S625000x1 ![0] bcast_S625000_S625000x1_0 : (⟨S625000, .i32⟩ : BufTy).Contents (Elt F) → (⟨S625000x1, .i32⟩ : BufTy).Contents (Elt F)),
    StableHlo.ternary main_v129 main_v130 main_v128 main_v131 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    StableHlo.unary main_arg2 main_v132 ((extractStridedSlice S1 ![2] · slices_S4_S1_2) : (⟨S4, .f32⟩ : BufTy).Contents (Elt F) → (⟨S1, .f32⟩ : BufTy).Contents (Elt F)),
    StableHlo.reshape main_v132 main_v133 rfl shapeCasts_S1_S_,
    StableHlo.nullary main_cst_11 (constant S_ .f32 0x3F800000#32),
    StableHlo.binary main_cst_11 main_v133 main_v134 (addf : (⟨S_, .f32⟩ : BufTy).Contents (Elt F) → (⟨S_, .f32⟩ : BufTy).Contents (Elt F) → (⟨S_, .f32⟩ : BufTy).Contents (Elt F)),
    StableHlo.unary main_v134 main_v135 (broadcastInDim S100000x128 ![] bcast_S_S100000x128 : (⟨S_, .f32⟩ : BufTy).Contents (Elt F) → (⟨S100000x128, .f32⟩ : BufTy).Contents (Elt F)),
    StableHlo.binary main_v135 main_v121 main_v136 (mulf : (⟨S100000x128, .f32⟩ : BufTy).Contents (Elt F) → (⟨S100000x128, .f32⟩ : BufTy).Contents (Elt F) → (⟨S100000x128, .f32⟩ : BufTy).Contents (Elt F)),
    StableHlo.binary main_v136 main_v131 main_v137 (addf : (⟨S100000x128, .f32⟩ : BufTy).Contents (Elt F) → (⟨S100000x128, .f32⟩ : BufTy).Contents (Elt F) → (⟨S100000x128, .f32⟩ : BufTy).Contents (Elt F)),
    StableHlo.unary main_arg3 main_v138 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v138 main_v139 rfl shapeCasts_S1x128x128_S128x128,
    StableHlo.unary main_v139 main_v140 ((transpose S128x128 [1, 0] · transposes_S128x128_S128x128_1_0) : (⟨S128x128, .f32⟩ : BufTy).Contents (Elt F) → (⟨S128x128, .f32⟩ : BufTy).Contents (Elt F)),
    StableHlo.binary main_v137 main_v140 main_v141 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v142 ((extractStridedSlice S1x128 ![2, 0] · slices_S4x128_S1x128_2_0) : (⟨S4x128, .f32⟩ : BufTy).Contents (Elt F) → (⟨S1x128, .f32⟩ : BufTy).Contents (Elt F)),
    StableHlo.reshape main_v142 main_v143 rfl shapeCasts_S1x128_S128,
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v141 main_v145 main_v146 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v146 : StableHlo.TRef sig ⟨S100000x128, .f32⟩) main_call4.v0 main_call4.v1 maximumf,
    StableHlo.unary main_arg5 main_v148 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v148 main_v149 rfl shapeCasts_S1x128x128_S128x128,
    StableHlo.unary main_v149 main_v150 ((transpose S128x128 [1, 0] · transposes_S128x128_S128x128_1_0) : (⟨S128x128, .f32⟩ : BufTy).Contents (Elt F) → (⟨S128x128, .f32⟩ : BufTy).Contents (Elt F)),
    StableHlo.binary main_v147 main_v150 main_v151 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v152 ((extractStridedSlice S1x128 ![2, 0] · slices_S4x128_S1x128_2_0) : (⟨S4x128, .f32⟩ : BufTy).Contents (Elt F) → (⟨S1x128, .f32⟩ : BufTy).Contents (Elt F)),
    StableHlo.reshape main_v152 main_v153 rfl shapeCasts_S1x128_S128,
    StableHlo.unary main_v153 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v155 main_v156 (addf : (⟨S100000x128, .f32⟩ : BufTy).Contents (Elt F) → (⟨S100000x128, .f32⟩ : BufTy).Contents (Elt F) → (⟨S100000x128, .f32⟩ : BufTy).Contents (Elt F)),
    StableHlo.unary main_arg9 main_v157 ((extractStridedSlice S1x128 ![2, 0] · slices_S4x128_S1x128_2_0) : (⟨S4x128, .f32⟩ : BufTy).Contents (Elt F) → (⟨S1x128, .f32⟩ : BufTy).Contents (Elt F)),
    StableHlo.reshape main_v157 main_v158 rfl shapeCasts_S1x128_S128,
    StableHlo.unary main_v158 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v156 main_v160 main_v161 (subf : (⟨S100000x128, .f32⟩ : BufTy).Contents (Elt F) → (⟨S100000x128, .f32⟩ : BufTy).Contents (Elt F) → (⟨S100000x128, .f32⟩ : BufTy).Contents (Elt F)),
    StableHlo.unary main_arg10 main_v162 ((extractStridedSlice S1x128 ![2, 0] · slices_S4x128_S1x128_2_0) : (⟨S4x128, .f32⟩ : BufTy).Contents (Elt F) → (⟨S1x128, .f32⟩ : BufTy).Contents (Elt F)),
    StableHlo.reshape main_v162 main_v163 rfl shapeCasts_S1x128_S128,
    StableHlo.nullary main_cst_12 (constant S_ .f32 0x3727C5AC#32),
    StableHlo.unary main_cst_12 main_v164 (broadcastInDim S128 ![] bcast_S_S128 : (⟨S_, .f32⟩ : BufTy).Contents (Elt F) → (⟨S128, .f32⟩ : BufTy).Contents (Elt F)),
    StableHlo.binary main_v163 main_v164 main_v165 (addf : (⟨S128, .f32⟩ : BufTy).Contents (Elt F) → (⟨S128, .f32⟩ : BufTy).Contents (Elt F) → (⟨S128, .f32⟩ : BufTy).Contents (Elt F)),
    StableHlo.unary main_v165 main_v166 (Host.rsqrt : (⟨S128, .f32⟩ : BufTy).Contents (Elt F) → (⟨S128, .f32⟩ : BufTy).Contents (Elt F)),
    StableHlo.unary main_v166 main_v167 (broadcastInDim S1x128 ![1] bcast_S128_S1x128_1 : (⟨S128, .f32⟩ : BufTy).Contents (Elt F) → (⟨S1x128, .f32⟩ : BufTy).Contents (Elt F)),
    StableHlo.unary main_v167 main_v168 (broadcastInDim S100000x128 ![0, 1] bcast_S1x128_S100000x128_0_1 : (⟨S1x128, .f32⟩ : BufTy).Contents (Elt F) → (⟨S100000x128, .f32⟩ : BufTy).Contents (Elt F)),
    StableHlo.binary main_v161 main_v168 main_v169 (mulf : (⟨S100000x128, .f32⟩ : BufTy).Contents (Elt F) → (⟨S100000x128, .f32⟩ : BufTy).Contents (Elt F) → (⟨S100000x128, .f32⟩ : BufTy).Contents (Elt F)),
    StableHlo.unary main_arg7 main_v170 ((extractStridedSlice S1x128 ![2, 0] · slices_S4x128_S1x128_2_0) : (⟨S4x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v173 main_v174 (mulf : (⟨S100000x128, .f32⟩ : BufTy).Contents (Elt F) → (⟨S100000x128, .f32⟩ : BufTy).Contents (Elt F) → (⟨S100000x128, .f32⟩ : BufTy).Contents (Elt F)),
    StableHlo.unary main_arg8 main_v175 ((extractStridedSlice S1x128 ![2, 0] · slices_S4x128_S1x128_2_0) : (⟨S4x128, .f32⟩ : BufTy).Contents (Elt F) → (⟨S1x128, .f32⟩ : BufTy).Contents (Elt F)),
    StableHlo.reshape main_v175 main_v176 rfl shapeCasts_S1x128_S128,
    StableHlo.unary main_v176 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S100000x128 ![0, 1] bcast_S1x128_S100000x128_0_1 : (⟨S1x128, .f32⟩ : BufTy).Contents (Elt F) → (⟨S100000x128, .f32⟩ : BufTy).Contents (Elt F)),
    StableHlo.binary main_v174 main_v178 main_v179 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v179 : StableHlo.TRef sig ⟨S100000x128, .f32⟩) main_call5.v0 main_call5.v1 (cmpf .ogt),
    StableHlo.TRef.nullary main_call5.cst_0 (constant S_ .f32 0x00000000#32),
    StableHlo.TRef.unary main_call5.cst_0 main_call5.v2 (broadcastInDim S100000x128 ![] bcast_S_S100000x128),
    StableHlo.TRef.binary (.of main_v179 : StableHlo.TRef sig ⟨S100000x128, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x128 ![] bcast_S_S100000x128),
    StableHlo.TRef.ternary main_call5.v3 main_call5.call0.v1 (.of main_v179 : StableHlo.TRef sig ⟨S100000x128, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x128 ![] bcast_S_S100000x128),
    StableHlo.TRef.binary main_call5.v6 main_call5.v5 main_call5.v7 mulf,
    StableHlo.TRef.ternary main_call5.v1 (.of main_v179 : StableHlo.TRef sig ⟨S100000x128, .f32⟩) main_call5.v7 main_call5.call1.v0 select ]

/-- Layer 3, from `main_v180` to the result `main_v239`. -/
abbrev opsL3 : List (HloOp τ sig (Elt F)) :=
  [ StableHlo.nullary main_c_13 (constantI S_ 32 0#32),
    StableHlo.unary main_c_13 main_v181 (broadcastInDim S625000 ![] bcast_S_S625000 : (⟨S_, .i32⟩ : BufTy).Contents (Elt F) → (⟨S625000, .i32⟩ : BufTy).Contents (Elt F)),
    StableHlo.binary main_v1 main_v181 main_v182 (cmpi .slt : (⟨S625000, .i32⟩ : BufTy).Contents (Elt F) → (⟨S625000, .i32⟩ : BufTy).Contents (Elt F) → (⟨S625000, .i1⟩ : BufTy).Contents (Elt F)),
    StableHlo.nullary main_c_14 (constantI S_ 32 100000#32),
    StableHlo.unary main_c_14 main_v183 (broadcastInDim S625000 ![] bcast_S_S625000 : (⟨S_, .i32⟩ : BufTy).Contents (Elt F) → (⟨S625000, .i32⟩ : BufTy).Contents (Elt F)),
    StableHlo.binary main_v1 main_v183 main_v184 (addi : (⟨S625000, .i32⟩ : BufTy).Contents (Elt F) → (⟨S625000, .i32⟩ : BufTy).Contents (Elt F) → (⟨S625000, .i32⟩ : BufTy).Contents (Elt F)),
    StableHlo.ternary main_v182 main_v184 main_v1 main_v185 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v185 main_v186 (broadcastInDim S625000x1 ![0] bcast_S625000_S625000x1_0 : (⟨S625000, .i32⟩ : BufTy).Contents (Elt F) → (⟨S625000x1, .i32⟩ : BufTy).Contents (Elt F)),
    StableHlo.binary main_v180 main_v186 main_v187 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    StableHlo.nullary main_cst_15 (constant S_ .f32 0x00000000#32),
    StableHlo.unary main_cst_15 main_v188 (broadcastInDim S100000x128 ![] bcast_S_S100000x128 : (⟨S_, .f32⟩ : BufTy).Contents (Elt F) → (⟨S100000x128, .f32⟩ : BufTy).Contents (Elt F)),
    StableHlo.unary main_v3 main_v189 (broadcastInDim S625000x1 ![0] bcast_S625000_S625000x1_0 : (⟨S625000, .i32⟩ : BufTy).Contents (Elt F) → (⟨S625000x1, .i32⟩ : BufTy).Contents (Elt F)),
    StableHlo.ternary main_v188 main_v189 main_v187 main_v190 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    StableHlo.unary main_arg2 main_v191 ((extractStridedSlice S1 ![3] · slices_S4_S1_3) : (⟨S4, .f32⟩ : BufTy).Contents (Elt F) → (⟨S1, .f32⟩ : BufTy).Contents (Elt F)),
    StableHlo.reshape main_v191 main_v192 rfl shapeCasts_S1_S_,
    StableHlo.nullary main_cst_16 (constant S_ .f32 0x3F800000#32),
    StableHlo.binary main_cst_16 main_v192 main_v193 (addf : (⟨S_, .f32⟩ : BufTy).Contents (Elt F) → (⟨S_, .f32⟩ : BufTy).Contents (Elt F) → (⟨S_, .f32⟩ : BufTy).Contents (Elt F)),
    StableHlo.unary main_v193 main_v194 (broadcastInDim S100000x128 ![] bcast_S_S100000x128 : (⟨S_, .f32⟩ : BufTy).Contents (Elt F) → (⟨S100000x128, .f32⟩ : BufTy).Contents (Elt F)),
    StableHlo.binary main_v194 main_v180 main_v195 (mulf : (⟨S100000x128, .f32⟩ : BufTy).Contents (Elt F) → (⟨S100000x128, .f32⟩ : BufTy).Contents (Elt F) → (⟨S100000x128, .f32⟩ : BufTy).Contents (Elt F)),
    StableHlo.binary main_v195 main_v190 main_v196 (addf : (⟨S100000x128, .f32⟩ : BufTy).Contents (Elt F) → (⟨S100000x128, .f32⟩ : BufTy).Contents (Elt F) → (⟨S100000x128, .f32⟩ : BufTy).Contents (Elt F)),
    StableHlo.unary main_arg3 main_v197 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v197 main_v198 rfl shapeCasts_S1x128x128_S128x128,
    StableHlo.unary main_v198 main_v199 ((transpose S128x128 [1, 0] · transposes_S128x128_S128x128_1_0) : (⟨S128x128, .f32⟩ : BufTy).Contents (Elt F) → (⟨S128x128, .f32⟩ : BufTy).Contents (Elt F)),
    StableHlo.binary main_v196 main_v199 main_v200 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v201 ((extractStridedSlice S1x128 ![3, 0] · slices_S4x128_S1x128_3_0) : (⟨S4x128, .f32⟩ : BufTy).Contents (Elt F) → (⟨S1x128, .f32⟩ : BufTy).Contents (Elt F)),
    StableHlo.reshape main_v201 main_v202 rfl shapeCasts_S1x128_S128,
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S100000x128 ![0, 1] bcast_S1x128_S100000x128_0_1 : (⟨S1x128, .f32⟩ : BufTy).Contents (Elt F) → (⟨S100000x128, .f32⟩ : BufTy).Contents (Elt F)),
    StableHlo.binary main_v200 main_v204 main_v205 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v205 : StableHlo.TRef sig ⟨S100000x128, .f32⟩) main_call6.v0 main_call6.v1 maximumf,
    StableHlo.unary main_arg5 main_v207 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v207 main_v208 rfl shapeCasts_S1x128x128_S128x128,
    StableHlo.unary main_v208 main_v209 ((transpose S128x128 [1, 0] · transposes_S128x128_S128x128_1_0) : (⟨S128x128, .f32⟩ : BufTy).Contents (Elt F) → (⟨S128x128, .f32⟩ : BufTy).Contents (Elt F)),
    StableHlo.binary main_v206 main_v209 main_v210 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v211 ((extractStridedSlice S1x128 ![3, 0] · slices_S4x128_S1x128_3_0) : (⟨S4x128, .f32⟩ : BufTy).Contents (Elt F) → (⟨S1x128, .f32⟩ : BufTy).Contents (Elt F)),
    StableHlo.reshape main_v211 main_v212 rfl shapeCasts_S1x128_S128,
    StableHlo.unary main_v212 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S100000x128 ![0, 1] bcast_S1x128_S100000x128_0_1 : (⟨S1x128, .f32⟩ : BufTy).Contents (Elt F) → (⟨S100000x128, .f32⟩ : BufTy).Contents (Elt F)),
    StableHlo.binary main_v210 main_v214 main_v215 (addf : (⟨S100000x128, .f32⟩ : BufTy).Contents (Elt F) → (⟨S100000x128, .f32⟩ : BufTy).Contents (Elt F) → (⟨S100000x128, .f32⟩ : BufTy).Contents (Elt F)),
    StableHlo.unary main_arg9 main_v216 ((extractStridedSlice S1x128 ![3, 0] · slices_S4x128_S1x128_3_0) : (⟨S4x128, .f32⟩ : BufTy).Contents (Elt F) → (⟨S1x128, .f32⟩ : BufTy).Contents (Elt F)),
    StableHlo.reshape main_v216 main_v217 rfl shapeCasts_S1x128_S128,
    StableHlo.unary main_v217 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S100000x128 ![0, 1] bcast_S1x128_S100000x128_0_1 : (⟨S1x128, .f32⟩ : BufTy).Contents (Elt F) → (⟨S100000x128, .f32⟩ : BufTy).Contents (Elt F)),
    StableHlo.binary main_v215 main_v219 main_v220 (subf : (⟨S100000x128, .f32⟩ : BufTy).Contents (Elt F) → (⟨S100000x128, .f32⟩ : BufTy).Contents (Elt F) → (⟨S100000x128, .f32⟩ : BufTy).Contents (Elt F)),
    StableHlo.unary main_arg10 main_v221 ((extractStridedSlice S1x128 ![3, 0] · slices_S4x128_S1x128_3_0) : (⟨S4x128, .f32⟩ : BufTy).Contents (Elt F) → (⟨S1x128, .f32⟩ : BufTy).Contents (Elt F)),
    StableHlo.reshape main_v221 main_v222 rfl shapeCasts_S1x128_S128,
    StableHlo.nullary main_cst_17 (constant S_ .f32 0x3727C5AC#32),
    StableHlo.unary main_cst_17 main_v223 (broadcastInDim S128 ![] bcast_S_S128 : (⟨S_, .f32⟩ : BufTy).Contents (Elt F) → (⟨S128, .f32⟩ : BufTy).Contents (Elt F)),
    StableHlo.binary main_v222 main_v223 main_v224 (addf : (⟨S128, .f32⟩ : BufTy).Contents (Elt F) → (⟨S128, .f32⟩ : BufTy).Contents (Elt F) → (⟨S128, .f32⟩ : BufTy).Contents (Elt F)),
    StableHlo.unary main_v224 main_v225 (Host.rsqrt : (⟨S128, .f32⟩ : BufTy).Contents (Elt F) → (⟨S128, .f32⟩ : BufTy).Contents (Elt F)),
    StableHlo.unary main_v225 main_v226 (broadcastInDim S1x128 ![1] bcast_S128_S1x128_1 : (⟨S128, .f32⟩ : BufTy).Contents (Elt F) → (⟨S1x128, .f32⟩ : BufTy).Contents (Elt F)),
    StableHlo.unary main_v226 main_v227 (broadcastInDim S100000x128 ![0, 1] bcast_S1x128_S100000x128_0_1 : (⟨S1x128, .f32⟩ : BufTy).Contents (Elt F) → (⟨S100000x128, .f32⟩ : BufTy).Contents (Elt F)),
    StableHlo.binary main_v220 main_v227 main_v228 (mulf : (⟨S100000x128, .f32⟩ : BufTy).Contents (Elt F) → (⟨S100000x128, .f32⟩ : BufTy).Contents (Elt F) → (⟨S100000x128, .f32⟩ : BufTy).Contents (Elt F)),
    StableHlo.unary main_arg7 main_v229 ((extractStridedSlice S1x128 ![3, 0] · slices_S4x128_S1x128_3_0) : (⟨S4x128, .f32⟩ : BufTy).Contents (Elt F) → (⟨S1x128, .f32⟩ : BufTy).Contents (Elt F)),
    StableHlo.reshape main_v229 main_v230 rfl shapeCasts_S1x128_S128,
    StableHlo.unary main_v230 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S100000x128 ![0, 1] bcast_S1x128_S100000x128_0_1 : (⟨S1x128, .f32⟩ : BufTy).Contents (Elt F) → (⟨S100000x128, .f32⟩ : BufTy).Contents (Elt F)),
    StableHlo.binary main_v228 main_v232 main_v233 (mulf : (⟨S100000x128, .f32⟩ : BufTy).Contents (Elt F) → (⟨S100000x128, .f32⟩ : BufTy).Contents (Elt F) → (⟨S100000x128, .f32⟩ : BufTy).Contents (Elt F)),
    StableHlo.unary main_arg8 main_v234 ((extractStridedSlice S1x128 ![3, 0] · slices_S4x128_S1x128_3_0) : (⟨S4x128, .f32⟩ : BufTy).Contents (Elt F) → (⟨S1x128, .f32⟩ : BufTy).Contents (Elt F)),
    StableHlo.reshape main_v234 main_v235 rfl shapeCasts_S1x128_S128,
    StableHlo.unary main_v235 main_v236 (broadcastInDim S1x128 ![1] bcast_S128_S1x128_1 : (⟨S128, .f32⟩ : BufTy).Contents (Elt F) → (⟨S1x128, .f32⟩ : BufTy).Contents (Elt F)),
    StableHlo.unary main_v236 main_v237 (broadcastInDim S100000x128 ![0, 1] bcast_S1x128_S100000x128_0_1 : (⟨S1x128, .f32⟩ : BufTy).Contents (Elt F) → (⟨S100000x128, .f32⟩ : BufTy).Contents (Elt F)),
    StableHlo.binary main_v233 main_v237 main_v238 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v238 : StableHlo.TRef sig ⟨S100000x128, .f32⟩) main_call7.v0 main_call7.v1 (cmpf .ogt),
    StableHlo.TRef.nullary main_call7.cst_0 (constant S_ .f32 0x00000000#32),
    StableHlo.TRef.unary main_call7.cst_0 main_call7.v2 (broadcastInDim S100000x128 ![] bcast_S_S100000x128),
    StableHlo.TRef.binary (.of main_v238 : StableHlo.TRef sig ⟨S100000x128, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S100000x128 ![] bcast_S_S100000x128),
    StableHlo.TRef.ternary main_call7.v3 main_call7.call0.v1 (.of main_v238 : StableHlo.TRef sig ⟨S100000x128, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S100000x128 ![] bcast_S_S100000x128),
    StableHlo.TRef.binary main_call7.v6 main_call7.v5 main_call7.v7 mulf,
    StableHlo.TRef.ternary main_call7.v1 (.of main_v238 : StableHlo.TRef sig ⟨S100000x128, .f32⟩) main_call7.v7 main_call7.call1.v0 select ]

/-- The whole program's operations, in order. -/
abbrev ops : List (HloOp τ sig (Elt F)) := opsP ++ opsL0 ++ opsL1 ++ opsL2 ++ opsL3

/-! ## The program is their sequence -/

set_option maxRecDepth 65536 in
set_option maxHeartbeats 4000000 in
/-- The program is that straight line: the five windows and the called functions unfolded at their calls, both sides are
    one chain of steps once sequencing is reassociated. -/
theorem main_eq (c : Dev nD) : main (F := F) c = StableHlo.seq ops := by
  simp only [ops, opsP, opsL0, opsL1, opsL2, opsL3, StableHlo.seq_append, main, main_part0, main_part1, main_part2, main_part3,
    main_part4, fn_relu.body, fn_elu.body, fn_where.body, fn_where_0.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and allocates nothing -/

theorem opsP_sub : (opsP : List (HloOp τ sig (Elt F))).Forall fun op => op.bufs ⊆ tcRefs τ sig :=
  ⟨unary_bufs_sub .., reshape_bufs_sub .., unary_bufs_sub .., reshape_bufs_sub ..⟩
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    nullary_bufs_sub .., unary_bufs_sub .., binary_bufs_sub .., unary_bufs_sub .., unary_bufs_sub .., unary_bufs_sub ..,
    binary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩
theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    nullary_bufs_sub .., unary_bufs_sub .., binary_bufs_sub .., unary_bufs_sub .., unary_bufs_sub .., unary_bufs_sub ..,
    binary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    nullary_bufs_sub .., unary_bufs_sub .., binary_bufs_sub .., unary_bufs_sub .., unary_bufs_sub .., unary_bufs_sub ..,
    binary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩
theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., reshape_bufs_sub .., nullary_bufs_sub .., binary_bufs_sub .., unary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., unary_bufs_sub .., reshape_bufs_sub ..,
    nullary_bufs_sub .., unary_bufs_sub .., binary_bufs_sub .., unary_bufs_sub .., unary_bufs_sub .., unary_bufs_sub ..,
    binary_bufs_sub .., unary_bufs_sub .., reshape_bufs_sub .., unary_bufs_sub .., unary_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩
theorem ops_sub : (ops : List (HloOp τ sig (Elt F))).Forall fun op => op.bufs ⊆ tcRefs τ sig :=
  List.forall_append.mpr ⟨List.forall_append.mpr ⟨List.forall_append.mpr ⟨List.forall_append.mpr ⟨opsP_sub, opsL0_sub⟩, opsL1_sub⟩, opsL2_sub⟩, opsL3_sub⟩

theorem opsP_fresh : (opsP : List (HloOp τ sig (Elt F))).Forall fun op => op.fresh = ∅ := by
  simp only [List.Forall]; repeat' constructor
theorem opsL0_fresh : (opsL0 : List (HloOp τ sig (Elt F))).Forall fun op => op.fresh = ∅ := by
  simp only [List.Forall]; repeat' constructor
theorem opsL1_fresh : (opsL1 : List (HloOp τ sig (Elt F))).Forall fun op => op.fresh = ∅ := by
  simp only [List.Forall]; repeat' constructor
theorem opsL2_fresh : (opsL2 : List (HloOp τ sig (Elt F))).Forall fun op => op.fresh = ∅ := by
  simp only [List.Forall]; repeat' constructor
theorem opsL3_fresh : (opsL3 : List (HloOp τ sig (Elt F))).Forall fun op => op.fresh = ∅ := by
  simp only [List.Forall]; repeat' constructor
theorem ops_fresh : (ops : List (HloOp τ sig (Elt F))).Forall fun op => op.fresh = ∅ :=
  List.forall_append.mpr ⟨List.forall_append.mpr ⟨List.forall_append.mpr ⟨List.forall_append.mpr ⟨opsP_fresh, opsL0_fresh⟩, opsL1_fresh⟩, opsL2_fresh⟩, opsL3_fresh⟩

/-! ## The run -/

/-- On every device, for any float values, from any memory with zero counters: every weakly fair execution of the program
    terminates, and every final state has each TensorCore buffer at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => List.forall_iff_forall_mem.mp ops_fresh)

/-! ## What each list leaves at the buffer it is read for

The fold at a list's last buffer is unrolled and each operation's result read at its own buffer (one pass), which leaves
the composition of the operations' functions over the contents the list starts from; that composition is the layer's term
by unfolding its definitions.  The gather and the scatter stay folded meanwhile: the equation never looks inside them (the
dot product is a field of the float operations, which nothing here unfolds). -/

attribute [local irreducible] Host.gather Host.scatterAdd

theorem src_eq (W : Valuation τ sig (Elt F)) : StableHlo.after opsP W (Proc.devRef .tc main_v1) = RefTerm.srcOf (W (Proc.devRef .tc main_arg1)) := by
  after_results
  rfl
theorem dst_eq (W : Valuation τ sig (Elt F)) : StableHlo.after opsP W (Proc.devRef .tc main_v3) = RefTerm.dstOf (W (Proc.devRef .tc main_arg1)) := by
  after_results
  rfl

set_option maxRecDepth 65536 in
set_option maxHeartbeats 4000000 in
/-- Layer 0's list leaves at `main_v62` the layer's term of the contents it starts from. -/
theorem layer0_out (W : Valuation τ sig (Elt F)) :
    StableHlo.after opsL0 W (Proc.devRef .tc main_v62)
      = RefTerm.layerOf (W (Proc.devRef .tc main_arg0)) (RefTerm.aggOf (W (Proc.devRef .tc main_arg0)) (W (Proc.devRef .tc main_v1)) (W (Proc.devRef .tc main_v3)))
      (RefTerm.e0 (W (Proc.devRef .tc main_arg2))) (RefTerm.mat0 (W (Proc.devRef .tc main_arg3))) (RefTerm.vec0 (W (Proc.devRef .tc main_arg4))) (RefTerm.mat0 (W (Proc.devRef .tc main_arg5))) (RefTerm.vec0 (W (Proc.devRef .tc main_arg6)))
      (RefTerm.vec0 (W (Proc.devRef .tc main_arg9))) (RefTerm.vec0 (W (Proc.devRef .tc main_arg10))) (RefTerm.vec0 (W (Proc.devRef .tc main_arg7))) (RefTerm.vec0 (W (Proc.devRef .tc main_arg8))) := by
  after_results_simp
  rfl

set_option maxRecDepth 65536 in
set_option maxHeartbeats 4000000 in
/-- Layer 1's list leaves at `main_v121` the layer's term of the contents it starts from. -/
theorem layer1_out (W : Valuation τ sig (Elt F)) :
    StableHlo.after opsL1 W (Proc.devRef .tc main_v121)
      = RefTerm.layerOf (W (Proc.devRef .tc main_v62)) (RefTerm.aggOf (W (Proc.devRef .tc main_v62)) (W (Proc.devRef .tc main_v1)) (W (Proc.devRef .tc main_v3)))
      (RefTerm.e1 (W (Proc.devRef .tc main_arg2))) (RefTerm.mat1 (W (Proc.devRef .tc main_arg3))) (RefTerm.vec1 (W (Proc.devRef .tc main_arg4))) (RefTerm.mat1 (W (Proc.devRef .tc main_arg5))) (RefTerm.vec1 (W (Proc.devRef .tc main_arg6)))
      (RefTerm.vec1 (W (Proc.devRef .tc main_arg9))) (RefTerm.vec1 (W (Proc.devRef .tc main_arg10))) (RefTerm.vec1 (W (Proc.devRef .tc main_arg7))) (RefTerm.vec1 (W (Proc.devRef .tc main_arg8))) := by
  after_results_simp
  rfl

set_option maxRecDepth 65536 in
set_option maxHeartbeats 4000000 in
/-- Layer 2's list leaves at `main_v180` the layer's term of the contents it starts from. -/
theorem layer2_out (W : Valuation τ sig (Elt F)) :
    StableHlo.after opsL2 W (Proc.devRef .tc main_v180)
      = RefTerm.layerOf (W (Proc.devRef .tc main_v121)) (RefTerm.aggOf (W (Proc.devRef .tc main_v121)) (W (Proc.devRef .tc main_v1)) (W (Proc.devRef .tc main_v3)))
      (RefTerm.e2 (W (Proc.devRef .tc main_arg2))) (RefTerm.mat2 (W (Proc.devRef .tc main_arg3))) (RefTerm.vec2 (W (Proc.devRef .tc main_arg4))) (RefTerm.mat2 (W (Proc.devRef .tc main_arg5))) (RefTerm.vec2 (W (Proc.devRef .tc main_arg6)))
      (RefTerm.vec2 (W (Proc.devRef .tc main_arg9))) (RefTerm.vec2 (W (Proc.devRef .tc main_arg10))) (RefTerm.vec2 (W (Proc.devRef .tc main_arg7))) (RefTerm.vec2 (W (Proc.devRef .tc main_arg8))) := by
  after_results_simp
  rfl

set_option maxRecDepth 65536 in
set_option maxHeartbeats 4000000 in
/-- Layer 3's list leaves at `main_v239` the layer's term of the contents it starts from. -/
theorem layer3_out (W : Valuation τ sig (Elt F)) :
    StableHlo.after opsL3 W (Proc.devRef .tc main_v239)
      = RefTerm.layerOf (W (Proc.devRef .tc main_v180)) (RefTerm.aggOf (W (Proc.devRef .tc main_v180)) (W (Proc.devRef .tc main_v1)) (W (Proc.devRef .tc main_v3)))
      (RefTerm.e3 (W (Proc.devRef .tc main_arg2))) (RefTerm.mat3 (W (Proc.devRef .tc main_arg3))) (RefTerm.vec3 (W (Proc.devRef .tc main_arg4))) (RefTerm.mat3 (W (Proc.devRef .tc main_arg5))) (RefTerm.vec3 (W (Proc.devRef .tc main_arg6)))
      (RefTerm.vec3 (W (Proc.devRef .tc main_arg9))) (RefTerm.vec3 (W (Proc.devRef .tc main_arg10))) (RefTerm.vec3 (W (Proc.devRef .tc main_arg7))) (RefTerm.vec3 (W (Proc.devRef .tc main_arg8))) := by
  after_results_simp
  rfl

/-! ## What each list leaves alone

A list writes the buffers of its own values only; a reference outside that set keeps its contents across the list. -/

/-- The references `opsP` writes. -/
abbrev WP : List (Ref sig .tc) :=
  [ main_v0, main_v1, main_v2, main_v3 ]
theorem opsP_writes : (opsP : List (HloOp τ sig (Elt F))).Forall fun op => op.writes ⊆ ((WP.map (Proc.devRef (τ := τ) .tc)).toFinset) := by
  simp only [List.Forall, nullary_writes, unary_writes, binary_writes, ternary_writes, reshape_writes, Finset.singleton_subset_iff, List.mem_toFinset]
  repeat' apply And.intro
  all_goals exact List.mem_map_of_mem (by decide)
theorem keepP {r : Ref sig .tc} (hr : r ∉ WP) (W : Valuation τ sig (Elt F)) : StableHlo.after opsP W (Proc.devRef .tc r) = W (Proc.devRef .tc r) :=
  StableHlo.after_of_writes_sub opsP W opsP_writes hr

/-- The references `opsL0` writes. -/
abbrev WL0 : List (Ref sig .tc) :=
  [ main_c, main_v4, main_v5, main_c_0, main_v6, main_v7, main_v8, main_v9, main_v10, main_cst,
    main_v11, main_v12, main_v13, main_v14, main_v15, main_cst_1, main_v16, main_v17, main_v18, main_v19,
    main_v20, main_v21, main_v22, main_v23, main_v24, main_v25, main_v26, main_v27, main_v28, main_call0_cst,
    main_call0_v0, main_v29, main_v30, main_v31, main_v32, main_v33, main_v34, main_v35, main_v36, main_v37,
    main_v38, main_v39, main_v40, main_v41, main_v42, main_v43, main_v44, main_v45, main_cst_2, main_v46,
    main_v47, main_v48, main_v49, main_v50, main_v51, main_v52, main_v53, main_v54, main_v55, main_v56,
    main_v57, main_v58, main_v59, main_v60, main_v61, main_call1_cst, main_call1_v0, main_call1_v1, main_call1_cst_0, main_call1_v2,
    main_call1_v3, main_call1_cst_1, main_call1_call0_v0, main_call1_call0_v1, main_call1_v4, main_call1_v5, main_call1_cst_2, main_call1_v6, main_call1_v7, main_v62 ]
theorem opsL0_writes : (opsL0 : List (HloOp τ sig (Elt F))).Forall fun op => op.writes ⊆ ((WL0.map (Proc.devRef (τ := τ) .tc)).toFinset) := by
  simp only [List.Forall, nullary_writes, unary_writes, binary_writes, ternary_writes, reshape_writes, Finset.singleton_subset_iff, List.mem_toFinset]
  repeat' apply And.intro
  all_goals exact List.mem_map_of_mem (by decide)
theorem keepL0 {r : Ref sig .tc} (hr : r ∉ WL0) (W : Valuation τ sig (Elt F)) : StableHlo.after opsL0 W (Proc.devRef .tc r) = W (Proc.devRef .tc r) :=
  StableHlo.after_of_writes_sub opsL0 W opsL0_writes hr

/-- The references `opsL1` writes. -/
abbrev WL1 : List (Ref sig .tc) :=
  [ main_c_3, main_v63, main_v64, main_c_4, main_v65, main_v66, main_v67, main_v68, main_v69, main_cst_5,
    main_v70, main_v71, main_v72, main_v73, main_v74, main_cst_6, main_v75, main_v76, main_v77, main_v78,
    main_v79, main_v80, main_v81, main_v82, main_v83, main_v84, main_v85, main_v86, main_v87, main_call2_cst,
    main_call2_v0, main_v88, main_v89, main_v90, main_v91, main_v92, main_v93, main_v94, main_v95, main_v96,
    main_v97, main_v98, main_v99, main_v100, main_v101, main_v102, main_v103, main_v104, main_cst_7, main_v105,
    main_v106, main_v107, main_v108, main_v109, main_v110, main_v111, main_v112, main_v113, main_v114, main_v115,
    main_v116, main_v117, main_v118, main_v119, main_v120, main_call3_cst, main_call3_v0, main_call3_v1, main_call3_cst_0, main_call3_v2,
    main_call3_v3, main_call3_cst_1, main_call3_call0_v0, main_call3_call0_v1, main_call3_v4, main_call3_v5, main_call3_cst_2, main_call3_v6, main_call3_v7, main_v121 ]
theorem opsL1_writes : (opsL1 : List (HloOp τ sig (Elt F))).Forall fun op => op.writes ⊆ ((WL1.map (Proc.devRef (τ := τ) .tc)).toFinset) := by
  simp only [List.Forall, nullary_writes, unary_writes, binary_writes, ternary_writes, reshape_writes, Finset.singleton_subset_iff, List.mem_toFinset]
  repeat' apply And.intro
  all_goals exact List.mem_map_of_mem (by decide)
theorem keepL1 {r : Ref sig .tc} (hr : r ∉ WL1) (W : Valuation τ sig (Elt F)) : StableHlo.after opsL1 W (Proc.devRef .tc r) = W (Proc.devRef .tc r) :=
  StableHlo.after_of_writes_sub opsL1 W opsL1_writes hr

/-- The references `opsL2` writes. -/
abbrev WL2 : List (Ref sig .tc) :=
  [ main_c_8, main_v122, main_v123, main_c_9, main_v124, main_v125, main_v126, main_v127, main_v128, main_cst_10,
    main_v129, main_v130, main_v131, main_v132, main_v133, main_cst_11, main_v134, main_v135, main_v136, main_v137,
    main_v138, main_v139, main_v140, main_v141, main_v142, main_v143, main_v144, main_v145, main_v146, main_call4_cst,
    main_call4_v0, main_v147, main_v148, main_v149, main_v150, main_v151, main_v152, main_v153, main_v154, main_v155,
    main_v156, main_v157, main_v158, main_v159, main_v160, main_v161, main_v162, main_v163, main_cst_12, main_v164,
    main_v165, main_v166, main_v167, main_v168, main_v169, main_v170, main_v171, main_v172, main_v173, main_v174,
    main_v175, main_v176, main_v177, main_v178, main_v179, main_call5_cst, main_call5_v0, main_call5_v1, main_call5_cst_0, main_call5_v2,
    main_call5_v3, main_call5_cst_1, main_call5_call0_v0, main_call5_call0_v1, main_call5_v4, main_call5_v5, main_call5_cst_2, main_call5_v6, main_call5_v7, main_v180 ]
theorem opsL2_writes : (opsL2 : List (HloOp τ sig (Elt F))).Forall fun op => op.writes ⊆ ((WL2.map (Proc.devRef (τ := τ) .tc)).toFinset) := by
  simp only [List.Forall, nullary_writes, unary_writes, binary_writes, ternary_writes, reshape_writes, Finset.singleton_subset_iff, List.mem_toFinset]
  repeat' apply And.intro
  all_goals exact List.mem_map_of_mem (by decide)
theorem keepL2 {r : Ref sig .tc} (hr : r ∉ WL2) (W : Valuation τ sig (Elt F)) : StableHlo.after opsL2 W (Proc.devRef .tc r) = W (Proc.devRef .tc r) :=
  StableHlo.after_of_writes_sub opsL2 W opsL2_writes hr

/-- The references `opsL3` writes. -/
abbrev WL3 : List (Ref sig .tc) :=
  [ main_c_13, main_v181, main_v182, main_c_14, main_v183, main_v184, main_v185, main_v186, main_v187, main_cst_15,
    main_v188, main_v189, main_v190, main_v191, main_v192, main_cst_16, main_v193, main_v194, main_v195, main_v196,
    main_v197, main_v198, main_v199, main_v200, main_v201, main_v202, main_v203, main_v204, main_v205, main_call6_cst,
    main_call6_v0, main_v206, main_v207, main_v208, main_v209, main_v210, main_v211, main_v212, main_v213, main_v214,
    main_v215, main_v216, main_v217, main_v218, main_v219, main_v220, main_v221, main_v222, main_cst_17, main_v223,
    main_v224, main_v225, main_v226, main_v227, main_v228, main_v229, main_v230, main_v231, main_v232, main_v233,
    main_v234, main_v235, main_v236, main_v237, main_v238, main_call7_cst, main_call7_v0, main_call7_v1, main_call7_cst_0, main_call7_v2,
    main_call7_v3, main_call7_cst_1, main_call7_call0_v0, main_call7_call0_v1, main_call7_v4, main_call7_v5, main_call7_cst_2, main_call7_v6, main_call7_v7, main_v239 ]
theorem opsL3_writes : (opsL3 : List (HloOp τ sig (Elt F))).Forall fun op => op.writes ⊆ ((WL3.map (Proc.devRef (τ := τ) .tc)).toFinset) := by
  simp only [List.Forall, nullary_writes, unary_writes, binary_writes, ternary_writes, reshape_writes, Finset.singleton_subset_iff, List.mem_toFinset]
  repeat' apply And.intro
  all_goals exact List.mem_map_of_mem (by decide)
theorem keepL3 {r : Ref sig .tc} (hr : r ∉ WL3) (W : Valuation τ sig (Elt F)) : StableHlo.after opsL3 W (Proc.devRef .tc r) = W (Proc.devRef .tc r) :=
  StableHlo.after_of_writes_sub opsL3 W opsL3_writes hr

/-! ## Across the lists in a row -/

theorem keep_0 {r : Ref sig .tc} (hP : r ∉ WP) (V : Valuation τ sig (Elt F)) :
    StableHlo.after opsP V (Proc.devRef .tc r) = V (Proc.devRef .tc r) := by
  rw [keepP hP]
theorem keep_1 {r : Ref sig .tc} (hP : r ∉ WP) (h0 : r ∉ WL0) (V : Valuation τ sig (Elt F)) :
    StableHlo.after opsL0 (StableHlo.after opsP V) (Proc.devRef .tc r) = V (Proc.devRef .tc r) := by
  rw [keepL0 h0, keepP hP]
theorem keep_2 {r : Ref sig .tc} (hP : r ∉ WP) (h0 : r ∉ WL0) (h1 : r ∉ WL1) (V : Valuation τ sig (Elt F)) :
    StableHlo.after opsL1 (StableHlo.after opsL0 (StableHlo.after opsP V)) (Proc.devRef .tc r) = V (Proc.devRef .tc r) := by
  rw [keepL1 h1, keepL0 h0, keepP hP]
theorem keep_3 {r : Ref sig .tc} (hP : r ∉ WP) (h0 : r ∉ WL0) (h1 : r ∉ WL1) (h2 : r ∉ WL2) (V : Valuation τ sig (Elt F)) :
    StableHlo.after opsL2 (StableHlo.after opsL1 (StableHlo.after opsL0 (StableHlo.after opsP V))) (Proc.devRef .tc r) = V (Proc.devRef .tc r) := by
  rw [keepL2 h2, keepL1 h1, keepL0 h0, keepP hP]
theorem keep_4 {r : Ref sig .tc} (hP : r ∉ WP) (h0 : r ∉ WL0) (h1 : r ∉ WL1) (h2 : r ∉ WL2) (h3 : r ∉ WL3) (V : Valuation τ sig (Elt F)) :
    StableHlo.after opsL3 (StableHlo.after opsL2 (StableHlo.after opsL1 (StableHlo.after opsL0 (StableHlo.after opsP V)))) (Proc.devRef .tc r) = V (Proc.devRef .tc r) := by
  rw [keepL3 h3, keepL2 h2, keepL1 h1, keepL0 h0, keepP hP]
theorem src_1 (V : Valuation τ sig (Elt F)) :
    StableHlo.after opsL0 (StableHlo.after opsP V) (Proc.devRef .tc main_v1) = RefTerm.srcOf (V (Proc.devRef .tc main_arg1)) := by
  rw [keepL0 (r := main_v1) (by decide), src_eq]
theorem dst_1 (V : Valuation τ sig (Elt F)) :
    StableHlo.after opsL0 (StableHlo.after opsP V) (Proc.devRef .tc main_v3) = RefTerm.dstOf (V (Proc.devRef .tc main_arg1)) := by
  rw [keepL0 (r := main_v3) (by decide), dst_eq]
theorem src_2 (V : Valuation τ sig (Elt F)) :
    StableHlo.after opsL1 (StableHlo.after opsL0 (StableHlo.after opsP V)) (Proc.devRef .tc main_v1) = RefTerm.srcOf (V (Proc.devRef .tc main_arg1)) := by
  rw [keepL1 (r := main_v1) (by decide), keepL0 (r := main_v1) (by decide), src_eq]
theorem dst_2 (V : Valuation τ sig (Elt F)) :
    StableHlo.after opsL1 (StableHlo.after opsL0 (StableHlo.after opsP V)) (Proc.devRef .tc main_v3) = RefTerm.dstOf (V (Proc.devRef .tc main_arg1)) := by
  rw [keepL1 (r := main_v3) (by decide), keepL0 (r := main_v3) (by decide), dst_eq]
theorem src_3 (V : Valuation τ sig (Elt F)) :
    StableHlo.after opsL2 (StableHlo.after opsL1 (StableHlo.after opsL0 (StableHlo.after opsP V))) (Proc.devRef .tc main_v1) = RefTerm.srcOf (V (Proc.devRef .tc main_arg1)) := by
  rw [keepL2 (r := main_v1) (by decide), keepL1 (r := main_v1) (by decide), keepL0 (r := main_v1) (by decide), src_eq]
theorem dst_3 (V : Valuation τ sig (Elt F)) :
    StableHlo.after opsL2 (StableHlo.after opsL1 (StableHlo.after opsL0 (StableHlo.after opsP V))) (Proc.devRef .tc main_v3) = RefTerm.dstOf (V (Proc.devRef .tc main_arg1)) := by
  rw [keepL2 (r := main_v3) (by decide), keepL1 (r := main_v3) (by decide), keepL0 (r := main_v3) (by decide), dst_eq]

/-! ## The network

Layer by layer over the eleven arguments: the features, the edge table, ε, the two weight stacks with their biases, and the
normalisation's scale, shift, mean and variance. -/

/-- The features after layer 0. -/
def netL1 (a0 : (⟨S100000x128, .f32⟩ : BufTy).Contents (Elt F)) (a1 : (⟨S2x625000, .i32⟩ : BufTy).Contents (Elt F)) (a2 : (⟨S4, .f32⟩ : BufTy).Contents (Elt F))
    (a3 : (⟨S4x128x128, .f32⟩ : BufTy).Contents (Elt F)) (a4 : (⟨S4x128, .f32⟩ : BufTy).Contents (Elt F))
    (a5 : (⟨S4x128x128, .f32⟩ : BufTy).Contents (Elt F)) (a6 a7 a8 a9 a10 : (⟨S4x128, .f32⟩ : BufTy).Contents (Elt F)) : (⟨S100000x128, .f32⟩ : BufTy).Contents (Elt F) :=
  RefTerm.layerOf a0 (RefTerm.aggOf a0 (RefTerm.srcOf a1) (RefTerm.dstOf a1))
      (RefTerm.e0 a2) (RefTerm.mat0 a3) (RefTerm.vec0 a4) (RefTerm.mat0 a5) (RefTerm.vec0 a6)
      (RefTerm.vec0 a9) (RefTerm.vec0 a10) (RefTerm.vec0 a7) (RefTerm.vec0 a8)
/-- The features after layer 1. -/
def netL2 (a0 : (⟨S100000x128, .f32⟩ : BufTy).Contents (Elt F)) (a1 : (⟨S2x625000, .i32⟩ : BufTy).Contents (Elt F)) (a2 : (⟨S4, .f32⟩ : BufTy).Contents (Elt F))
    (a3 : (⟨S4x128x128, .f32⟩ : BufTy).Contents (Elt F)) (a4 : (⟨S4x128, .f32⟩ : BufTy).Contents (Elt F))
    (a5 : (⟨S4x128x128, .f32⟩ : BufTy).Contents (Elt F)) (a6 a7 a8 a9 a10 : (⟨S4x128, .f32⟩ : BufTy).Contents (Elt F)) : (⟨S100000x128, .f32⟩ : BufTy).Contents (Elt F) :=
  RefTerm.layerOf (netL1 a0 a1 a2 a3 a4 a5 a6 a7 a8 a9 a10) (RefTerm.aggOf (netL1 a0 a1 a2 a3 a4 a5 a6 a7 a8 a9 a10) (RefTerm.srcOf a1) (RefTerm.dstOf a1))
      (RefTerm.e1 a2) (RefTerm.mat1 a3) (RefTerm.vec1 a4) (RefTerm.mat1 a5) (RefTerm.vec1 a6)
      (RefTerm.vec1 a9) (RefTerm.vec1 a10) (RefTerm.vec1 a7) (RefTerm.vec1 a8)
/-- The features after layer 2. -/
def netL3 (a0 : (⟨S100000x128, .f32⟩ : BufTy).Contents (Elt F)) (a1 : (⟨S2x625000, .i32⟩ : BufTy).Contents (Elt F)) (a2 : (⟨S4, .f32⟩ : BufTy).Contents (Elt F))
    (a3 : (⟨S4x128x128, .f32⟩ : BufTy).Contents (Elt F)) (a4 : (⟨S4x128, .f32⟩ : BufTy).Contents (Elt F))
    (a5 : (⟨S4x128x128, .f32⟩ : BufTy).Contents (Elt F)) (a6 a7 a8 a9 a10 : (⟨S4x128, .f32⟩ : BufTy).Contents (Elt F)) : (⟨S100000x128, .f32⟩ : BufTy).Contents (Elt F) :=
  RefTerm.layerOf (netL2 a0 a1 a2 a3 a4 a5 a6 a7 a8 a9 a10) (RefTerm.aggOf (netL2 a0 a1 a2 a3 a4 a5 a6 a7 a8 a9 a10) (RefTerm.srcOf a1) (RefTerm.dstOf a1))
      (RefTerm.e2 a2) (RefTerm.mat2 a3) (RefTerm.vec2 a4) (RefTerm.mat2 a5) (RefTerm.vec2 a6)
      (RefTerm.vec2 a9) (RefTerm.vec2 a10) (RefTerm.vec2 a7) (RefTerm.vec2 a8)
/-- The features after layer 3: the program's result. -/
def net (a0 : (⟨S100000x128, .f32⟩ : BufTy).Contents (Elt F)) (a1 : (⟨S2x625000, .i32⟩ : BufTy).Contents (Elt F)) (a2 : (⟨S4, .f32⟩ : BufTy).Contents (Elt F))
    (a3 : (⟨S4x128x128, .f32⟩ : BufTy).Contents (Elt F)) (a4 : (⟨S4x128, .f32⟩ : BufTy).Contents (Elt F))
    (a5 : (⟨S4x128x128, .f32⟩ : BufTy).Contents (Elt F)) (a6 a7 a8 a9 a10 : (⟨S4x128, .f32⟩ : BufTy).Contents (Elt F)) : (⟨S100000x128, .f32⟩ : BufTy).Contents (Elt F) :=
  RefTerm.layerOf (netL3 a0 a1 a2 a3 a4 a5 a6 a7 a8 a9 a10) (RefTerm.aggOf (netL3 a0 a1 a2 a3 a4 a5 a6 a7 a8 a9 a10) (RefTerm.srcOf a1) (RefTerm.dstOf a1))
      (RefTerm.e3 a2) (RefTerm.mat3 a3) (RefTerm.vec3 a4) (RefTerm.mat3 a5) (RefTerm.vec3 a6)
      (RefTerm.vec3 a9) (RefTerm.vec3 a10) (RefTerm.vec3 a7) (RefTerm.vec3 a8)

/-- The contents of `main_v62` after layer 0's list, over the launch contents. -/
theorem h1_eq (V : Valuation τ sig (Elt F)) :
    StableHlo.after opsL0 (StableHlo.after opsP V) (Proc.devRef .tc main_v62)
      = netL1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [layer0_out,
    keep_0 (r := main_arg0) (by decide),
    src_eq,
    dst_eq,
    keep_0 (r := main_arg2) (by decide),
    keep_0 (r := main_arg3) (by decide),
    keep_0 (r := main_arg4) (by decide),
    keep_0 (r := main_arg5) (by decide),
    keep_0 (r := main_arg6) (by decide),
    keep_0 (r := main_arg9) (by decide),
    keep_0 (r := main_arg10) (by decide),
    keep_0 (r := main_arg7) (by decide),
    keep_0 (r := main_arg8) (by decide)]
  rfl
/-- The contents of `main_v121` after layer 1's list, over the launch contents. -/
theorem h2_eq (V : Valuation τ sig (Elt F)) :
    StableHlo.after opsL1 (StableHlo.after opsL0 (StableHlo.after opsP V)) (Proc.devRef .tc main_v121)
      = netL2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [layer1_out,
    h1_eq,
    src_1,
    dst_1,
    keep_1 (r := main_arg2) (by decide) (by decide),
    keep_1 (r := main_arg3) (by decide) (by decide),
    keep_1 (r := main_arg4) (by decide) (by decide),
    keep_1 (r := main_arg5) (by decide) (by decide),
    keep_1 (r := main_arg6) (by decide) (by decide),
    keep_1 (r := main_arg9) (by decide) (by decide),
    keep_1 (r := main_arg10) (by decide) (by decide),
    keep_1 (r := main_arg7) (by decide) (by decide),
    keep_1 (r := main_arg8) (by decide) (by decide)]
  rfl
/-- The contents of `main_v180` after layer 2's list, over the launch contents. -/
theorem h3_eq (V : Valuation τ sig (Elt F)) :
    StableHlo.after opsL2 (StableHlo.after opsL1 (StableHlo.after opsL0 (StableHlo.after opsP V))) (Proc.devRef .tc main_v180)
      = netL3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [layer2_out,
    h2_eq,
    src_2,
    dst_2,
    keep_2 (r := main_arg2) (by decide) (by decide) (by decide),
    keep_2 (r := main_arg3) (by decide) (by decide) (by decide),
    keep_2 (r := main_arg4) (by decide) (by decide) (by decide),
    keep_2 (r := main_arg5) (by decide) (by decide) (by decide),
    keep_2 (r := main_arg6) (by decide) (by decide) (by decide),
    keep_2 (r := main_arg9) (by decide) (by decide) (by decide),
    keep_2 (r := main_arg10) (by decide) (by decide) (by decide),
    keep_2 (r := main_arg7) (by decide) (by decide) (by decide),
    keep_2 (r := main_arg8) (by decide) (by decide) (by decide)]
  rfl
/-- The contents of `main_v239` after layer 3's list, over the launch contents. -/
theorem h4_eq (V : Valuation τ sig (Elt F)) :
    StableHlo.after opsL3 (StableHlo.after opsL2 (StableHlo.after opsL1 (StableHlo.after opsL0 (StableHlo.after opsP V)))) (Proc.devRef .tc main_v239)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [layer3_out,
    h3_eq,
    src_3,
    dst_3,
    keep_3 (r := main_arg2) (by decide) (by decide) (by decide) (by decide),
    keep_3 (r := main_arg3) (by decide) (by decide) (by decide) (by decide),
    keep_3 (r := main_arg4) (by decide) (by decide) (by decide) (by decide),
    keep_3 (r := main_arg5) (by decide) (by decide) (by decide) (by decide),
    keep_3 (r := main_arg6) (by decide) (by decide) (by decide) (by decide),
    keep_3 (r := main_arg9) (by decide) (by decide) (by decide) (by decide),
    keep_3 (r := main_arg10) (by decide) (by decide) (by decide) (by decide),
    keep_3 (r := main_arg7) (by decide) (by decide) (by decide) (by decide),
    keep_3 (r := main_arg8) (by decide) (by decide) (by decide) (by decide)]
  rfl

/-- The fold over the whole program is the fold over its lists in a row. -/
theorem after_ops (V : Valuation τ sig (Elt F)) : StableHlo.after ops V = StableHlo.after opsL3 (StableHlo.after opsL2 (StableHlo.after opsL1 (StableHlo.after opsL0 (StableHlo.after opsP V)))) := by
  simp only [ops, StableHlo.after_append]

/-- The program's result is `net` of its arguments. -/
theorem out_eq (V : Valuation τ sig (Elt F)) :
    StableHlo.after ops V (Proc.devRef .tc main_v239)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]
  exact h4_eq V

theorem arg_eq_0 (V : Valuation τ sig (Elt F)) : StableHlo.after ops V (Proc.devRef .tc main_arg0) = V (Proc.devRef .tc main_arg0) := by
  rw [after_ops]
  exact keep_4 (r := main_arg0) (by decide) (by decide) (by decide) (by decide) (by decide) V
theorem arg_eq_1 (V : Valuation τ sig (Elt F)) : StableHlo.after ops V (Proc.devRef .tc main_arg1) = V (Proc.devRef .tc main_arg1) := by
  rw [after_ops]
  exact keep_4 (r := main_arg1) (by decide) (by decide) (by decide) (by decide) (by decide) V
theorem arg_eq_2 (V : Valuation τ sig (Elt F)) : StableHlo.after ops V (Proc.devRef .tc main_arg2) = V (Proc.devRef .tc main_arg2) := by
  rw [after_ops]
  exact keep_4 (r := main_arg2) (by decide) (by decide) (by decide) (by decide) (by decide) V
theorem arg_eq_3 (V : Valuation τ sig (Elt F)) : StableHlo.after ops V (Proc.devRef .tc main_arg3) = V (Proc.devRef .tc main_arg3) := by
  rw [after_ops]
  exact keep_4 (r := main_arg3) (by decide) (by decide) (by decide) (by decide) (by decide) V
theorem arg_eq_4 (V : Valuation τ sig (Elt F)) : StableHlo.after ops V (Proc.devRef .tc main_arg4) = V (Proc.devRef .tc main_arg4) := by
  rw [after_ops]
  exact keep_4 (r := main_arg4) (by decide) (by decide) (by decide) (by decide) (by decide) V
theorem arg_eq_5 (V : Valuation τ sig (Elt F)) : StableHlo.after ops V (Proc.devRef .tc main_arg5) = V (Proc.devRef .tc main_arg5) := by
  rw [after_ops]
  exact keep_4 (r := main_arg5) (by decide) (by decide) (by decide) (by decide) (by decide) V
theorem arg_eq_6 (V : Valuation τ sig (Elt F)) : StableHlo.after ops V (Proc.devRef .tc main_arg6) = V (Proc.devRef .tc main_arg6) := by
  rw [after_ops]
  exact keep_4 (r := main_arg6) (by decide) (by decide) (by decide) (by decide) (by decide) V
theorem arg_eq_7 (V : Valuation τ sig (Elt F)) : StableHlo.after ops V (Proc.devRef .tc main_arg7) = V (Proc.devRef .tc main_arg7) := by
  rw [after_ops]
  exact keep_4 (r := main_arg7) (by decide) (by decide) (by decide) (by decide) (by decide) V
theorem arg_eq_8 (V : Valuation τ sig (Elt F)) : StableHlo.after ops V (Proc.devRef .tc main_arg8) = V (Proc.devRef .tc main_arg8) := by
  rw [after_ops]
  exact keep_4 (r := main_arg8) (by decide) (by decide) (by decide) (by decide) (by decide) V
theorem arg_eq_9 (V : Valuation τ sig (Elt F)) : StableHlo.after ops V (Proc.devRef .tc main_arg9) = V (Proc.devRef .tc main_arg9) := by
  rw [after_ops]
  exact keep_4 (r := main_arg9) (by decide) (by decide) (by decide) (by decide) (by decide) V
theorem arg_eq_10 (V : Valuation τ sig (Elt F)) : StableHlo.after ops V (Proc.devRef .tc main_arg10) = V (Proc.devRef .tc main_arg10) := by
  rw [after_ops]
  exact keep_4 (r := main_arg10) (by decide) (by decide) (by decide) (by decide) (by decide) V

end Cert.ReferenceIdeal.RefRun

end
-- ==== Proof.KChain.lean ====
/-
  The kernel program's result is the reference's term of the arguments.

  Launch `l` ends with its output array at the layer of the arrays it finds (one function of them: the blocks tile
  the array); the host operations before it make those arrays from the previous launch's output, the edge table and row
  `l` of each stacked parameter, none of which any earlier segment changes.  Layer by layer this is the reference's own
  composition: the features after layer `l + 1` are the reference's layer of the features after layer `l`.
-/
import proofs.«163391_j14302241096098_1_alg».proof.Proof.Gen.KernelIdeal.Frame
import proofs.«163391_j14302241096098_1_alg».proof.Proof.KFlush0
import proofs.«163391_j14302241096098_1_alg».proof.Proof.KFlush1
import proofs.«163391_j14302241096098_1_alg».proof.Proof.KFlush2
import proofs.«163391_j14302241096098_1_alg».proof.Proof.KFlush3
import proofs.«163391_j14302241096098_1_alg».proof.Proof.KEntry0
import proofs.«163391_j14302241096098_1_alg».proof.Proof.KEntry1
import proofs.«163391_j14302241096098_1_alg».proof.Proof.KEntry2
import proofs.«163391_j14302241096098_1_alg».proof.Proof.KEntry3
import proofs.«163391_j14302241096098_1_alg».proof.Proof.RefRun

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem Cert.ReferenceIdeal.RefTerm Cert.ReferenceIdeal.RefRun

variable (m : (ℓ : Loc nD τ sig) → Buf (Elt Ideal) ℓ) (ρ : Dev nD → PrngReg)

/-! ## What no launch and no later stretch changes -/

/-- A buffer that is none of launch 0's arrays is after the launch what it was before. -/
theorem lift2 (c : Dev nD) {b : Ref sig .tc} (h : ∀ w, Pipeline.arrRef spec0 w ≠ b) :
    W2 m ρ c (Proc.devRef .tc b) = W1 m ρ c (Proc.devRef .tc b) := W2_of_ne m ρ c b h
/-- The same through the second stretch and launch 1, for a buffer neither writes. -/
theorem lift4 (c : Dev nD) {b : Ref sig .tc} (h : ∀ w, Pipeline.arrRef spec1 w ≠ b) (hw : b ∉ Entry1.written) :
    W4 m ρ c (Proc.devRef .tc b) = W2 m ρ c (Proc.devRef .tc b) := (W4_of_ne m ρ c b h).trans (Entry1.keep hw (W2 m ρ c))
/-- The same through the third stretch and launch 2. -/
theorem lift6 (c : Dev nD) {b : Ref sig .tc} (h : ∀ w, Pipeline.arrRef spec2 w ≠ b) (hw : b ∉ Entry2.written) :
    W6 m ρ c (Proc.devRef .tc b) = W4 m ρ c (Proc.devRef .tc b) := (W6_of_ne m ρ c b h).trans (Entry2.keep hw (W4 m ρ c))

theorem src1 (c : Dev nD) : W1 m ρ c (Proc.devRef .tc main_v1) = srcOf (m ((c : Thread nD τ).loc main_arg1)) := Entry0.src (W0 m ρ c)
theorem dst1 (c : Dev nD) : W1 m ρ c (Proc.devRef .tc main_v3) = dstOf (m ((c : Thread nD τ).loc main_arg1)) := Entry0.dst (W0 m ρ c)
theorem arg2_1 (c : Dev nD) : W1 m ρ c (Proc.devRef .tc main_arg2) = (m ((c : Thread nD τ).loc main_arg2)) := Entry0.keep (r := main_arg2) (by decide) (W0 m ρ c)
theorem arg3_1 (c : Dev nD) : W1 m ρ c (Proc.devRef .tc main_arg3) = (m ((c : Thread nD τ).loc main_arg3)) := Entry0.keep (r := main_arg3) (by decide) (W0 m ρ c)
theorem arg4_1 (c : Dev nD) : W1 m ρ c (Proc.devRef .tc main_arg4) = (m ((c : Thread nD τ).loc main_arg4)) := Entry0.keep (r := main_arg4) (by decide) (W0 m ρ c)
theorem arg5_1 (c : Dev nD) : W1 m ρ c (Proc.devRef .tc main_arg5) = (m ((c : Thread nD τ).loc main_arg5)) := Entry0.keep (r := main_arg5) (by decide) (W0 m ρ c)
theorem arg6_1 (c : Dev nD) : W1 m ρ c (Proc.devRef .tc main_arg6) = (m ((c : Thread nD τ).loc main_arg6)) := Entry0.keep (r := main_arg6) (by decide) (W0 m ρ c)
theorem arg7_1 (c : Dev nD) : W1 m ρ c (Proc.devRef .tc main_arg7) = (m ((c : Thread nD τ).loc main_arg7)) := Entry0.keep (r := main_arg7) (by decide) (W0 m ρ c)
theorem arg8_1 (c : Dev nD) : W1 m ρ c (Proc.devRef .tc main_arg8) = (m ((c : Thread nD τ).loc main_arg8)) := Entry0.keep (r := main_arg8) (by decide) (W0 m ρ c)
theorem arg9_1 (c : Dev nD) : W1 m ρ c (Proc.devRef .tc main_arg9) = (m ((c : Thread nD τ).loc main_arg9)) := Entry0.keep (r := main_arg9) (by decide) (W0 m ρ c)
theorem arg10_1 (c : Dev nD) : W1 m ρ c (Proc.devRef .tc main_arg10) = (m ((c : Thread nD τ).loc main_arg10)) := Entry0.keep (r := main_arg10) (by decide) (W0 m ρ c)
theorem src2 (c : Dev nD) : W2 m ρ c (Proc.devRef .tc main_v1) = srcOf (m ((c : Thread nD τ).loc main_arg1)) := (lift2 m ρ c (b := main_v1) (by decide)).trans (src1 m ρ c)
theorem dst2 (c : Dev nD) : W2 m ρ c (Proc.devRef .tc main_v3) = dstOf (m ((c : Thread nD τ).loc main_arg1)) := (lift2 m ρ c (b := main_v3) (by decide)).trans (dst1 m ρ c)
theorem arg2_2 (c : Dev nD) : W2 m ρ c (Proc.devRef .tc main_arg2) = (m ((c : Thread nD τ).loc main_arg2)) := (lift2 m ρ c (b := main_arg2) (by decide)).trans (arg2_1 m ρ c)
theorem arg3_2 (c : Dev nD) : W2 m ρ c (Proc.devRef .tc main_arg3) = (m ((c : Thread nD τ).loc main_arg3)) := (lift2 m ρ c (b := main_arg3) (by decide)).trans (arg3_1 m ρ c)
theorem arg4_2 (c : Dev nD) : W2 m ρ c (Proc.devRef .tc main_arg4) = (m ((c : Thread nD τ).loc main_arg4)) := (lift2 m ρ c (b := main_arg4) (by decide)).trans (arg4_1 m ρ c)
theorem arg5_2 (c : Dev nD) : W2 m ρ c (Proc.devRef .tc main_arg5) = (m ((c : Thread nD τ).loc main_arg5)) := (lift2 m ρ c (b := main_arg5) (by decide)).trans (arg5_1 m ρ c)
theorem arg6_2 (c : Dev nD) : W2 m ρ c (Proc.devRef .tc main_arg6) = (m ((c : Thread nD τ).loc main_arg6)) := (lift2 m ρ c (b := main_arg6) (by decide)).trans (arg6_1 m ρ c)
theorem arg7_2 (c : Dev nD) : W2 m ρ c (Proc.devRef .tc main_arg7) = (m ((c : Thread nD τ).loc main_arg7)) := (lift2 m ρ c (b := main_arg7) (by decide)).trans (arg7_1 m ρ c)
theorem arg8_2 (c : Dev nD) : W2 m ρ c (Proc.devRef .tc main_arg8) = (m ((c : Thread nD τ).loc main_arg8)) := (lift2 m ρ c (b := main_arg8) (by decide)).trans (arg8_1 m ρ c)
theorem arg9_2 (c : Dev nD) : W2 m ρ c (Proc.devRef .tc main_arg9) = (m ((c : Thread nD τ).loc main_arg9)) := (lift2 m ρ c (b := main_arg9) (by decide)).trans (arg9_1 m ρ c)
theorem arg10_2 (c : Dev nD) : W2 m ρ c (Proc.devRef .tc main_arg10) = (m ((c : Thread nD τ).loc main_arg10)) := (lift2 m ρ c (b := main_arg10) (by decide)).trans (arg10_1 m ρ c)
theorem src4 (c : Dev nD) : W4 m ρ c (Proc.devRef .tc main_v1) = srcOf (m ((c : Thread nD τ).loc main_arg1)) := (lift4 m ρ c (b := main_v1) (by decide) (by decide)).trans (src2 m ρ c)
theorem dst4 (c : Dev nD) : W4 m ρ c (Proc.devRef .tc main_v3) = dstOf (m ((c : Thread nD τ).loc main_arg1)) := (lift4 m ρ c (b := main_v3) (by decide) (by decide)).trans (dst2 m ρ c)
theorem arg2_4 (c : Dev nD) : W4 m ρ c (Proc.devRef .tc main_arg2) = (m ((c : Thread nD τ).loc main_arg2)) := (lift4 m ρ c (b := main_arg2) (by decide) (by decide)).trans (arg2_2 m ρ c)
theorem arg3_4 (c : Dev nD) : W4 m ρ c (Proc.devRef .tc main_arg3) = (m ((c : Thread nD τ).loc main_arg3)) := (lift4 m ρ c (b := main_arg3) (by decide) (by decide)).trans (arg3_2 m ρ c)
theorem arg4_4 (c : Dev nD) : W4 m ρ c (Proc.devRef .tc main_arg4) = (m ((c : Thread nD τ).loc main_arg4)) := (lift4 m ρ c (b := main_arg4) (by decide) (by decide)).trans (arg4_2 m ρ c)
theorem arg5_4 (c : Dev nD) : W4 m ρ c (Proc.devRef .tc main_arg5) = (m ((c : Thread nD τ).loc main_arg5)) := (lift4 m ρ c (b := main_arg5) (by decide) (by decide)).trans (arg5_2 m ρ c)
theorem arg6_4 (c : Dev nD) : W4 m ρ c (Proc.devRef .tc main_arg6) = (m ((c : Thread nD τ).loc main_arg6)) := (lift4 m ρ c (b := main_arg6) (by decide) (by decide)).trans (arg6_2 m ρ c)
theorem arg7_4 (c : Dev nD) : W4 m ρ c (Proc.devRef .tc main_arg7) = (m ((c : Thread nD τ).loc main_arg7)) := (lift4 m ρ c (b := main_arg7) (by decide) (by decide)).trans (arg7_2 m ρ c)
theorem arg8_4 (c : Dev nD) : W4 m ρ c (Proc.devRef .tc main_arg8) = (m ((c : Thread nD τ).loc main_arg8)) := (lift4 m ρ c (b := main_arg8) (by decide) (by decide)).trans (arg8_2 m ρ c)
theorem arg9_4 (c : Dev nD) : W4 m ρ c (Proc.devRef .tc main_arg9) = (m ((c : Thread nD τ).loc main_arg9)) := (lift4 m ρ c (b := main_arg9) (by decide) (by decide)).trans (arg9_2 m ρ c)
theorem arg10_4 (c : Dev nD) : W4 m ρ c (Proc.devRef .tc main_arg10) = (m ((c : Thread nD τ).loc main_arg10)) := (lift4 m ρ c (b := main_arg10) (by decide) (by decide)).trans (arg10_2 m ρ c)
theorem src6 (c : Dev nD) : W6 m ρ c (Proc.devRef .tc main_v1) = srcOf (m ((c : Thread nD τ).loc main_arg1)) := (lift6 m ρ c (b := main_v1) (by decide) (by decide)).trans (src4 m ρ c)
theorem dst6 (c : Dev nD) : W6 m ρ c (Proc.devRef .tc main_v3) = dstOf (m ((c : Thread nD τ).loc main_arg1)) := (lift6 m ρ c (b := main_v3) (by decide) (by decide)).trans (dst4 m ρ c)
theorem arg2_6 (c : Dev nD) : W6 m ρ c (Proc.devRef .tc main_arg2) = (m ((c : Thread nD τ).loc main_arg2)) := (lift6 m ρ c (b := main_arg2) (by decide) (by decide)).trans (arg2_4 m ρ c)
theorem arg3_6 (c : Dev nD) : W6 m ρ c (Proc.devRef .tc main_arg3) = (m ((c : Thread nD τ).loc main_arg3)) := (lift6 m ρ c (b := main_arg3) (by decide) (by decide)).trans (arg3_4 m ρ c)
theorem arg4_6 (c : Dev nD) : W6 m ρ c (Proc.devRef .tc main_arg4) = (m ((c : Thread nD τ).loc main_arg4)) := (lift6 m ρ c (b := main_arg4) (by decide) (by decide)).trans (arg4_4 m ρ c)
theorem arg5_6 (c : Dev nD) : W6 m ρ c (Proc.devRef .tc main_arg5) = (m ((c : Thread nD τ).loc main_arg5)) := (lift6 m ρ c (b := main_arg5) (by decide) (by decide)).trans (arg5_4 m ρ c)
theorem arg6_6 (c : Dev nD) : W6 m ρ c (Proc.devRef .tc main_arg6) = (m ((c : Thread nD τ).loc main_arg6)) := (lift6 m ρ c (b := main_arg6) (by decide) (by decide)).trans (arg6_4 m ρ c)
theorem arg7_6 (c : Dev nD) : W6 m ρ c (Proc.devRef .tc main_arg7) = (m ((c : Thread nD τ).loc main_arg7)) := (lift6 m ρ c (b := main_arg7) (by decide) (by decide)).trans (arg7_4 m ρ c)
theorem arg8_6 (c : Dev nD) : W6 m ρ c (Proc.devRef .tc main_arg8) = (m ((c : Thread nD τ).loc main_arg8)) := (lift6 m ρ c (b := main_arg8) (by decide) (by decide)).trans (arg8_4 m ρ c)
theorem arg9_6 (c : Dev nD) : W6 m ρ c (Proc.devRef .tc main_arg9) = (m ((c : Thread nD τ).loc main_arg9)) := (lift6 m ρ c (b := main_arg9) (by decide) (by decide)).trans (arg9_4 m ρ c)
theorem arg10_6 (c : Dev nD) : W6 m ρ c (Proc.devRef .tc main_arg10) = (m ((c : Thread nD τ).loc main_arg10)) := (lift6 m ρ c (b := main_arg10) (by decide) (by decide)).trans (arg10_4 m ρ c)

/-! ## The features after each layer -/

theorem out0 (c : Dev nD) : W2 m ρ c (Proc.devRef .tc main_v44) = netL1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W2_arr m ρ c 11).trans ((Flush0.final (V1 m ρ) c).trans (Entry0.layer_eq (W0 m ρ c)))

theorem out1 (c : Dev nD) : W4 m ρ c (Proc.devRef .tc main_v85) = netL2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 11).trans ((Flush1.final (V3 m ρ) c).trans (Entry1.layer_eq (W2 m ρ c)))).trans ?_
  rw [out0 m ρ c, src2 m ρ c, dst2 m ρ c, arg2_2 m ρ c, arg3_2 m ρ c, arg4_2 m ρ c, arg5_2 m ρ c, arg6_2 m ρ c, arg7_2 m ρ c, arg8_2 m ρ c, arg9_2 m ρ c, arg10_2 m ρ c]
  rfl

theorem out2 (c : Dev nD) : W6 m ρ c (Proc.devRef .tc main_v126) = netL3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 11).trans ((Flush2.final (V5 m ρ) c).trans (Entry2.layer_eq (W4 m ρ c)))).trans ?_
  rw [out1 m ρ c, src4 m ρ c, dst4 m ρ c, arg2_4 m ρ c, arg3_4 m ρ c, arg4_4 m ρ c, arg5_4 m ρ c, arg6_4 m ρ c, arg7_4 m ρ c, arg8_4 m ρ c, arg9_4 m ρ c, arg10_4 m ρ c]
  rfl

/-- THE RESULT: the last launch's output array is the reference's four layers of the arguments. -/
theorem result_eq (c : Dev nD) : W8 m ρ c (Proc.devRef .tc main_v167) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W8_arr m ρ c 11).trans ((Flush3.final (V7 m ρ) c).trans (Entry3.layer_eq (W6 m ρ c)))).trans ?_
  rw [out2 m ρ c, src6 m ρ c, dst6 m ρ c, arg2_6 m ρ c, arg3_6 m ρ c, arg4_6 m ρ c, arg5_6 m ρ c, arg6_6 m ρ c, arg7_6 m ρ c, arg8_6 m ρ c, arg9_6 m ρ c, arg10_6 m ρ c]
  rfl

end Cert.KernelIdeal.Chain

end
-- ==== Proof.lean ====
/-
  The kernel program and its reference compute the same function over the extended reals.

  Both are a four-layer graph network on 100000 nodes with 128 features.  A layer sums, for every node, the feature rows
  of its in-neighbours (a gather along the edges' sources followed by an accumulation along their destinations: the same
  host operations in both programs), and sends each node's row `h` with that sum `a` to
      elu (((max ((s·h + a)·W₁ᵀ + b₁) 0)·W₂ᵀ + b₂ − μ) · rsqrt (σ² + 1e-5) · γ + β),     s = 1 + ε.
  The kernel program computes the neighbour sums and the per-layer parameters on the host and the rest in a launch over
  50 blocks of 2000 rows; the reference computes everything on whole arrays.  Entry by entry the two are the same
  expression with the operations in the same order: the products contract the same 128 terms, the block of a row is
  found by `row / 2000`, a change of float format is the identity, and `expm1 x` is `eˣ − 1`, so that
  `1 · expm1 x` and `eˣ − 1` agree where `x ≤ 0` (elsewhere both return `x`).  No step needs a finite value, so the
  precondition is not opened.
-/
import proofs.«163391_j14302241096098_1_alg».proof.Defs
import proofs.«163391_j14302241096098_1_alg».proof.Proof.Gen.Kernel
import proofs.«163391_j14302241096098_1_alg».proof.Proof.Gen.Kernel.Frame
import proofs.«163391_j14302241096098_1_alg».proof.Proof.Gen.KernelIdeal
import proofs.«163391_j14302241096098_1_alg».proof.Proof.Gen.KernelIdeal.Frame
import proofs.«163391_j14302241096098_1_alg».proof.Proof.Gen.ReferenceIdeal
import proofs.«163391_j14302241096098_1_alg».proof.Proof.Gen.Pre_finite_inputs
import proofs.«163391_j14302241096098_1_alg».proof.Proof.KRun
import proofs.«163391_j14302241096098_1_alg».proof.Proof.KChain
import proofs.«163391_j14302241096098_1_alg».proof.Proof.RefRun
import Idealize.ShloMosaic.Adequacy
import Idealize.ShloMosaic.Init

set_option maxRecDepth 16384

noncomputable section

namespace Cert.Proof

open Idealize.ShloMosaic Idealize.SL.Sem

/-- The word-level kernel program runs and leaves its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.RefRun.arg_eq_0 _),
     (h c Cert.ReferenceIdeal.main_arg1).trans (Cert.ReferenceIdeal.RefRun.arg_eq_1 _),
     (h c Cert.ReferenceIdeal.main_arg2).trans (Cert.ReferenceIdeal.RefRun.arg_eq_2 _),
     (h c Cert.ReferenceIdeal.main_arg3).trans (Cert.ReferenceIdeal.RefRun.arg_eq_3 _),
     (h c Cert.ReferenceIdeal.main_arg4).trans (Cert.ReferenceIdeal.RefRun.arg_eq_4 _),
     (h c Cert.ReferenceIdeal.main_arg5).trans (Cert.ReferenceIdeal.RefRun.arg_eq_5 _),
     (h c Cert.ReferenceIdeal.main_arg6).trans (Cert.ReferenceIdeal.RefRun.arg_eq_6 _),
     (h c Cert.ReferenceIdeal.main_arg7).trans (Cert.ReferenceIdeal.RefRun.arg_eq_7 _),
     (h c Cert.ReferenceIdeal.main_arg8).trans (Cert.ReferenceIdeal.RefRun.arg_eq_8 _),
     (h c Cert.ReferenceIdeal.main_arg9).trans (Cert.ReferenceIdeal.RefRun.arg_eq_9 _),
     (h c Cert.ReferenceIdeal.main_arg10).trans (Cert.ReferenceIdeal.RefRun.arg_eq_10 _)⟩)
    (Cert.ReferenceIdeal.RefRun.run (F := Ideal) m ρ)

/-- The ideal pass rewrote nothing. -/
theorem preserves : Cert.preserves_Kernel_KernelIdeal := trivial

/-- From memories that agree on the arguments both programs end with the reference's four layers of the arguments
    in their result buffers. -/
theorem algebraic : Cert.algebraic_KernelIdeal_ReferenceIdeal := by
  intro m ρ m' ρ' _ hagree
  refine ⟨fun c => Cert.ReferenceIdeal.RefRun.net (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.result_eq m ρ c), (h c).2⟩)
      (Cert.KernelIdeal.ValueRun.run_value (F := Ideal) m ρ)
  · refine (θ_run Cert.ReferenceIdeal.defs _ _).mono (fun _ h c => ⟨?_,
      (h c Cert.ReferenceIdeal.main_arg0).trans (Cert.ReferenceIdeal.RefRun.arg_eq_0 _),
      (h c Cert.ReferenceIdeal.main_arg1).trans (Cert.ReferenceIdeal.RefRun.arg_eq_1 _),
      (h c Cert.ReferenceIdeal.main_arg2).trans (Cert.ReferenceIdeal.RefRun.arg_eq_2 _),
      (h c Cert.ReferenceIdeal.main_arg3).trans (Cert.ReferenceIdeal.RefRun.arg_eq_3 _),
      (h c Cert.ReferenceIdeal.main_arg4).trans (Cert.ReferenceIdeal.RefRun.arg_eq_4 _),
      (h c Cert.ReferenceIdeal.main_arg5).trans (Cert.ReferenceIdeal.RefRun.arg_eq_5 _),
      (h c Cert.ReferenceIdeal.main_arg6).trans (Cert.ReferenceIdeal.RefRun.arg_eq_6 _),
      (h c Cert.ReferenceIdeal.main_arg7).trans (Cert.ReferenceIdeal.RefRun.arg_eq_7 _),
      (h c Cert.ReferenceIdeal.main_arg8).trans (Cert.ReferenceIdeal.RefRun.arg_eq_8 _),
      (h c Cert.ReferenceIdeal.main_arg9).trans (Cert.ReferenceIdeal.RefRun.arg_eq_9 _),
      (h c Cert.ReferenceIdeal.main_arg10).trans (Cert.ReferenceIdeal.RefRun.arg_eq_10 _)⟩)
      (Cert.ReferenceIdeal.RefRun.run (F := Ideal) m' ρ')
    refine ((h c Cert.ReferenceIdeal.main_v239).trans (Cert.ReferenceIdeal.RefRun.out_eq _)).trans ?_
    show Cert.ReferenceIdeal.RefRun.net (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
